-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x1024 : Shape := ⟨3, ![8, 1024, 1024]⟩
abbrev S2x1024x4096 : Shape := ⟨3, ![2, 1024, 4096]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S2x262144 : Shape := ⟨2, ![2, 262144]⟩
abbrev S262144 : Shape := ⟨1, ![262144]⟩
abbrev S_ : Shape := ⟨0, ![]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  bcast_S_S2x1024x4096 : S_.BroadcastsInDim S2x1024x4096 (![] : Fin 0 → Fin S2x1024x4096.rank)
  reducesTo_S2x1024x4096_S_d0_1_2 : S2x1024x4096.ReducesTo [0, 1, 2] S_
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S4096x1024 .f32) (main_arg5 : FVec F S1024 .f32) (main_arg6 : FVec F S1024 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S8x1024x1024 .f32) (main_arg1 : FVec F S2x1024x4096 .f32) (main_arg2 : FVec F S1024x4096 .f32) (main_arg3 : FVec F S4096 .f32) (main_arg4 : FVec F S4096x1024 .f32) (main_arg5 : FVec F S1024 .f32) (main_arg6 : FVec F S1024 .f32) (main_arg7 : IVec S2x262144 32) (main_arg8 : IVec S262144 32) : IVec S_ 1 :=
  let main_v0 : FVec F S8x1024x1024 .f32 := Host.absf main_arg0
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  let main_v4 : FVec F S2x1024x4096 .f32 := Host.absf main_arg1
  let main_cst_0 : FVec F S_ .f32 := constant S_ .f32 0x7F800000#32
  let main_v5 : FVec F S2x1024x4096 .f32 := broadcastInDim S2x1024x4096 ![] bcast_S_S2x1024x4096 main_cst_0
  let main_v6 : IVec S2x1024x4096 1 := cmpf .olt main_v4 main_v5
  let main_c_1 : IVec S_ 1 := constantI S_ 1 1#1
  let main_v7 : IVec S_ 1 := (fun x v => Host.reduce IntOp.andi x v reducesTo_S2x1024x4096_S_d0_1_2 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_v13 main_v16
-- ==== Kernel.lean ====
abbrev S8x1024x1024 : Shape := ⟨3, ![8, 1024, 1024]⟩
abbrev S2x1024x4096 : Shape := ⟨3, ![2, 1024, 4096]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S2x262144 : Shape := ⟨2, ![2, 262144]⟩
abbrev S262144 : Shape := ⟨1, ![262144]⟩
abbrev S8192x1024 : Shape := ⟨2, ![8192, 1024]⟩
abbrev S1024x1024 : Shape := ⟨2, ![1024, 1024]⟩
abbrev S1024x1 : Shape := ⟨2, ![1024, 1]⟩
abbrev S1x1024 : Shape := ⟨2, ![1, 1024]⟩
abbrev S1x262144 : Shape := ⟨2, ![1, 262144]⟩
abbrev S_ : Shape := ⟨0, ![]⟩
abbrev S262144x1 : Shape := ⟨2, ![262144, 1]⟩
abbrev S262144x1024 : Shape := ⟨2, ![262144, 1024]⟩
abbrev S8192 : Shape := ⟨1, ![8192]⟩
abbrev S8192x1 : Shape := ⟨2, ![8192, 1]⟩
abbrev S1x1024x4096 : Shape := ⟨3, ![1, 1024, 4096]⟩
abbrev S8192x4096 : Shape := ⟨2, ![8192, 4096]⟩
abbrev S512x1024 : Shape := ⟨2, ![512, 1024]⟩

abbrev nBuf : Space → Nat
  | .hbm => 86
  | .vmem => 31
  | .smem => 0
  | _ => 0

abbrev bufTy : (tb : Table) → Fin (tcTables nBuf tb) → BufTy
  | .hbm, ⟨0, _⟩ => ⟨S8x1024x1024, .f32⟩
  | .hbm, ⟨1, _⟩ => ⟨S2x1024x4096, .f32⟩
  | .hbm, ⟨2, _⟩ => ⟨S1024x4096, .f32⟩
  | .hbm, ⟨3, _⟩ => ⟨S4096, .f32⟩
  | .hbm, ⟨4, _⟩ => ⟨S4096x1024, .f32⟩
  | .hbm, ⟨5, _⟩ => ⟨S1024, .f32⟩
  | .hbm, ⟨6, _⟩ => ⟨S1024, .f32⟩
  | .hbm, ⟨7, _⟩ => ⟨S2x262144, .i32⟩
  | .hbm, ⟨8, _⟩ => ⟨S262144, .i32⟩
  | .hbm, ⟨9, _⟩ => ⟨S8192x1024, .f32⟩
  | .hbm, ⟨10, _⟩ => ⟨S8192x1024, .f32⟩
  | .hbm, ⟨11, _⟩ => ⟨S1x262144, .i32⟩
  | .hbm, ⟨12, _⟩ => ⟨S262144, .i32⟩
  | .hbm, ⟨13, _⟩ => ⟨S1x262144, .i32⟩
  | .hbm, ⟨14, _⟩ => ⟨S262144, .i32⟩
  | .hbm, ⟨15, _⟩ => ⟨S_, .i32⟩
  | .hbm, ⟨16, _⟩ => ⟨S262144, .i32⟩
  | .hbm, ⟨17, _⟩ => ⟨S262144, .i1⟩
  | .hbm, ⟨18, _⟩ => ⟨S_, .i32⟩
  | .hbm, ⟨19, _⟩ => ⟨S262144, .i32⟩
  | .hbm, ⟨20, _⟩ => ⟨S262144, .i32⟩
  | .hbm, ⟨21, _⟩ => ⟨S262144, .i32⟩
  | .hbm, ⟨22, _⟩ => ⟨S262144x1, .i32⟩
  | .hbm, ⟨23, _⟩ => ⟨S262144x1024, .f32⟩
  | .hbm, ⟨24, _⟩ => ⟨S_, .i32⟩
  | .hbm, ⟨25, _⟩ => ⟨S262144, .i32⟩
  | .hbm, ⟨26, _⟩ => ⟨S262144, .i1⟩
  | .hbm, ⟨27, _⟩ => ⟨S_, .i32⟩
  | .hbm, ⟨28, _⟩ => ⟨S262144, .i32⟩
  | .hbm, ⟨29, _⟩ => ⟨S262144, .i1⟩
  | .hbm, ⟨30, _⟩ => ⟨S262144x1, .i1⟩
  | .hbm, ⟨31, _⟩ => ⟨S_, .f32⟩
  | .hbm, ⟨32, _⟩ => ⟨S_, .f32⟩
  | .hbm, ⟨33, _⟩ => ⟨S262144x1024, .i1⟩
  | .hbm, ⟨34, _⟩ => ⟨S262144x1024, .f32⟩
  | .hbm, ⟨35, _⟩ => ⟨S262144x1024, .f32⟩
  | .hbm, ⟨36, _⟩ => ⟨S262144x1, .i1⟩
  | .hbm, ⟨37, _⟩ => ⟨S_, .f32⟩
  | .hbm, ⟨38, _⟩ => ⟨S_, .f32⟩
  | .hbm, ⟨39, _⟩ => ⟨S262144x1024, .i1⟩
  | .hbm, ⟨40, _⟩ => ⟨S262144x1024, .f32⟩
  | .hbm, ⟨41, _⟩ => ⟨S262144x1024, .f32⟩
  | .hbm, ⟨42, _⟩ => ⟨S_, .f32⟩
  | .hbm, ⟨43, _⟩ => ⟨S8192x1024, .f32⟩
  | .hbm, ⟨44, _⟩ => ⟨S262144x1, .i32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S262144x1, .i32⟩
  | .hbm, ⟨49, _⟩ => ⟨S8192x1024, .f32⟩
  | .hbm, ⟨50, _⟩ => ⟨S262144, .f32⟩
  | .hbm, ⟨51, _⟩ => ⟨S_, .f32⟩
  | .hbm, ⟨52, _⟩ => ⟨S8192, .f32⟩
  | .hbm, ⟨53, _⟩ => ⟨S262144x1, .i32⟩
  | .hbm, ⟨54, _⟩ => ⟨S8192, .f32⟩
  | .hbm, ⟨55, _⟩ => ⟨S262144, .f32⟩
  | .hbm, ⟨56, _⟩ => ⟨S_, .f32⟩
  | .hbm, ⟨57, _⟩ => ⟨S8192, .f32⟩
  | .hbm, ⟨58, _⟩ => ⟨S262144x1, .i32⟩
  | .hbm, ⟨59, _⟩ => ⟨S8192, .f32⟩
  | .hbm, ⟨60, _⟩ => ⟨S_, .f32⟩
  | .hbm, ⟨61, _⟩ => ⟨S8192, .f32⟩
  | .hbm, ⟨62, _⟩ => ⟨S8192, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S8192, .f32⟩
  | .hbm, ⟨68, _⟩ => ⟨S8192, .f32⟩
  | .hbm, ⟨69, _⟩ => ⟨S8192x1, .f32⟩
  | .hbm, ⟨70, _⟩ => ⟨S8192x1024, .f32⟩
  | .hbm, ⟨71, _⟩ => ⟨S8192x1024, .f32⟩
  | .hbm, ⟨72, _⟩ => ⟨S8192x1024, .bf16⟩
  | .hbm, ⟨73, _⟩ => ⟨S8192x1024, .bf16⟩
  | .hbm, ⟨74, _⟩ => ⟨S8192x1024, .bf16⟩
  | .hbm, ⟨75, _⟩ => ⟨S1x1024x4096, .f32⟩
  | .hbm, ⟨76, _⟩ => ⟨S1024x4096, .f32⟩
  | .hbm, ⟨77, _⟩ => ⟨S1024x4096, .bf16⟩
  | .hbm, ⟨78, _⟩ => ⟨S1x1024x4096, .f32⟩
  | .hbm, ⟨79, _⟩ => ⟨S1024x4096, .f32⟩
  | .hbm, ⟨80, _⟩ => ⟨S1024x4096, .bf16⟩
  | .hbm, ⟨81, _⟩ => ⟨S1024x4096, .bf16⟩
  | .hbm, ⟨82, _⟩ => ⟨S8192x4096, .bf16⟩
  | .hbm, ⟨83, _⟩ => ⟨S4096x1024, .bf16⟩
  | .hbm, ⟨84, _⟩ => ⟨S8192x1024, .f32⟩
  | .hbm, ⟨85, _⟩ => ⟨S8x1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024, .f32⟩
  | .local _ .vmem, ⟨3, _⟩ => ⟨S1024, .f32⟩
  | .local _ .vmem, ⟨4, _⟩ => ⟨S1024x1024, .f32⟩
  | .local _ .vmem, ⟨5, _⟩ => ⟨S1024x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024, .f32⟩
  | .local _ .vmem, ⟨19, _⟩ => ⟨S1024, .f32⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S1024x1024, .bf16⟩
  | .local _ .vmem, ⟨25, _⟩ => ⟨S1024x1024, .bf16⟩
  | .local _ .vmem, ⟨26, _⟩ => ⟨S512x1024, .f32⟩
  | .local _ .vmem, ⟨27, _⟩ => ⟨S512x1024, .f32⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v20 : Ref sig .tc := ⟨.hbm, 41, rfl⟩
abbrev main_cst_4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_6 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_7 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_9 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_scratch0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![16, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_6 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1024x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S512x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨2, ![16, 4], ![false, false]⟩

def k2_cond2 (i : grid2.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  shapeCasts_S8x1024x1024_S8192x1024 : S8x1024x1024.ShapeCasts S8192x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x1024_0_1 : S262144x1.BroadcastsInDim S262144x1024 (![0, 1] : Fin 2 → Fin S262144x1024.rank)
  bcast_S_S262144x1024 : S_.BroadcastsInDim S262144x1024 (![] : Fin 0 → Fin S262144x1024.rank)
  bcast_S_S8192x1024 : S_.BroadcastsInDim S8192x1024 (![] : Fin 0 → Fin S8192x1024.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x1024_0_1 : S8192x1.BroadcastsInDim S8192x1024 (![0, 1] : Fin 2 → Fin S8192x1024.rank)
  bitsLt_bf16_f32 : FTy.bits .bf16 < FTy.bits .f32
  slices_S2x1024x4096_S1x1024x4096_0_0_0 : S2x1024x4096.Slices ![0, 0, 0] S1x1024x4096
  shapeCasts_S1x1024x4096_S1024x4096 : S1x1024x4096.ShapeCasts S1024x4096
  slices_S2x1024x4096_S1x1024x4096_1_0_0 : S2x1024x4096.Slices ![1, 0, 0] S1x1024x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S8192x1024_S8x1024x1024 : S8192x1024.ShapeCasts S8x1024x1024
  gather_S8192x1024_S262144x1_S262144x1024_1_0_n_n_0_1_11024_wf : GatherDims.WF S8192x1024 S262144x1 S262144x1024 [1] [0] [] [0] [] 1 ![1, 1024]
  scatter_S8192x1024_S262144x1_S262144x1024_1_0_0_1_wf : ScatterDims.WF S8192x1024 S262144x1 S262144x1024 [1] [0] [0] 1
  scatter_S8192_S262144x1_S262144_n_0_0_1_wf : ScatterDims.WF S8192 S262144x1 S262144 [] [0] [0] 1
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S1024.size a
  hwx0_1 : ∀ i : grid0.Coords, EltTy.bits .f32 = 32 ∨ (Rect.block (s := S1024) S1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x1024.size a
  hwx0_3 : ∀ i : grid0.Coords, EltTy.bits .f32 = 32 ∨ (Rect.block (s := S8192x1024) S1024x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x1024.size a
  hwx1_0 : ∀ i : grid1.Coords, EltTy.bits .bf16 = 32 ∨ (Rect.block (s := S8192x1024) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S8192x1024.size a
  hwx1_1 : ∀ i : grid1.Coords, EltTy.bits .bf16 = 32 ∨ (Rect.block (s := S8192x1024) S512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S8192x1024.size a
  hwx1_2 : ∀ i : grid1.Coords, EltTy.bits .bf16 = 32 ∨ (Rect.block (s := S8192x1024) S512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x4096.size a
  hwx1_3 : ∀ i : grid1.Coords, EltTy.bits .bf16 = 32 ∨ (Rect.block (s := S1024x4096) S1024x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S1024x4096.size a
  hwx1_4 : ∀ i : grid1.Coords, EltTy.bits .bf16 = 32 ∨ (Rect.block (s := S1024x4096) S1024x1024.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S1024x4096.size a
  hwx1_5 : ∀ i : grid1.Coords, EltTy.bits .bf16 = 32 ∨ (Rect.block (s := S1024x4096) S1024x1024.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024.size a ≤ S4096.size a
  hwx1_6 : ∀ i : grid1.Coords, EltTy.bits .f32 = 32 ∨ (Rect.block (s := S4096) S1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x1024.size a ≤ S8192x4096.size a
  hwx1_7 : ∀ i : grid1.Coords, EltTy.bits .bf16 = 32 ∨ (Rect.block (s := S8192x4096) S512x1024.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x4096.size a
  hwx2_0 : ∀ i : grid2.Coords, EltTy.bits .bf16 = 32 ∨ (Rect.block (s := S8192x4096) S512x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x1024.size a
  hwx2_1 : ∀ i : grid2.Coords, EltTy.bits .bf16 = 32 ∨ (Rect.block (s := S4096x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S8192x1024.size a
  hwx2_2 : ∀ i : grid2.Coords, EltTy.bits .f32 = 32 ∨ (Rect.block (s := S8192x1024) S512x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S8192x1024.size a
  hwx2_3 : ∀ i : grid2.Coords, EltTy.bits .f32 = 32 ∨ (Rect.block (s := S8192x1024) S512x1024.size (cc2_transform_3 i) (hinb2_3 i)).WholeWords (EltTy.packing .f32)

variable [Facts₀]

def gather_S8192x1024_S262144x1_S262144x1024_1_0_n_n_0_1_11024 : GatherDims S8192x1024 S262144x1 S262144x1024 where
  offsetDims := [1]
  collapsedSliceDims := [0]
  operandBatchingDims := []
  startIndicesBatchingDims := []
  startIndexMap := [0]
  indexVectorDim := 1
  sliceSizes := ![1, 1024]
  wf := gather_S8192x1024_S262144x1_S262144x1024_1_0_n_n_0_1_11024_wf
def scatter_S8192x1024_S262144x1_S262144x1024_1_0_0_1 : ScatterDims S8192x1024 S262144x1 S262144x1024 where
  updateWindowDims := [1]
  insertedWindowDims := [0]
  scatterDimsToOperandDims := [0]
  indexVectorDim := 1
  wf := scatter_S8192x1024_S262144x1_S262144x1024_1_0_0_1_wf
def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v45) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v53) S1024x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v54) S1024x1024.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg3) S1024.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v55) S512x1024.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v55) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v0) S512x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v57) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S8x1024x1024 : Shape := ⟨3, ![8, 1024, 1024]⟩
abbrev S2x1024x4096 : Shape := ⟨3, ![2, 1024, 4096]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S2x262144 : Shape := ⟨2, ![2, 262144]⟩
abbrev S262144 : Shape := ⟨1, ![262144]⟩
abbrev S_ : Shape := ⟨0, ![]⟩
abbrev S8x1024 : Shape := ⟨2, ![8, 1024]⟩
abbrev S8x1024x1 : Shape := ⟨3, ![8, 1024, 1]⟩
abbrev S1x1x1024 : Shape := ⟨3, ![1, 1, 1024]⟩
abbrev S8192x1024 : Shape := ⟨2, ![8192, 1024]⟩
abbrev S1x262144 : Shape := ⟨2, ![1, 262144]⟩
abbrev S8192x4096 : Shape := ⟨2, ![8192, 4096]⟩
abbrev S262144x1 : Shape := ⟨2, ![262144, 1]⟩
abbrev S262144x1024 : Shape := ⟨2, ![262144, 1024]⟩
abbrev S8192 : Shape := ⟨1, ![8192]⟩
abbrev S8192x1 : Shape := ⟨2, ![8192, 1]⟩
abbrev S1x1024x4096 : Shape := ⟨3, ![1, 1024, 4096]⟩
abbrev S1x4096 : Shape := ⟨2, ![1, 4096]⟩

abbrev nBuf : Space → Nat
  | .hbm => 130
  | .vmem => 0
  | .smem => 0
  | _ => 0

abbrev hbmTy0_0 (i : Nat) : BufTy := match i % 128 with
  | 0 => ⟨S8x1024x1024, .f32⟩
  | 1 => ⟨S2x1024x4096, .f32⟩
  | 2 => ⟨S1024x4096, .f32⟩
  | 3 => ⟨S4096, .f32⟩
  | 4 => ⟨S4096x1024, .f32⟩
  | 5 => ⟨S1024, .f32⟩
  | 6 => ⟨S1024, .f32⟩
  | 7 => ⟨S2x262144, .i32⟩
  | 8 => ⟨S262144, .i32⟩
  | 9 => ⟨S_, .f32⟩
  | 10 => ⟨S8x1024, .f32⟩
  | 11 => ⟨S8x1024x1, .f32⟩
  | 12 => ⟨S_, .f32⟩
  | 13 => ⟨S8x1024x1, .f32⟩
  | 14 => ⟨S8x1024x1, .f32⟩
  | 15 => ⟨S8x1024x1024, .f32⟩
  | 16 => ⟨S8x1024x1024, .f32⟩
  | 17 => ⟨S8x1024x1024, .f32⟩
  | 18 => ⟨S_, .f32⟩
  | 19 => ⟨S8x1024, .f32⟩
  | 20 => ⟨S8x1024x1, .f32⟩
  | 21 => ⟨S_, .f32⟩
  | 22 => ⟨S8x1024x1, .f32⟩
  | 23 => ⟨S8x1024x1, .f32⟩
  | 24 => ⟨S8x1024x1024, .f32⟩
  | 25 => ⟨S8x1024x1024, .f32⟩
  | 26 => ⟨S_, .f32⟩
  | 27 => ⟨S8x1024x1, .f32⟩
  | 28 => ⟨S8x1024x1, .f32⟩
  | 29 => ⟨S8x1024x1, .f32⟩
  | 30 => ⟨S8x1024x1024, .f32⟩
  | 31 => ⟨S8x1024x1024, .f32⟩
  | 32 => ⟨S1x1x1024, .f32⟩
  | 33 => ⟨S8x1024x1024, .f32⟩
  | 34 => ⟨S8x1024x1024, .f32⟩
  | 35 => ⟨S1x1x1024, .f32⟩
  | 36 => ⟨S8x1024x1024, .f32⟩
  | 37 => ⟨S8x1024x1024, .f32⟩
  | 38 => ⟨S8192x1024, .f32⟩
  | 39 => ⟨S1x262144, .i32⟩
  | 40 => ⟨S262144, .i32⟩
  | 41 => ⟨S1x262144, .i32⟩
  | 42 => ⟨S262144, .i32⟩
  | 43 => ⟨S_, .f32⟩
  | 44 => ⟨S8192x4096, .f32⟩
  | 45 => ⟨S_, .i32⟩
  | 46 => ⟨S262144, .i32⟩
  | 47 => ⟨S262144, .i1⟩
  | 48 => ⟨S262144x1, .i1⟩
  | 49 => ⟨S_, .i32⟩
  | 50 => ⟨S262144, .i32⟩
  | 51 => ⟨S262144, .i1⟩
  | 52 => ⟨S_, .i32⟩
  | 53 => ⟨S262144, .i32⟩
  | 54 => ⟨S262144, .i32⟩
  | 55 => ⟨S262144, .i32⟩
  | 56 => ⟨S262144x1, .i32⟩
  | 57 => ⟨S262144x1024, .f32⟩
  | 58 => ⟨S_, .f32⟩
  | 59 => ⟨S_, .f32⟩
  | 60 => ⟨S262144x1024, .i1⟩
  | 61 => ⟨S262144x1024, .f32⟩
  | 62 => ⟨S262144x1024, .f32⟩
  | 63 => ⟨S_, .f32⟩
  | 64 => ⟨S8192x1024, .f32⟩
  | 65 => ⟨S262144x1, .i32⟩
  | 66 => ⟨S8192x1024, .f32⟩
  | 67 => ⟨S262144, .f32⟩
  | 68 => ⟨S_, .f32⟩
  | 69 => ⟨S8192, .f32⟩
  | 70 => ⟨S262144x1, .i32⟩
  | 71 => ⟨S8192, .f32⟩
  | 72 => ⟨S_, .f32⟩
  | 73 => ⟨S8192, .f32⟩
  | 74 => ⟨S8192, .f32⟩
  | 75 => ⟨S8192x1, .f32⟩
  | 76 => ⟨S8192x1024, .f32⟩
  | 77 => ⟨S8192x1024, .f32⟩
  | 78 => ⟨S1x1024x4096, .f32⟩
  | 79 => ⟨S1024x4096, .f32⟩
  | 80 => ⟨S8192x4096, .f32⟩
  | 81 => ⟨S8192x4096, .f32⟩
  | 82 => ⟨S_, .i32⟩
  | 83 => ⟨S262144, .i32⟩
  | 84 => ⟨S262144, .i1⟩
  | 85 => ⟨S262144x1, .i1⟩
  | 86 => ⟨S_, .i32⟩
  | 87 => ⟨S262144, .i32⟩
  | 88 => ⟨S262144, .i1⟩
  | 89 => ⟨S_, .i32⟩
  | 90 => ⟨S262144, .i32⟩
  | 91 => ⟨S262144, .i32⟩
  | 92 => ⟨S262144, .i32⟩
  | 93 => ⟨S262144x1, .i32⟩
  | 94 => ⟨S262144x1024, .f32⟩
  | 95 => ⟨S_, .f32⟩
  | 96 => ⟨S_, .f32⟩
  | 97 => ⟨S262144x1024, .i1⟩
  | 98 => ⟨S262144x1024, .f32⟩
  | 99 => ⟨S262144x1024, .f32⟩
  | 100 => ⟨S_, .f32⟩
  | 101 => ⟨S8192x1024, .f32⟩
  | 102 => ⟨S262144x1, .i32⟩
  | 103 => ⟨S8192x1024, .f32⟩
  | 104 => ⟨S262144, .f32⟩
  | 105 => ⟨S_, .f32⟩
  | 106 => ⟨S8192, .f32⟩
  | 107 => ⟨S262144x1, .i32⟩
  | 108 => ⟨S8192, .f32⟩
  | 109 => ⟨S_, .f32⟩
  | 110 => ⟨S8192, .f32⟩
  | 111 => ⟨S8192, .f32⟩
  | 112 => ⟨S8192x1, .f32⟩
  | 113 => ⟨S8192x1024, .f32⟩
  | 114 => ⟨S8192x1024, .f32⟩
  | 115 => ⟨S1x1024x4096, .f32⟩
  | 116 => ⟨S1024x4096, .f32⟩
  | 117 => ⟨S8192x4096, .f32⟩
  | 118 => ⟨S8192x4096, .f32⟩
  | 119 => ⟨S8192x4096, .f32⟩
  | 120 => ⟨S8192x4096, .f32⟩
  | 121 => ⟨S1x4096, .f32⟩
  | 122 => ⟨S8192x4096, .f32⟩
  | 123 => ⟨S8192x4096, .f32⟩
  | 124 => ⟨S_, .f32⟩
  | 125 => ⟨S8192x4096, .f32⟩
  | 126 => ⟨S8192x4096, .f32⟩
  | 127 => ⟨S8192x1024, .f32⟩
  | _ => ⟨S8x1024x1024, .f32⟩

abbrev hbmTy0_1 (i : Nat) : BufTy := match i % 128 with
  | 0 => ⟨S8x1024x1024, .f32⟩
  | 1 => ⟨S8x1024x1024, .f32⟩
  | _ => ⟨S8x1024x1024, .f32⟩

abbrev hbmTy (i : Nat) : BufTy := match i / 128 with
  | 0 => hbmTy0_0 i
  | 1 => hbmTy0_1 i
  | _ => ⟨S8x1024x1024, .f32⟩

abbrev bufTy : (tb : Table) → Fin (tcTables nBuf tb) → BufTy
  | .hbm, ⟨i, _⟩ => hbmTy i
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_c : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_5 : Ref sig .tc := ⟨.hbm, 49, rfl⟩
abbrev main_v33 : Ref sig .tc := ⟨.hbm, 50, rfl⟩
abbrev main_v34 : Ref sig .tc := ⟨.hbm, 51, rfl⟩
abbrev main_c_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_c_12 : Ref sig .tc := ⟨.hbm, 86, rfl⟩
abbrev main_v60 : Ref sig .tc := ⟨.hbm, 87, rfl⟩
abbrev main_v61 : Ref sig .tc := ⟨.hbm, 88, rfl⟩
abbrev main_c_13 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_14 : Ref sig .tc := ⟨.hbm, 95, rfl⟩
abbrev main_call1_v0 : Ref sig .tc := ⟨.hbm, 96, rfl⟩
abbrev main_call1_v1 : Ref sig .tc := ⟨.hbm, 97, rfl⟩
abbrev main_call1_v2 : Ref sig .tc := ⟨.hbm, 98, rfl⟩
abbrev main_v67 : Ref sig .tc := ⟨.hbm, 99, rfl⟩
abbrev main_cst_15 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_16 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_17 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_call2_cst : Ref sig .tc := ⟨.hbm, 124, rfl⟩
abbrev main_call2_v0 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩

abbrev nD : Nat := 1
abbrev τ : Topo := Topo.v7x

variable {F : FTy → Type} [FloatOps F]

class Facts₀ : Prop where
  reducesTo_S8x1024x1024_S8x1024_d2 : S8x1024x1024.ReducesTo [2] S8x1024
  h_S_ : 0 < S_.numel
  bcast_S8x1024_S8x1024x1_0_1 : S8x1024.BroadcastsInDim S8x1024x1 (![0, 1] : Fin 2 → Fin S8x1024x1.rank)
  bcast_S_S8x1024x1 : S_.BroadcastsInDim S8x1024x1 (![] : Fin 0 → Fin S8x1024x1.rank)
  bcast_S8x1024x1_S8x1024x1024_0_1_2 : S8x1024x1.BroadcastsInDim S8x1024x1024 (![0, 1, 2] : Fin 3 → Fin S8x1024x1024.rank)
  bcast_S1024_S1x1x1024_2 : S1024.BroadcastsInDim S1x1x1024 (![2] : Fin 1 → Fin S1x1x1024.rank)
  bcast_S1x1x1024_S8x1024x1024_0_1_2 : S1x1x1024.BroadcastsInDim S8x1024x1024 (![0, 1, 2] : Fin 3 → Fin S8x1024x1024.rank)
  shapeCasts_S8x1024x1024_S8192x1024 : S8x1024x1024.ShapeCasts S8192x1024
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S8192x4096 : S_.BroadcastsInDim S8192x4096 (![] : Fin 0 → Fin S8192x4096.rank)
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x1024_0_1 : S262144x1.BroadcastsInDim S262144x1024 (![0, 1] : Fin 2 → Fin S262144x1024.rank)
  bcast_S_S262144x1024 : S_.BroadcastsInDim S262144x1024 (![] : Fin 0 → Fin S262144x1024.rank)
  bcast_S_S8192x1024 : S_.BroadcastsInDim S8192x1024 (![] : Fin 0 → Fin S8192x1024.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x1024_0_1 : S8192x1.BroadcastsInDim S8192x1024 (![0, 1] : Fin 2 → Fin S8192x1024.rank)
  slices_S2x1024x4096_S1x1024x4096_0_0_0 : S2x1024x4096.Slices ![0, 0, 0] S1x1024x4096
  shapeCasts_S1x1024x4096_S1024x4096 : S1x1024x4096.ShapeCasts S1024x4096
  slices_S2x1024x4096_S1x1024x4096_1_0_0 : S2x1024x4096.Slices ![1, 0, 0] S1x1024x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  shapeCasts_S8192x1024_S8x1024x1024 : S8192x1024.ShapeCasts S8x1024x1024
  gather_S8192x1024_S262144x1_S262144x1024_1_0_n_n_0_1_11024_wf : GatherDims.WF S8192x1024 S262144x1 S262144x1024 [1] [0] [] [0] [] 1 ![1, 1024]
  scatter_S8192x1024_S262144x1_S262144x1024_1_0_0_1_wf : ScatterDims.WF S8192x1024 S262144x1 S262144x1024 [1] [0] [0] 1
  scatter_S8192_S262144x1_S262144_n_0_0_1_wf : ScatterDims.WF S8192 S262144x1 S262144 [] [0] [0] 1
  dot_S8192x1024_S1024x4096_S8192x4096_1_0_0_1_n_n_wf : DotDims.WF S8192x1024 S1024x4096 S8192x4096 [1] [0] [0] [1] [] []
  dot_S8192x4096_S4096x1024_S8192x1024_1_0_0_1_n_n_wf : DotDims.WF S8192x4096 S4096x1024 S8192x1024 [1] [0] [0] [1] [] []

variable [Facts₀]

def gather_S8192x1024_S262144x1_S262144x1024_1_0_n_n_0_1_11024 : GatherDims S8192x1024 S262144x1 S262144x1024 where
  offsetDims := [1]
  collapsedSliceDims := [0]
  operandBatchingDims := []
  startIndicesBatchingDims := []
  startIndexMap := [0]
  indexVectorDim := 1
  sliceSizes := ![1, 1024]
  wf := gather_S8192x1024_S262144x1_S262144x1024_1_0_n_n_0_1_11024_wf
def scatter_S8192x1024_S262144x1_S262144x1024_1_0_0_1 : ScatterDims S8192x1024 S262144x1 S262144x1024 where
  updateWindowDims := [1]
  insertedWindowDims := [0]
  scatterDimsToOperandDims := [0]
  indexVectorDim := 1
  wf := scatter_S8192x1024_S262144x1_S262144x1024_1_0_0_1_wf
def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf
def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf
def dot_S8192x4096_S4096x1024_S8192x1024_1_0_0_1_n_n : DotDims S8192x4096 S4096x1024 S8192x1024 where
  lhsContracting := [1]
  rhsContracting := [0]
  lhsNonContracting := [0]
  rhsNonContracting := [1]
  lhsBatch := []
  rhsBatch := []
  wf := dot_S8192x4096_S4096x1024_S8192x1024_1_0_0_1_n_n_wf

class Facts : Prop extends Facts₀ where

variable [Facts]
-- ==== Proof.Kernel.Reg0.lean ====
import proofs.«100067_j50276887167422_1_alg».proof.Proof.Gen.Kernel.Launch
import proofs.«100067_j50276887167422_1_alg».proof.Proof.Gen.Kernel.Skeleton
import proofs.«100067_j50276887167422_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a whole-tile rectangle covers its tile walks once along each long axis
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the core's buffer contents when the region is entered; every statement below is relative to it
variable (V : (c : Dev nD) → (b : Ref sig .tc) → Buf (Elt F) ((c : Thread nD τ).loc b))

/-! # The layer-norm call (pipeline 0) entered at `V`

Four windows over a grid of 8 row tiles: window 0 is the `[8192,1024]` input cut into `[1024,1024]` row
tiles, windows 1 and 2 are the `[1024]` scale and shift (the same block at every point), window 3 is the
output, tiled like window 0. -/

/-! ## The windows' blocks -/

/-- The block of window `w` that point `t` works on, read off the window's array as `V` holds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row tile of the input is in its staging buffer at every point: it is fetched at every point. Stated for
    any proof data over `V`'s arrays whose body leaves the tile where it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The scale vector is in its staging buffer at every point, although it is fetched at the first point only:
    its block index never moves, so what was fetched at the first point is still this point's block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The shift vector likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole `[1024,1024]` tile, which the body loads (input and output) and stores (output) in one piece. -/
abbrev r0_0 : Rect S1024x1024 := Rect.unit (s := S1024x1024) ![0, 0] S1024x1024.size inb_S1024x1024_S1024x1024_0_0
/-- The whole `[1024]` vector, loaded for the scale and for the shift. -/
abbrev r0_1 : Rect S1024 := Rect.unit (s := S1024) ![0] S1024.size inb_S1024_S1024_0

/-! ## What the body leaves in the output buffer -/

/-- The output tile after the body, from the three input blocks: one store of the normalised, scaled and shifted
    tile over the whole buffer. -/
def out0_3 (x0 : Vec F S1024x1024 .f32) (x1 : Vec F S1024 .f32) (x2 : Vec F S1024 .f32) : Vec F S1024x1024 .f32 :=
  View.canon [⟨r0_0, k0_pay1 (View.ld x0 r0_0) (View.ld x1 r0_1) (View.ld x2 r0_1)⟩]

/-- The single store covers the output buffer: its rectangle is the whole tile. -/
theorem cover0_3 (p0 : Vec F S1024x1024 .f32) (y : S1024x1024.Idx) :
    ∃ pc ∈ ([⟨r0_0, p0⟩] : List (View.Piece (Elt F) S1024x1024 .f32)), y ∈ pc.1.set :=
  View.cover_of_tiled [⟨r0_0, p0⟩] S1024x1024.size (by rfl) y

/-! ## The body's triple -/

set_option maxHeartbeats 1000000 in
/-- The body on whole staging buffers: with the three inputs at `x0 x1 x2` and the output buffer at anything, it
    returns the inputs untouched and the output buffer at `out0_3 x0 x1 x2`. -/
theorem sound_kernel0 (c : Dev nD) (E : Set ℕ) (i : grid0.Coords)
    (arg0 : Memref sig .tc .vmem S1024x1024 .f32) (harg0 : arg0.IsWhole) (arg1 : Memref sig .tc .vmem S1024 .f32) (harg1 : arg1.IsWhole)
    (arg2 : Memref sig .tc .vmem S1024 .f32) (harg2 : arg2.IsWhole) (arg3 : Memref sig .tc .vmem S1024x1024 .f32) (harg3 : arg3.IsWhole)
    (x0 : Vec F S1024x1024 .f32) (x1 : Vec F S1024 .f32) (x2 : Vec F S1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__ln_kernel i arg0 harg0 arg1 harg1 arg2 harg2 arg3 harg3) K := by
  simp only [cc0__ln_kernel_eq_skeleton]; unfold cc0__ln_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the layer-norm pipeline on core `c`: the arrays as `V` holds them; after the body at point
    `t` every input buffer still at its block and the output buffer at `out0_3` of the three input blocks; the
    invariant is the untouched rest of the core; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are `V`'s. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Every input buffer holds its block when the body is called. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Fr

end
-- ==== Proof.Kernel.Reg1.lean ====
import proofs.«100067_j50276887167422_1_alg».proof.Proof.Gen.Kernel.Launch
import proofs.«100067_j50276887167422_1_alg».proof.Proof.Gen.Kernel.Skeleton
import proofs.«100067_j50276887167422_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a whole-tile rectangle covers its tile walks once along each long axis
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the core's buffer contents when the region is entered; every statement below is relative to it
variable (V : (c : Dev nD) → (b : Ref sig .tc) → Buf (Elt F) ((c : Thread nD τ).loc b))

/-! # The three-matmul call (pipeline 1) entered at `V`

Eight windows over a 16 x 4 grid: windows 0, 1, 2 are `[512,1024]` bf16 row tiles of the three left operands
(the same tile along the inner axis), windows 3, 4, 5 are `[1024,1024]` bf16 column tiles of the three weight
matrices, window 6 is the `[1024]` slice of the bias, window 7 is the `[512,1024]` bf16 output tile. -/

/-! ## The windows' blocks -/

/-- The block of window `w` that point `t` works on, read off the window's array as `V` holds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, for any proof data over `V`'s arrays whose
    body leaves the block where it found it. The row tiles (windows 0, 1, 2) are fetched only when the outer grid
    coordinate moves; in between their block index does not move, so the buffer still holds this point's block.
    The column tiles and the bias slice (windows 3 to 6) are fetched at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole `[512,1024]` tile: the three left operands' loads, and the output's load and store. -/
abbrev r1_0 : Rect S512x1024 := Rect.unit (s := S512x1024) ![0, 0] S512x1024.size inb_S512x1024_S512x1024_0_0
/-- The whole `[1024,1024]` tile: the three weight tiles' loads. -/
abbrev r1_1 : Rect S1024x1024 := Rect.unit (s := S1024x1024) ![0, 0] S1024x1024.size inb_S1024x1024_S1024x1024_0_0
/-- The whole `[1024]` vector: the bias slice's load. -/
abbrev r1_2 : Rect S1024 := Rect.unit (s := S1024) ![0] S1024.size inb_S1024_S1024_0

/-! ## What the body leaves in the output buffer -/

/-- The output tile after the body, from the seven input blocks in window order: one store, over the whole buffer,
    of `relu(x0·x3 + x1·x4 + x2·x5 + bias)` rounded to bf16. The payload takes its arguments in the order the
    body loads them: each left operand followed by its weight tile, then the bias. -/
def out1_7 (x0 x1 x2 : Vec F S512x1024 .bf16) (x3 x4 x5 : Vec F S1024x1024 .bf16) (x6 : Vec F S1024 .f32) : Vec F S512x1024 .bf16 :=
  View.canon [⟨r1_0, k1_pay1 (View.ld x0 r1_0) (View.ld x3 r1_1) (View.ld x1 r1_0) (View.ld x4 r1_1) (View.ld x2 r1_0) (View.ld x5 r1_1) (View.ld x6 r1_2)⟩]

/-- The single store covers the output buffer: its rectangle is the whole tile. -/
theorem cover1_7 (p0 : Vec F S512x1024 .bf16) (y : S512x1024.Idx) :
    ∃ pc ∈ ([⟨r1_0, p0⟩] : List (View.Piece (Elt F) S512x1024 .bf16)), y ∈ pc.1.set :=
  View.cover_of_tiled [⟨r1_0, p0⟩] S512x1024.size (by rfl) y

/-! ## The body's triple -/

set_option maxHeartbeats 1000000 in
/-- The body on whole staging buffers: with the seven inputs at `x0 … x6` and the output buffer at anything, it
    returns the inputs untouched and the output buffer at `out1_7 x0 … x6`. -/
theorem sound_kernel1 (c : Dev nD) (E : Set ℕ) (i : grid1.Coords)
    (arg0 : Memref sig .tc .vmem S512x1024 .bf16) (harg0 : arg0.IsWhole)
    (arg1 : Memref sig .tc .vmem S512x1024 .bf16) (harg1 : arg1.IsWhole)
    (arg2 : Memref sig .tc .vmem S512x1024 .bf16) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1024 .f32) (harg6 : arg6.IsWhole)
    (arg7 : Memref sig .tc .vmem S512x1024 .bf16) (harg7 : arg7.IsWhole)
    (x0 : Vec F S512x1024 .bf16) (x1 : Vec F S512x1024 .bf16) (x2 : Vec F S512x1024 .bf16) (x3 : Vec F S1024x1024 .bf16) (x4 : Vec F S1024x1024 .bf16) (x5 : Vec F S1024x1024 .bf16) (x6 : Vec F S1024 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare (out1_7 x0 x1 x2 x3 x4 x5 x6)) -∗ K ⟨⟩))
      ⊢ wp frame (wpE (defs₀ (F := F)) Variants.none c none) E (cc1__big_mm_kernel i arg0 harg0 arg1 harg1 arg2 harg2 arg3 harg3 arg4 harg4 arg5 harg5 arg6 harg6 arg7 harg7) K := by
  simp only [cc1__big_mm_kernel_eq_skeleton]; unfold cc1__big_mm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of the three-matmul pipeline on core `c`: the arrays as `V` holds them; after the body at point
    `t` every input buffer still at its block and the output buffer at `out1_7` of the seven input blocks; the
    invariant is the untouched rest of the core; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are `V`'s. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-- Every input buffer holds its block when the body is called. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the input buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Fr

end
-- ==== Proof.Kernel.Reg2Runs.lean ====
/- Region 2 (the output projection, accumulated over the four K-blocks of a row tile in a VMEM accumulator, plus the
   residual): what its three control cases share. The grid is 16 x 4, point t = 4 i + k; the body resets the
   accumulator at k = 0, adds the block product at every k, and at k = 3 stores accumulator + residual tile into the
   output window's buffer. -/
import proofs.«100067_j50276887167422_1_alg».proof.Proof.Gen.Kernel.Launch
import proofs.«100067_j50276887167422_1_alg».proof.Proof.Gen.Kernel.Skeleton
import proofs.«100067_j50276887167422_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the tiles' extents: the elaborator's structural look recurses once per coordinate
-- of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, from the grid coordinates -/

/-- The first conditional's test (k = 0: reset the accumulator), as the body computes it from the inner coordinate. -/
abbrev cond2_0 (i : grid2.Coords) : Prop := (Scalar.cmpi .ne (Scalar.extui (Scalar.cmpi .eq (BitVec.ofNat 32 (i 1).val) 0#32)) 0#32) = 1#1
/-- It holds exactly at the points t ≡ 0 (mod 4): decided over the 64 points. -/
theorem hcond2_0 : ∀ t : Fin cfg2.N, cond2_0 (grid2.coords t) ↔ t.val % 4 = 0 :=
  (by decide +kernel : ∀ t : Fin grid2.N, cond2_0 (grid2.coords t) ↔ t.val % 4 = 0)

/-- The second conditional's test (k = 3: emit accumulator + residual). -/
abbrev cond2_1 (i : grid2.Coords) : Prop := k2_cond2 i = 1#1
/-- It holds exactly at the points t ≡ 3 (mod 4). -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

/-- The three input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- At k = 0 the output window is idle (nothing is stored into it) and its block is not written back. -/
theorem idleAt2_3_A : ∀ t : Fin cfg2.N, cond2_0 (grid2.coords t) → ¬cond2_1 (grid2.coords t) → cfg2.idle 3 (grid2.coords t) = true := by decide +kernel
theorem noFlush2_3_A : ∀ t : Fin cfg2.N, cond2_0 (grid2.coords t) → ¬cond2_1 (grid2.coords t) → (cfg2.win 3).flush t = false := by decide +kernel
/-- The same at k = 1, 2. -/
theorem idleAt2_3_B : ∀ t : Fin cfg2.N, ¬cond2_0 (grid2.coords t) → ¬cond2_1 (grid2.coords t) → cfg2.idle 3 (grid2.coords t) = true := by decide +kernel
theorem noFlush2_3_B : ∀ t : Fin cfg2.N, ¬cond2_0 (grid2.coords t) → ¬cond2_1 (grid2.coords t) → (cfg2.win 3).flush t = false := by decide +kernel
/-- At k = 3 the output window is live: the body stores into it. -/
theorem liveAt2_3_C : ∀ t : Fin cfg2.N, ¬cond2_0 (grid2.coords t) → cond2_1 (grid2.coords t) → cfg2.idle 3 (grid2.coords t) = false := by decide +kernel

/-! ## The memrefs the body is called with -/

/-- One staging buffer of the output window, through which its contents are stated (which one does not matter:
    a covering list of writes reads back the same through any view). -/
abbrev VO2_3 : View sig .tc .vmem S512x1024 .f32 := (Memref.whole cc2_stg3_0 : Memref sig .tc .vmem S512x1024 .f32).view
/-- Each window's current staging memref at point `t`, and its wholeness. -/
abbrev ms2_0 (t : Fin cfg2.N) : Memref sig .tc .vmem S512x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x1024 .f32 := win2_3.stage (cfg2.slots t 3)
abbrev hs2_3 (t : Fin cfg2.N) : (ms2_3 t).IsWhole := hstage2_3 ((cfg2.slots t 3).cast nbuf2_3)
/-- The accumulator: a whole scoped buffer of the kernel's own, passed beside the windows and carried from point to point. -/
abbrev scM2_0 : Memref sig .tc .vmem S512x1024 .f32 := Memref.whole cc2_scratch0
/-- The accumulator as a view: what it holds is stated through it. -/
abbrev VS2_0 : View sig .tc .vmem S512x1024 .f32 := scM2_0.view

/-! ## The region's scoped rest -/

/-- The scoped buffers of the core that region 2 neither stages through nor accumulates in (the other two regions'
    staging buffers), each whole at some contents: they pass through every point untouched. -/
def others2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- The invariant the launch hands the region, with the accumulator as a memref owned at some contents: the other
    regions' staging buffers, the accumulator, the generator register. -/
theorem PhiA2_eq (c : Dev nD) :
    (Pipeline.ΦA spec2 c : sProp 𝕄)
      = iprop(iprop(others2 (F := F) c ∗ (∃ d, owns (c : Thread nD τ) scM2_0 fullShare d)) ∗ (∃ r, prngReg c r)) := by
  have hassoc : ∀ P Q R : sProp 𝕄, iprop((P ∗ Q) ∗ R) = iprop(P ∗ Q ∗ R) := fun P Q R =>
    Idealize.SL.BI.Entails.antisymm (Laws.sep_assoc (PROP := sProp 𝕄) (P := P) (Q := Q) (R := R)).1 (Laws.sep_assoc (PROP := sProp 𝕄) (P := P) (Q := Q) (R := R)).2
  unfold Pipeline.ΦA others2; rw [scopedRest2_eq]; simp only [scM2_0, owns_whole, hassoc]; rfl

end Cert.Kernel.Fr

end
-- ==== Proof.Kernel.Reg2RunA.lean ====
/- Region 2, the case k = 0 (reset and accumulate): the body's run on any whole memrefs. -/
import proofs.«100067_j50276887167422_1_alg».proof.Proof.Kernel.Reg2Runs

-- membership in a rectangle of the tiles' extents: the elaborator's structural look recurses once per coordinate
-- of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- AT k = 0. The lists of writes (last first) the body leaves in the output window's buffer (none: the buffer is
    handed back as found, at any contents `xi3`) and in the accumulator (the zero tile, then zero + the block product
    of the two input tiles), with the proof that on whole memrefs — the activation and weight tiles at `x0`, `x1`,
    the residual tile and the output buffer at anything fixed, the accumulator at anything — the body runs to a
    continuation holding the four windows' buffers as they were and the accumulator with its writes applied. The
    writes are found by the run itself (assigned when the accumulator is handed to the continuation). -/
noncomputable def kernelRun2_A (c : Dev nD) (i : grid2.Coords) (arg2 : Memref sig .tc .vmem S512x1024 .bf16) (harg2 : arg2.IsWhole) (arg3 : Memref sig .tc .vmem S1024x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : ¬cond2_1 i)
    (x0 : Vec F S512x1024 .bf16) (x1 : Vec F S1024x1024 .bf16) :
    Σ' (L3 : List (View.Piece (Elt F) S512x1024 .f32)), { LS0 : List (View.Piece (Elt F) S512x1024 .f32) //
      ∀ (xi2 : Vec F S512x1024 .f32) (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__final_mm_kernel i arg2 harg2 arg3 harg3 arg4 harg4 arg5 harg5 arg6 harg6) K } := by
  refine ⟨[], ?_, fun xi2 xi3 E K => ?run⟩
  case run =>
    simp only [cc2__final_mm_kernel_eq_skeleton]; unfold cc2__final_mm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Fr

end
-- ==== Proof.Kernel.Reg2RunB.lean ====
/- Region 2, the case k = 1, 2 (accumulate): the body's run on any whole memrefs. -/
import proofs.«100067_j50276887167422_1_alg».proof.Proof.Kernel.Reg2RunA

-- membership in a rectangle of the tiles' extents: the elaborator's structural look recurses once per coordinate
-- of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- AT k = 1, 2. The lists of writes (last first) the body leaves in the output window's buffer (none: handed back
    as found) and in the accumulator (what the point before left, `xs0`, + the block product of the two input
    tiles), with the proof that on whole memrefs — the activation and weight tiles at `x0`, `x1`, the residual tile
    and the output buffer at anything fixed, the accumulator at `xs0` — the body runs to a continuation holding the
    four windows' buffers as they were and the accumulator with its writes applied. -/
noncomputable def kernelRun2_B (c : Dev nD) (i : grid2.Coords) (arg2 : Memref sig .tc .vmem S512x1024 .bf16) (harg2 : arg2.IsWhole) (arg3 : Memref sig .tc .vmem S1024x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : ¬cond2_1 i)
    (x0 : Vec F S512x1024 .bf16) (x1 : Vec F S1024x1024 .bf16) (xs0 : Vec F S512x1024 .f32) :
    Σ' (L3 : List (View.Piece (Elt F) S512x1024 .f32)), { LS0 : List (View.Piece (Elt F) S512x1024 .f32) //
      ∀ (xi2 : Vec F S512x1024 .f32) (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__final_mm_kernel i arg2 harg2 arg3 harg3 arg4 harg4 arg5 harg5 arg6 harg6) K } := by
  refine ⟨[], ?_, fun xi2 xi3 E K => ?run⟩
  case run =>
    simp only [cc2__final_mm_kernel_eq_skeleton]; unfold cc2__final_mm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Fr

end
-- ==== Proof.Kernel.Reg2RunC.lean ====
/- Region 2, the case k = 3 (accumulate and emit): the body's run on any whole memrefs. -/
import proofs.«100067_j50276887167422_1_alg».proof.Proof.Kernel.Reg2RunB

-- membership in a rectangle of the tiles' extents: the elaborator's structural look recurses once per coordinate
-- of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- AT k = 3. The lists of writes (last first) the body leaves in the output window's buffer (the accumulator's final
    value + the residual tile) and in the accumulator (what the point before left, `xs0`, + the block product of the
    two input tiles), with the proof that on whole memrefs — the activation, weight and residual tiles at `x0`, `x1`,
    `x2`, the output buffer at anything, the accumulator at `xs0` — the body runs to a continuation holding the
    inputs' buffers as they were and the output buffer and the accumulator with their writes applied. -/
noncomputable def kernelRun2_C (c : Dev nD) (i : grid2.Coords) (arg2 : Memref sig .tc .vmem S512x1024 .bf16) (harg2 : arg2.IsWhole) (arg3 : Memref sig .tc .vmem S1024x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S512x1024 .bf16) (x1 : Vec F S1024x1024 .bf16) (x2 : Vec F S512x1024 .f32) (xs0 : Vec F S512x1024 .f32) :
    Σ' (L3 : List (View.Piece (Elt F) S512x1024 .f32)), { LS0 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__final_mm_kernel i arg2 harg2 arg3 harg3 arg4 harg4 arg5 harg5 arg6 harg6) K } := by
  refine ⟨?_, ?_, fun E K => ?run⟩
  case run =>
    simp only [cc2__final_mm_kernel_eq_skeleton]; unfold cc2__final_mm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Fr

end
-- ==== Proof.Kernel.Reg2.lean ====
/- Region 2 (the output projection accumulated over the four K-blocks of a row tile, plus the residual), at any
   contents `V` of the core's buffers when the region is entered: what the output window's buffer and the accumulator
   hold after each of the 64 points, the pipeline's proof data with the accumulator carried by the invariant, and
   the body obligation by cases on k = t mod 4. -/
import proofs.«100067_j50276887167422_1_alg».proof.Proof.Kernel.Reg2RunC

-- membership in a rectangle of the tiles' extents: the elaborator's structural look recurses once per coordinate
-- of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the output window's buffer and in the accumulator -/

/-- At k = 0 nothing is stored into the output window's buffer: a placeholder (an empty list of writes read back)
    that nothing consults, the window being idle there. -/
def out2_A_3 (c : Dev nD) (i : grid2.Coords) (arg2 : Memref sig .tc .vmem S512x1024 .bf16) (harg2 : arg2.IsWhole) (arg3 : Memref sig .tc .vmem S1024x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : ¬cond2_1 i)
    (x0 : Vec F S512x1024 .bf16) (x1 : Vec F S1024x1024 .bf16) : Vec F S512x1024 .f32 :=
  VO2_3.read (Elt F) (VO2_3.writes (Elt F) VO2_3.junk (kernelRun2_A c i arg2 harg2 arg3 harg3 arg4 harg4 arg5 harg5 arg6 harg6 hc0 hc1 x0 x1).1)

/-- The accumulator's writes at k = 0 (the zero tile, then the first block product over it) cover it. -/
theorem scover2_A_0 (c : Dev nD) (i : grid2.Coords) (arg2 : Memref sig .tc .vmem S512x1024 .bf16) (harg2 : arg2.IsWhole) (arg3 : Memref sig .tc .vmem S1024x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : ¬cond2_1 i)
    (x0 : Vec F S512x1024 .bf16) (x1 : Vec F S1024x1024 .bf16) (y : S512x1024.Idx) :
    ∃ pc ∈ (kernelRun2_A c i arg2 harg2 arg3 harg3 arg4 harg4 arg5 harg5 arg6 harg6 hc0 hc1 x0 x1).2.1, y ∈ pc.1.set :=
  View.cover_of_tiledL (kernelRun2_A c i arg2 harg2 arg3 harg3 arg4 harg4 arg5 harg5 arg6 harg6 hc0 hc1 x0 x1).2.1 S512x1024.size (by sl_kernel_rfl) y

/-- What the accumulator holds after a point with k = 0: its writes read back. -/
def sout2_A_0 (c : Dev nD) (i : grid2.Coords) (arg2 : Memref sig .tc .vmem S512x1024 .bf16) (harg2 : arg2.IsWhole) (arg3 : Memref sig .tc .vmem S1024x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : ¬cond2_1 i)
    (x0 : Vec F S512x1024 .bf16) (x1 : Vec F S1024x1024 .bf16) : Vec F S512x1024 .f32 :=
  VS2_0.read (Elt F) (VS2_0.writes (Elt F) VS2_0.junk (kernelRun2_A c i arg2 harg2 arg3 harg3 arg4 harg4 arg5 harg5 arg6 harg6 hc0 hc1 x0 x1).2.1)

/-- At k = 1, 2 nothing is stored into the output window's buffer either. -/
def out2_B_3 (c : Dev nD) (i : grid2.Coords) (arg2 : Memref sig .tc .vmem S512x1024 .bf16) (harg2 : arg2.IsWhole) (arg3 : Memref sig .tc .vmem S1024x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : ¬cond2_1 i)
    (x0 : Vec F S512x1024 .bf16) (x1 : Vec F S1024x1024 .bf16) (xs0 : Vec F S512x1024 .f32) : Vec F S512x1024 .f32 :=
  VO2_3.read (Elt F) (VO2_3.writes (Elt F) VO2_3.junk (kernelRun2_B c i arg2 harg2 arg3 harg3 arg4 harg4 arg5 harg5 arg6 harg6 hc0 hc1 x0 x1 xs0).1)

/-- The accumulator's one write at k = 1, 2 (previous contents + block product) covers it. -/
theorem scover2_B_0 (c : Dev nD) (i : grid2.Coords) (arg2 : Memref sig .tc .vmem S512x1024 .bf16) (harg2 : arg2.IsWhole) (arg3 : Memref sig .tc .vmem S1024x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : ¬cond2_1 i)
    (x0 : Vec F S512x1024 .bf16) (x1 : Vec F S1024x1024 .bf16) (xs0 : Vec F S512x1024 .f32) (y : S512x1024.Idx) :
    ∃ pc ∈ (kernelRun2_B c i arg2 harg2 arg3 harg3 arg4 harg4 arg5 harg5 arg6 harg6 hc0 hc1 x0 x1 xs0).2.1, y ∈ pc.1.set :=
  View.cover_of_tiledL (kernelRun2_B c i arg2 harg2 arg3 harg3 arg4 harg4 arg5 harg5 arg6 harg6 hc0 hc1 x0 x1 xs0).2.1 S512x1024.size (by sl_kernel_rfl) y

/-- What the accumulator holds after a point with k = 1, 2. -/
def sout2_B_0 (c : Dev nD) (i : grid2.Coords) (arg2 : Memref sig .tc .vmem S512x1024 .bf16) (harg2 : arg2.IsWhole) (arg3 : Memref sig .tc .vmem S1024x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : ¬cond2_1 i)
    (x0 : Vec F S512x1024 .bf16) (x1 : Vec F S1024x1024 .bf16) (xs0 : Vec F S512x1024 .f32) : Vec F S512x1024 .f32 :=
  VS2_0.read (Elt F) (VS2_0.writes (Elt F) VS2_0.junk (kernelRun2_B c i arg2 harg2 arg3 harg3 arg4 harg4 arg5 harg5 arg6 harg6 hc0 hc1 x0 x1 xs0).2.1)

/-- At k = 3 the one store into the output window's buffer (accumulator + residual tile) covers it. -/
theorem cover2_C_3 (c : Dev nD) (i : grid2.Coords) (arg2 : Memref sig .tc .vmem S512x1024 .bf16) (harg2 : arg2.IsWhole) (arg3 : Memref sig .tc .vmem S1024x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S512x1024 .bf16) (x1 : Vec F S1024x1024 .bf16) (x2 : Vec F S512x1024 .f32) (xs0 : Vec F S512x1024 .f32) (y : S512x1024.Idx) :
    ∃ pc ∈ (kernelRun2_C c i arg2 harg2 arg3 harg3 arg4 harg4 arg5 harg5 arg6 harg6 hc0 hc1 x0 x1 x2 xs0).1, y ∈ pc.1.set :=
  View.cover_of_tiledL (kernelRun2_C c i arg2 harg2 arg3 harg3 arg4 harg4 arg5 harg5 arg6 harg6 hc0 hc1 x0 x1 x2 xs0).1 S512x1024.size (by sl_kernel_rfl) y

/-- What the output window's buffer holds after a point with k = 3. -/
def out2_C_3 (c : Dev nD) (i : grid2.Coords) (arg2 : Memref sig .tc .vmem S512x1024 .bf16) (harg2 : arg2.IsWhole) (arg3 : Memref sig .tc .vmem S1024x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S512x1024 .bf16) (x1 : Vec F S1024x1024 .bf16) (x2 : Vec F S512x1024 .f32) (xs0 : Vec F S512x1024 .f32) : Vec F S512x1024 .f32 :=
  VO2_3.read (Elt F) (VO2_3.writes (Elt F) VO2_3.junk (kernelRun2_C c i arg2 harg2 arg3 harg3 arg4 harg4 arg5 harg5 arg6 harg6 hc0 hc1 x0 x1 x2 xs0).1)

/-- The accumulator's one write at k = 3 covers it. -/
theorem scover2_C_0 (c : Dev nD) (i : grid2.Coords) (arg2 : Memref sig .tc .vmem S512x1024 .bf16) (harg2 : arg2.IsWhole) (arg3 : Memref sig .tc .vmem S1024x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S512x1024 .bf16) (x1 : Vec F S1024x1024 .bf16) (x2 : Vec F S512x1024 .f32) (xs0 : Vec F S512x1024 .f32) (y : S512x1024.Idx) :
    ∃ pc ∈ (kernelRun2_C c i arg2 harg2 arg3 harg3 arg4 harg4 arg5 harg5 arg6 harg6 hc0 hc1 x0 x1 x2 xs0).2.1, y ∈ pc.1.set :=
  View.cover_of_tiledL (kernelRun2_C c i arg2 harg2 arg3 harg3 arg4 harg4 arg5 harg5 arg6 harg6 hc0 hc1 x0 x1 x2 xs0).2.1 S512x1024.size (by sl_kernel_rfl) y

/-- What the accumulator holds after a point with k = 3. -/
def sout2_C_0 (c : Dev nD) (i : grid2.Coords) (arg2 : Memref sig .tc .vmem S512x1024 .bf16) (harg2 : arg2.IsWhole) (arg3 : Memref sig .tc .vmem S1024x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S512x1024 .bf16) (x1 : Vec F S1024x1024 .bf16) (x2 : Vec F S512x1024 .f32) (xs0 : Vec F S512x1024 .f32) : Vec F S512x1024 .f32 :=
  VS2_0.read (Elt F) (VS2_0.writes (Elt F) VS2_0.junk (kernelRun2_C c i arg2 harg2 arg3 harg3 arg4 harg4 arg5 harg5 arg6 harg6 hc0 hc1 x0 x1 x2 xs0).2.1)

section Regions
-- the core's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (unfetched, the block
    index has not moved: the residual tile is fetched at k = 0 only and stays in place for k = 1, 2, 3), for any proof
    data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## What the output buffer and the accumulator hold after each point -/

/-- After a point with k = 0: (nothing stored in the output buffer, the accumulator at the first block product). -/
def atA2 (c : Dev nD) (t : Fin cfg2.N) (h0 : t.val % 4 = 0) (h1 : ¬t.val % 4 = 3) : Vec F S512x1024 .f32 × Vec F S512x1024 .f32 :=
  (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t),
   sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t))

/-- After a point with k = 1, 2, the accumulator having been at `xs0`: (nothing stored in the output buffer, the
    accumulator at `xs0` + the block product). -/
def atB2 (c : Dev nD) (t : Fin cfg2.N) (h0 : ¬t.val % 4 = 0) (h1 : ¬t.val % 4 = 3) (xs0 : Vec F S512x1024 .f32) : Vec F S512x1024 .f32 × Vec F S512x1024 .f32 :=
  (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) xs0,
   sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) xs0)

/-- After a point with k = 3, the accumulator having been at `xs0`: (the output buffer at the final sum + the residual
    tile, the accumulator at the final sum). -/
def atC2 (c : Dev nD) (t : Fin cfg2.N) (h0 : ¬t.val % 4 = 0) (h1 : t.val % 4 = 3) (xs0 : Vec F S512x1024 .f32) : Vec F S512x1024 .f32 × Vec F S512x1024 .f32 :=
  (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) xs0,
   sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) xs0)

/-- THE ACCUMULATION. The pair (output window's staging buffer, accumulator) after the body at position `n`: the case
    k = n mod 4 selects, run at the point's input blocks, over the accumulator the point before left (which the
    pipeline does not touch in between). -/
def outsAt2 (c : Dev nD) : (n : ℕ) → n < cfg2.N → Vec F S512x1024 .f32 × Vec F S512x1024 .f32
  | 0, hn => atA2 V c ⟨0, hn⟩ (Nat.zero_mod _) (by show ¬ (0 % 4 = 3); decide)
  | n + 1, hn =>
    if h0 : (n + 1) % 4 = 0 then
      if h1 : (n + 1) % 4 = 3 then
        False.elim (by omega)
      else
        atA2 V c ⟨n + 1, hn⟩ h0 h1
    else
      if h1 : (n + 1) % 4 = 3 then
        atC2 V c ⟨n + 1, hn⟩ h0 h1 (outsAt2 c n (Nat.lt_of_succ_lt hn)).2
      else
        atB2 V c ⟨n + 1, hn⟩ h0 h1 (outsAt2 c n (Nat.lt_of_succ_lt hn)).2

/-- `outsAt2` at a point with k = 0. -/
theorem outsAt2_A (c : Dev nD) (t : Fin cfg2.N) (h0 : t.val % 4 = 0) (h1 : ¬t.val % 4 = 3) :
    outsAt2 V c t.val t.isLt = atA2 V c t h0 h1 := by
  obtain ⟨n, hn⟩ := t
  cases n with
  | zero => exact rfl
  | succ n => exact (dif_pos h0).trans ((dif_neg h1).trans rfl)

/-- `outsAt2` at a point with k = 1, 2: over what the point before left in the accumulator. -/
theorem outsAt2_B (c : Dev nD) (t : Fin cfg2.N) (h0 : ¬t.val % 4 = 0) (h1 : ¬t.val % 4 = 3) :
    outsAt2 V c t.val t.isLt = atB2 V c t h0 h1 (outsAt2 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

/-- `outsAt2` at a point with k = 3: over what the point before left in the accumulator. -/
theorem outsAt2_C (c : Dev nD) (t : Fin cfg2.N) (h0 : ¬t.val % 4 = 0) (h1 : t.val % 4 = 3) :
    outsAt2 V c t.val t.isLt = atC2 V c t h0 h1 (outsAt2 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator carried from point to point -/

/-- Before position `n`: at the first point what the launch hands the region (every scoped buffer of the rest at
    anything); afterwards the other regions' staging buffers at anything, the accumulator at what the point before left
    in it, and the generator register at some state. -/
def PhiS2 (c : Dev nD) : (n : ℕ) → n ≤ cfg2.N → sProp 𝕄
  | 0, _ => Pipeline.ΦA spec2 c
  | n + 1, hn => iprop(iprop(others2 (F := F) c ∗ owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(others2 (F := F) c ∗ owns (c : Thread nD τ) scM2_0 fullShare ((outsAt2 V c n hn).2)) ∗ (∃ r, prngReg c r)) := rfl

theorem PhiS2_pos (c : Dev nD) (n : ℕ) (h : n ≤ cfg2.N) (hz : n ≠ 0) :
    PhiS2 V c n h = iprop(iprop(others2 (F := F) c ∗ owns (c : Thread nD τ) scM2_0 fullShare ((outsAt2 V c (n - 1) (by omega)).2)) ∗ (∃ r, prngReg c r)) := by
  cases n with
  | zero => exact absurd rfl hz
  | succ n => rfl

/-! ## The pipeline's proof data -/

/-- The proof data of pipeline 2 on core `c`: the arrays as the region finds them; after the body at point `t` each
    input's buffer at its block and the output's at `outsAt2`'s first component; the invariant `PhiS2`; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. The inputs' memrefs hold their blocks; k = t mod 4 says which case the point is in; the
    invariant hands the body the accumulator at what the point before left (at anything at the very first point, where
    k = 0 resets it anyway) and takes it back at this point's contents, the case's writes covering it; at k < 3 the output
    buffer is handed back as found, at k = 3 it is covered by the one store; the other regions' buffers, the generator
    register and the core's `owes` pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 4 = 0
  · by_cases h1 : t.val % 4 = 3
    · exfalso; omega
    · rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
      rw [outsAt2_A V c t h0 h1]
      unfold atA2 sout2_A_0; (try dsimp only)
      by_cases hz : t.val = 0
      · rw [PhiS2_castSucc V c t, PhiS2_zero V c _ _ hz, PhiA2_eq]
        iintro ⟨⟨⟨Hoth, HS0⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t)).2.2 _ _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Hoth HS0 Hg]
        · isplitl [Hoth HS0]
          · isplitl [Hoth]; · iexact Hoth
            unfold owns; iexists _; isplitr
            swap; · iexact HS0
            ipureintro; exact View.read_writes_of_cover _ _ _ _ _ (scover2_A_0 c _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS2_castSucc V c t, PhiS2_pos V c _ _ hz]
        iintro ⟨⟨⟨Hoth, HS0⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t)).2.2 _ _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [Hoth HS0 Hg]
        · isplitl [Hoth HS0]
          · isplitl [Hoth]; · iexact Hoth
            unfold owns; iexists _; isplitr
            swap; · iexact HS0
            ipureintro; exact View.read_writes_of_cover _ _ _ _ _ (scover2_A_0 c _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 4 = 3
    · rw [show (dat2 V c).leavesExact 3 t = owns (c : Thread nD τ) (ms2_3 t) fullShare ((dat2 V c).after 3 t) from by
        unfold Dat.leavesExact; rw [liveAt2_3_C t (fun h => h0 ((hcond2_0 t).mp h)) ((hcond2_1 t).mpr h1)], after2_3]
      rw [outsAt2_C V c t h0 h1]
      unfold atC2 out2_C_3 sout2_C_0; (try dsimp only)
      by_cases hz : t.val = 0
      · exfalso; omega
      · rw [PhiS2_castSucc V c t, PhiS2_pos V c _ _ hz]
        iintro ⟨⟨⟨Hoth, HS0⟩, Hg⟩, Ho, ⟨%d0, H0⟩, ⟨%d1, H1⟩, ⟨%d2, H2⟩, ⟨%d3, H3⟩⟩
        iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [Hoth HS0 Hg]
        · isplitl [Hoth HS0]
          · isplitl [Hoth]; · iexact Hoth
            unfold owns; iexists _; isplitr
            swap; · iexact HS0
            ipureintro; exact View.read_writes_of_cover _ _ _ _ _ (scover2_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover2_C_3 c _ _ _ _ _ _ _ _ _ _ _ _ _ _ _ _ _)
    · rw [Dat.leavesExact_idle (dat2 V c) 3 t (idleAt2_3_B t (fun h => h0 ((hcond2_0 t).mp h)) (fun h => h1 ((hcond2_1 t).mp h))) (noFlush2_3_B t (fun h => h0 ((hcond2_0 t).mp h)) (fun h => h1 ((hcond2_1 t).mp h)))]
      rw [outsAt2_B V c t h0 h1]
      unfold atB2 sout2_B_0; (try dsimp only)
      by_cases hz : t.val = 0
      · exfalso; omega
      · rw [PhiS2_castSucc V c t, PhiS2_pos V c _ _ hz]
        iintro ⟨⟨⟨Hoth, HS0⟩, Hg⟩, Ho, ⟨%d0, H0⟩, ⟨%d1, H1⟩, ⟨%d2, H2⟩, ⟨%d3, H3⟩⟩
        iapply ((kernelRun2_B c (grid2.coords t) _ _ _ _ _ _ _ _ _ _ (fun h => h0 ((hcond2_0 t).mp h)) (fun h => h1 ((hcond2_1 t).mp h)) (iblk2 V c 0 t) (iblk2 V c 1 t) _).2.2 _ _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Hoth HS0 Hg]
        · isplitl [Hoth HS0]
          · isplitl [Hoth]; · iexact Hoth
            unfold owns; iexists _; isplitr
            swap; · iexact HS0
            ipureintro; exact View.read_writes_of_cover _ _ _ _ _ (scover2_B_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the launch's back: the accumulator's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨Hoth, HS0⟩, Hg⟩
  isplitl [Hoth HS0]
  · isplitl [Hoth]; · iexact Hoth
    iexists _; iexact HS0
  iexact Hg

/-- The same after the last point. -/
theorem hout2 (c : Dev nD) : (dat2 V c).Φ (Fin.last cfg2.N) ⊢ Pipeline.ΦA spec2 c :=
  Phi_out2 V c _ (by rw [Fin.val_last]; have : cfg2.N = 64 := N_2; omega)

end Regions

end Cert.Kernel.Fr

end
-- ==== Proof.Kernel.Run.lean ====
import proofs.«100067_j50276887167422_1_alg».proof.Proof.Kernel.Reg0
import proofs.«100067_j50276887167422_1_alg».proof.Proof.Kernel.Reg1
import proofs.«100067_j50276887167422_1_alg».proof.Proof.Kernel.Reg2
import proofs.«100067_j50276887167422_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The program's run, from the launch to the return

@main is eleven items in a row: a reshape of the input; the layer-norm region; five stretches of host operations
(the edge index rows, the gather, the two masked selections, the four segment sums, the two mean aggregates, the
narrowing casts and the two weight slabs); the hidden-layer region; one cast; the projection region; the final reshape.
`WJ c` is what core `c`'s unscoped buffers hold after item J−1: a host stretch applies its operations to the contents
before it; a region leaves every buffer as it found it except its windows' arrays, which end at what the pipeline's
write-backs leave (the inputs' as entered). The run below says that every weakly fair execution terminates without a
fault with EVERY unscoped buffer at `W11`; the frame (no argument array changes) and the result's value are both read
off that valuation.
-/

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m ((c : Dev nD), b)
/-- After the reshape of the input (the layer-norm region's entry). -/
abbrev W1 : Dev nD → Valuation τ sig (Elt F) := fun c => StableHlo.after hostOps0 (W0 m c)
/-- The same, read at the TensorCore's references. -/
abbrev U1 : (c : Dev nD) → (b : Ref sig .tc) → Buf (Elt F) ((c : Thread nD τ).loc b) := fun c b => W1 m c b
/-- At the layer-norm region's exit. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the five host stretches between the first two regions (the hidden-layer region's entry is `W7`). -/
abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev W6 : Dev nD → Valuation τ sig (Elt F) := fun c => StableHlo.after hostOps1_3 (W5 m c)
abbrev W7 : Dev nD → Valuation τ sig (Elt F) := fun c => StableHlo.after hostOps1_4 (W6 m c)
abbrev U7 : (c : Dev nD) → (b : Ref sig .tc) → Buf (Elt F) ((c : Thread nD τ).loc b) := fun c b => W7 m c b
/-- At the hidden-layer region's exit. -/
def W8 (c : Dev nD) : Valuation τ sig (Elt F) :=
  Pipeline.withArrays spec1 c (W7 m c) fun w => (dat1 (U7 m) c).arrAt w cfg1.N
theorem W8_arr (c : Dev nD) (w : Fin cfg1.W) :
    W8 m c (Proc.devRef .tc (Pipeline.arrRef spec1 w)) = (dat1 (U7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
abbrev U8 : (c : Dev nD) → (b : Ref sig .tc) → Buf (Elt F) ((c : Thread nD τ).loc b) := fun c b => W8 m c b
theorem hF1 (c : Dev nD) (w : Fin cfg1.W) : (dat1 (U7 m) c).arrAt w cfg1.N = U8 m c (Pipeline.arrRef spec1 w) :=
  (W8_arr m c w).symm
theorem hrest1 (c : Dev nD) : ∀ b, b ∉ Finset.univ.image (Pipeline.arrRef spec1) → U8 m c b = U7 m c b :=
  fun b hb => W8_of_ne m c b fun w e => hb (Finset.mem_image.mpr ⟨w, Finset.mem_univ _, e⟩)

/-- After the cast of the projection weights (the projection region's entry). -/
abbrev W9 : Dev nD → Valuation τ sig (Elt F) := fun c => StableHlo.after hostOps2 (W8 m c)
abbrev U9 : (c : Dev nD) → (b : Ref sig .tc) → Buf (Elt F) ((c : Thread nD τ).loc b) := fun c b => W9 m c b
/-- At the projection region's exit. -/
def W10 (c : Dev nD) : Valuation τ sig (Elt F) :=
  Pipeline.withArrays spec2 c (W9 m c) fun w => (dat2 (U9 m) c).arrAt w cfg2.N
theorem W10_arr (c : Dev nD) (w : Fin cfg2.W) :
    W10 m c (Proc.devRef .tc (Pipeline.arrRef spec2 w)) = (dat2 (U9 m) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m c (Proc.devRef .tc b) = W9 m c (Proc.devRef .tc b) := by
  unfold W10; exact Pipeline.withArrays_of_ne spec2 c _ _ b hb
abbrev U10 : (c : Dev nD) → (b : Ref sig .tc) → Buf (Elt F) ((c : Thread nD τ).loc b) := fun c b => W10 m c b
theorem hF2 (c : Dev nD) (w : Fin cfg2.W) : (dat2 (U9 m) c).arrAt w cfg2.N = U10 m c (Pipeline.arrRef spec2 w) :=
  (W10_arr m c w).symm
theorem hrest2 (c : Dev nD) : ∀ b, b ∉ Finset.univ.image (Pipeline.arrRef spec2) → U10 m c b = U9 m c b :=
  fun b hb => W10_of_ne m c b fun w e => hb (Finset.mem_image.mpr ⟨w, Finset.mem_univ _, e⟩)

/-- After the final reshape: what the run ends with. -/
abbrev W11 : Dev nD → Valuation τ sig (Elt F) := fun c => StableHlo.after hostOps3 (W10 m c)

/-! ## A buffer no item writes keeps its launch contents -/

/-- A reference that no host stretch writes and that every region leaves as it found it ends as launched. -/
theorem W11_keep (c : Dev nD) (r : Ref sig .tc)
    (h0 : r ∉ hostOps0_W) (h1 : r ∉ hostOps1_W) (h11 : r ∉ hostOps1_1_W) (h12 : r ∉ hostOps1_2_W)
    (h13 : r ∉ hostOps1_3_W) (h14 : r ∉ hostOps1_4_W) (h2 : r ∉ hostOps2_W) (h3 : r ∉ hostOps3_W)
    (k0 : W2 m c (Proc.devRef .tc r) = W1 m c (Proc.devRef .tc r))
    (k1 : W8 m c (Proc.devRef .tc r) = W7 m c (Proc.devRef .tc r))
    (k2 : W10 m c (Proc.devRef .tc r) = W9 m c (Proc.devRef .tc r)) :
    W11 m c (Proc.devRef .tc r) = m ((c : Thread nD τ).loc r) :=
  calc W11 m c (Proc.devRef .tc r)
    _ = W10 m c (Proc.devRef .tc r) := StableHlo.after_of_writes_sub hostOps3 _ hostOps3_writes h3
    _ = W9 m c (Proc.devRef .tc r) := k2
    _ = W8 m c (Proc.devRef .tc r) := StableHlo.after_of_writes_sub hostOps2 _ hostOps2_writes h2
    _ = W7 m c (Proc.devRef .tc r) := k1
    _ = W6 m c (Proc.devRef .tc r) := StableHlo.after_of_writes_sub hostOps1_4 _ hostOps1_4_writes h14
    _ = W5 m c (Proc.devRef .tc r) := StableHlo.after_of_writes_sub hostOps1_3 _ hostOps1_3_writes h13
    _ = W4 m c (Proc.devRef .tc r) := StableHlo.after_of_writes_sub hostOps1_2 _ hostOps1_2_writes h12
    _ = W3 m c (Proc.devRef .tc r) := StableHlo.after_of_writes_sub hostOps1_1 _ hostOps1_1_writes h11
    _ = W2 m c (Proc.devRef .tc r) := StableHlo.after_of_writes_sub hostOps1 _ hostOps1_writes h1
    _ = W1 m c (Proc.devRef .tc r) := k0
    _ = W0 m c (Proc.devRef .tc r) := StableHlo.after_of_writes_sub hostOps0 _ hostOps0_writes h0
    _ = m ((c : Thread nD τ).loc r) := rfl

/-- An input window's array leaves its region as it entered it. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (U1 m) c).arrAt_in w hw _).trans (A_eq0 (U1 m) c w))
theorem W8_in (c : Dev nD) (w : Fin cfg1.W) (hw : (cfg1.win w).isOut = false) :
    W8 m c (Proc.devRef .tc (Pipeline.arrRef spec1 w)) = W7 m c (Proc.devRef .tc (Pipeline.arrRef spec1 w)) :=
  (W8_arr m c w).trans (((dat1 (U7 m) c).arrAt_in w hw _).trans (A_eq1 (U7 m) c w))
theorem W10_in (c : Dev nD) (w : Fin cfg2.W) (hw : (cfg2.win w).isOut = false) :
    W10 m c (Proc.devRef .tc (Pipeline.arrRef spec2 w)) = W9 m c (Proc.devRef .tc (Pipeline.arrRef spec2 w)) :=
  (W10_arr m c w).trans (((dat2 (U9 m) c).arrAt_in w hw _).trans (A_eq2 (U9 m) c w))

theorem W11_main_arg0 (c : Dev nD) : W11 m c (Proc.devRef .tc main_arg0) = m ((c : Thread nD τ).loc main_arg0) :=
  W11_keep m c main_arg0 (by decide) (by decide) (by decide) (by decide) (by decide) (by decide) (by decide) (by decide)
    (W2_of_ne m c main_arg0 (by decide)) (W8_of_ne m c main_arg0 (by decide)) (W10_of_ne m c main_arg0 (by decide))
theorem W11_main_arg1 (c : Dev nD) : W11 m c (Proc.devRef .tc main_arg1) = m ((c : Thread nD τ).loc main_arg1) :=
  W11_keep m c main_arg1 (by decide) (by decide) (by decide) (by decide) (by decide) (by decide) (by decide) (by decide)
    (W2_of_ne m c main_arg1 (by decide)) (W8_of_ne m c main_arg1 (by decide)) (W10_of_ne m c main_arg1 (by decide))
theorem W11_main_arg2 (c : Dev nD) : W11 m c (Proc.devRef .tc main_arg2) = m ((c : Thread nD τ).loc main_arg2) :=
  W11_keep m c main_arg2 (by decide) (by decide) (by decide) (by decide) (by decide) (by decide) (by decide) (by decide)
    (W2_of_ne m c main_arg2 (by decide)) (W8_of_ne m c main_arg2 (by decide)) (W10_of_ne m c main_arg2 (by decide))
theorem W11_main_arg3 (c : Dev nD) : W11 m c (Proc.devRef .tc main_arg3) = m ((c : Thread nD τ).loc main_arg3) :=
  W11_keep m c main_arg3 (by decide) (by decide) (by decide) (by decide) (by decide) (by decide) (by decide) (by decide)
    (W2_of_ne m c main_arg3 (by decide)) (W8_in m c 6 rfl) (W10_of_ne m c main_arg3 (by decide))
theorem W11_main_arg4 (c : Dev nD) : W11 m c (Proc.devRef .tc main_arg4) = m ((c : Thread nD τ).loc main_arg4) :=
  W11_keep m c main_arg4 (by decide) (by decide) (by decide) (by decide) (by decide) (by decide) (by decide) (by decide)
    (W2_of_ne m c main_arg4 (by decide)) (W8_of_ne m c main_arg4 (by decide)) (W10_of_ne m c main_arg4 (by decide))
theorem W11_main_arg5 (c : Dev nD) : W11 m c (Proc.devRef .tc main_arg5) = m ((c : Thread nD τ).loc main_arg5) :=
  W11_keep m c main_arg5 (by decide) (by decide) (by decide) (by decide) (by decide) (by decide) (by decide) (by decide)
    (W2_in m c 1 rfl) (W8_of_ne m c main_arg5 (by decide)) (W10_of_ne m c main_arg5 (by decide))
theorem W11_main_arg6 (c : Dev nD) : W11 m c (Proc.devRef .tc main_arg6) = m ((c : Thread nD τ).loc main_arg6) :=
  W11_keep m c main_arg6 (by decide) (by decide) (by decide) (by decide) (by decide) (by decide) (by decide) (by decide)
    (W2_in m c 2 rfl) (W8_of_ne m c main_arg6 (by decide)) (W10_of_ne m c main_arg6 (by decide))
theorem W11_main_arg7 (c : Dev nD) : W11 m c (Proc.devRef .tc main_arg7) = m ((c : Thread nD τ).loc main_arg7) :=
  W11_keep m c main_arg7 (by decide) (by decide) (by decide) (by decide) (by decide) (by decide) (by decide) (by decide)
    (W2_of_ne m c main_arg7 (by decide)) (W8_of_ne m c main_arg7 (by decide)) (W10_of_ne m c main_arg7 (by decide))
theorem W11_main_arg8 (c : Dev nD) : W11 m c (Proc.devRef .tc main_arg8) = m ((c : Thread nD τ).loc main_arg8) :=
  W11_keep m c main_arg8 (by decide) (by decide) (by decide) (by decide) (by decide) (by decide) (by decide) (by decide)
    (W2_of_ne m c main_arg8 (by decide)) (W8_of_ne m c main_arg8 (by decide)) (W10_of_ne m c main_arg8 (by decide))

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U7 m) c
  | ⟨2, _⟩ => fun c => dat2 (U9 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `W11`, the generator register at some state. -/
abbrev Tₙ (c : Dev nD) : sProp 𝕄 := iprop(StableHlo.held (c : Thread nD τ) (Pipeline.ucRefs τ sig) (W11 m c) ∗ ∃ r, prngReg c r)

/-! ## The regions as segments -/

-- unification with the pinned configuration may unfold plain definitions in a metavariable's type
set_option backward.isDefEq.respectTransparency.types false in
/-- Region 0 as a segment: entered with every unscoped buffer at `W1`, left with them at `W2`. Its windows' arrays
    are split out of the unscoped buffers on entry and put back at their final contents on exit; the generator register
    goes into the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification with the pinned configuration may unfold plain definitions in a metavariable's type
set_option backward.isDefEq.respectTransparency.types false in
/-- Region 1 as a segment: entered with every unscoped buffer at `W7`, left with them at `W8`. Its windows' arrays
    are split out of the unscoped buffers on entry and put back at their final contents on exit; the generator register
    goes into the region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (U7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U7 m c) (U8 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification with the pinned configuration may unfold plain definitions in a metavariable's type
set_option backward.isDefEq.respectTransparency.types false in
/-- Region 2 as a segment: entered with every unscoped buffer at `W9`, left with them at `W10`. Its windows' arrays
    are split out of the unscoped buffers on entry and put back at their final contents on exit; the generator register
    goes into the region's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U9 m) c).loose
  hwaits := Pipeline.hwaits_of_owed_zero _ _ _ _ L lv 2 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec2 c (U9 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop(Pipeline.scopedRest (Ix := Unit) (Name := ℕ) (U := UR sig nD τ) (Lvl := ℕ) (Val := Elt F) spec2 c ∗ ∃ r, prngReg c r) : sProp 𝕄)
        ⊢ (dat2 (U9 m) c).Φ 0 := by
      have h := hin2 (U9 m) c; unfold Pipeline.ΦA at h; exact h
    rw [show (pdats m 2 c).Φ 0 = (dat2 (U9 m) c).Φ 0 from rfl]
    iintro ⟨Hp, -, Hr⟩
    iapply h1
    isplitl [Hr]; · iexact Hr
    iexact Hp
  hout c := by
    have h2 : (dat2 (U9 m) c).Φ (Fin.last cfg2.N)
        ⊢ (iprop(Pipeline.scopedRest (Ix := Unit) (Name := ℕ) (U := UR sig nD τ) (Lvl := ℕ) (Val := Elt F) spec2 c ∗ ∃ r, prngReg c r) : sProp 𝕄) := by
      have h := hout2 (U9 m) c; unfold Pipeline.ΦA at h; exact h
    rw [Pipeline.ownSems0_none, show (pdats m 2 c).Φ (Fin.last _) = (dat2 (U9 m) c).Φ (Fin.last cfg2.N) from rfl]
    iintro H
    ihave H' := h2 $$ H
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U9 m c) (U10 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's eleven segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .host (hseg hostOps1_3 hostOps1_3_sub hostOps1_3_fresh (W5 m)),
    .host (hseg hostOps1_4 hostOps1_4_sub hostOps1_4_fresh (W6 m)),
    .region (reg1 m),
    .host (hseg hostOps2 hostOps2_sub hostOps2_fresh (W8 m)),
    .region (reg2 m),
    .host (hseg hostOps3 hostOps3_sub hostOps3_fresh (W10 m)) ]
/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main on the TensorCores terminates,
    nothing faulting, and every final state has every unscoped buffer of every core at `W11`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => by
        -- the last item's exit state regrouped: the buffers and the register on one side, the dues on the other
        show (iprop(StableHlo.held (c : Thread nD τ) (Pipeline.ucRefs τ sig) (W11 m c) ∗ R c) : sProp 𝕄)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W11_main_arg0 m c),
     (h c _ (mem_uc main_arg1 (by decide))).trans (W11_main_arg1 m c),
     (h c _ (mem_uc main_arg2 (by decide))).trans (W11_main_arg2 m c),
     (h c _ (mem_uc main_arg3 (by decide))).trans (W11_main_arg3 m c),
     (h c _ (mem_uc main_arg4 (by decide))).trans (W11_main_arg4 m c),
     (h c _ (mem_uc main_arg5 (by decide))).trans (W11_main_arg5 m c),
     (h c _ (mem_uc main_arg6 (by decide))).trans (W11_main_arg6 m c),
     (h c _ (mem_uc main_arg7 (by decide))).trans (W11_main_arg7 m c),
     (h c _ (mem_uc main_arg8 (by decide))).trans (W11_main_arg8 m c)⟩) (run_all m ρ)

/-- THE RUN WITH THE RESULT NAMED: the result buffer ends at what `W11` holds there, and every argument array as launched. -/
theorem run_result : θ_run defs (onTc (τ := τ) (main (F := F))) ⟨m, fun _ => 0, ρ⟩ (fun r => ∀ c : Dev nD,
      r.2.mem ((c.tc : Thread nD τ).loc main_v58) = W11 m c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c _ (mem_uc main_v58 (by decide)),
     (h c _ (mem_uc main_arg0 (by decide))).trans (W11_main_arg0 m c),
     (h c _ (mem_uc main_arg1 (by decide))).trans (W11_main_arg1 m c),
     (h c _ (mem_uc main_arg2 (by decide))).trans (W11_main_arg2 m c),
     (h c _ (mem_uc main_arg3 (by decide))).trans (W11_main_arg3 m c),
     (h c _ (mem_uc main_arg4 (by decide))).trans (W11_main_arg4 m c),
     (h c _ (mem_uc main_arg5 (by decide))).trans (W11_main_arg5 m c),
     (h c _ (mem_uc main_arg6 (by decide))).trans (W11_main_arg6 m c),
     (h c _ (mem_uc main_arg7 (by decide))).trans (W11_main_arg7 m c),
     (h c _ (mem_uc main_arg8 (by decide))).trans (W11_main_arg8 m c)⟩) (run_all m ρ)

end Cert.Kernel.Fr

end
-- ==== Proof.KernelIdeal.Reg0.lean ====
import proofs.«100067_j50276887167422_1_alg».proof.Proof.Gen.KernelIdeal.Launch
import proofs.«100067_j50276887167422_1_alg».proof.Proof.Gen.KernelIdeal.Skeleton
import proofs.«100067_j50276887167422_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a whole-tile rectangle covers its tile walks once along each long axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the core's buffer contents when the region is entered; every statement below is relative to it
variable (V : (c : Dev nD) → (b : Ref sig .tc) → Buf (Elt F) ((c : Thread nD τ).loc b))

/-! # The layer-norm call (pipeline 0) entered at `V`

Four windows over a grid of 8 row tiles: window 0 is the `[8192,1024]` input cut into `[1024,1024]` row
tiles, windows 1 and 2 are the `[1024]` scale and shift (the same block at every point), window 3 is the
output, tiled like window 0. -/

/-! ## The windows' blocks -/

/-- The block of window `w` that point `t` works on, read off the window's array as `V` holds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row tile of the input is in its staging buffer at every point: it is fetched at every point. Stated for
    any proof data over `V`'s arrays whose body leaves the tile where it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The scale vector is in its staging buffer at every point, although it is fetched at the first point only:
    its block index never moves, so what was fetched at the first point is still this point's block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The shift vector likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole `[1024,1024]` tile, which the body loads (input and output) and stores (output) in one piece. -/
abbrev r0_0 : Rect S1024x1024 := Rect.unit (s := S1024x1024) ![0, 0] S1024x1024.size inb_S1024x1024_S1024x1024_0_0
/-- The whole `[1024]` vector, loaded for the scale and for the shift. -/
abbrev r0_1 : Rect S1024 := Rect.unit (s := S1024) ![0] S1024.size inb_S1024_S1024_0

/-! ## What the body leaves in the output buffer -/

/-- The output tile after the body, from the three input blocks: one store of the normalised, scaled and shifted
    tile over the whole buffer. -/
def out0_3 (x0 : Vec F S1024x1024 .f32) (x1 : Vec F S1024 .f32) (x2 : Vec F S1024 .f32) : Vec F S1024x1024 .f32 :=
  View.canon [⟨r0_0, k0_pay1 (View.ld x0 r0_0) (View.ld x1 r0_1) (View.ld x2 r0_1)⟩]

/-- The single store covers the output buffer: its rectangle is the whole tile. -/
theorem cover0_3 (p0 : Vec F S1024x1024 .f32) (y : S1024x1024.Idx) :
    ∃ pc ∈ ([⟨r0_0, p0⟩] : List (View.Piece (Elt F) S1024x1024 .f32)), y ∈ pc.1.set :=
  View.cover_of_tiled [⟨r0_0, p0⟩] S1024x1024.size (by rfl) y

/-! ## The body's triple -/

set_option maxHeartbeats 1000000 in
/-- The body on whole staging buffers: with the three inputs at `x0 x1 x2` and the output buffer at anything, it
    returns the inputs untouched and the output buffer at `out0_3 x0 x1 x2`. -/
theorem sound_kernel0 (c : Dev nD) (E : Set ℕ) (i : grid0.Coords)
    (arg0 : Memref sig .tc .vmem S1024x1024 .f32) (harg0 : arg0.IsWhole) (arg1 : Memref sig .tc .vmem S1024 .f32) (harg1 : arg1.IsWhole)
    (arg2 : Memref sig .tc .vmem S1024 .f32) (harg2 : arg2.IsWhole) (arg3 : Memref sig .tc .vmem S1024x1024 .f32) (harg3 : arg3.IsWhole)
    (x0 : Vec F S1024x1024 .f32) (x1 : Vec F S1024 .f32) (x2 : Vec F S1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__ln_kernel i arg0 harg0 arg1 harg1 arg2 harg2 arg3 harg3) K := by
  simp only [cc0__ln_kernel_eq_skeleton]; unfold cc0__ln_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the layer-norm pipeline on core `c`: the arrays as `V` holds them; after the body at point
    `t` every input buffer still at its block and the output buffer at `out0_3` of the three input blocks; the
    invariant is the untouched rest of the core; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are `V`'s. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Every input buffer holds its block when the body is called. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Fr

end
-- ==== Proof.KernelIdeal.Reg1.lean ====
import proofs.«100067_j50276887167422_1_alg».proof.Proof.Gen.KernelIdeal.Launch
import proofs.«100067_j50276887167422_1_alg».proof.Proof.Gen.KernelIdeal.Skeleton
import proofs.«100067_j50276887167422_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a whole-tile rectangle covers its tile walks once along each long axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the core's buffer contents when the region is entered; every statement below is relative to it
variable (V : (c : Dev nD) → (b : Ref sig .tc) → Buf (Elt F) ((c : Thread nD τ).loc b))

/-! # The three-matmul call (pipeline 1) entered at `V`

Eight windows over a 16 x 4 grid: windows 0, 1, 2 are `[512,1024]` bf16 row tiles of the three left operands
(the same tile along the inner axis), windows 3, 4, 5 are `[1024,1024]` bf16 column tiles of the three weight
matrices, window 6 is the `[1024]` slice of the bias, window 7 is the `[512,1024]` bf16 output tile. -/

/-! ## The windows' blocks -/

/-- The block of window `w` that point `t` works on, read off the window's array as `V` holds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, for any proof data over `V`'s arrays whose
    body leaves the block where it found it. The row tiles (windows 0, 1, 2) are fetched only when the outer grid
    coordinate moves; in between their block index does not move, so the buffer still holds this point's block.
    The column tiles and the bias slice (windows 3 to 6) are fetched at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole `[512,1024]` tile: the three left operands' loads, and the output's load and store. -/
abbrev r1_0 : Rect S512x1024 := Rect.unit (s := S512x1024) ![0, 0] S512x1024.size inb_S512x1024_S512x1024_0_0
/-- The whole `[1024,1024]` tile: the three weight tiles' loads. -/
abbrev r1_1 : Rect S1024x1024 := Rect.unit (s := S1024x1024) ![0, 0] S1024x1024.size inb_S1024x1024_S1024x1024_0_0
/-- The whole `[1024]` vector: the bias slice's load. -/
abbrev r1_2 : Rect S1024 := Rect.unit (s := S1024) ![0] S1024.size inb_S1024_S1024_0

/-! ## What the body leaves in the output buffer -/

/-- The output tile after the body, from the seven input blocks in window order: one store, over the whole buffer,
    of `relu(x0·x3 + x1·x4 + x2·x5 + bias)` rounded to bf16. The payload takes its arguments in the order the
    body loads them: each left operand followed by its weight tile, then the bias. -/
def out1_7 (x0 x1 x2 : Vec F S512x1024 .bf16) (x3 x4 x5 : Vec F S1024x1024 .bf16) (x6 : Vec F S1024 .f32) : Vec F S512x1024 .bf16 :=
  View.canon [⟨r1_0, k1_pay1 (View.ld x0 r1_0) (View.ld x3 r1_1) (View.ld x1 r1_0) (View.ld x4 r1_1) (View.ld x2 r1_0) (View.ld x5 r1_1) (View.ld x6 r1_2)⟩]

/-- The single store covers the output buffer: its rectangle is the whole tile. -/
theorem cover1_7 (p0 : Vec F S512x1024 .bf16) (y : S512x1024.Idx) :
    ∃ pc ∈ ([⟨r1_0, p0⟩] : List (View.Piece (Elt F) S512x1024 .bf16)), y ∈ pc.1.set :=
  View.cover_of_tiled [⟨r1_0, p0⟩] S512x1024.size (by rfl) y

/-! ## The body's triple -/

set_option maxHeartbeats 1000000 in
/-- The body on whole staging buffers: with the seven inputs at `x0 … x6` and the output buffer at anything, it
    returns the inputs untouched and the output buffer at `out1_7 x0 … x6`. -/
theorem sound_kernel1 (c : Dev nD) (E : Set ℕ) (i : grid1.Coords)
    (arg0 : Memref sig .tc .vmem S512x1024 .bf16) (harg0 : arg0.IsWhole)
    (arg1 : Memref sig .tc .vmem S512x1024 .bf16) (harg1 : arg1.IsWhole)
    (arg2 : Memref sig .tc .vmem S512x1024 .bf16) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1024 .f32) (harg6 : arg6.IsWhole)
    (arg7 : Memref sig .tc .vmem S512x1024 .bf16) (harg7 : arg7.IsWhole)
    (x0 : Vec F S512x1024 .bf16) (x1 : Vec F S512x1024 .bf16) (x2 : Vec F S512x1024 .bf16) (x3 : Vec F S1024x1024 .bf16) (x4 : Vec F S1024x1024 .bf16) (x5 : Vec F S1024x1024 .bf16) (x6 : Vec F S1024 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare (out1_7 x0 x1 x2 x3 x4 x5 x6)) -∗ K ⟨⟩))
      ⊢ wp frame (wpE (defs₀ (F := F)) Variants.none c none) E (cc1__big_mm_kernel i arg0 harg0 arg1 harg1 arg2 harg2 arg3 harg3 arg4 harg4 arg5 harg5 arg6 harg6 arg7 harg7) K := by
  simp only [cc1__big_mm_kernel_eq_skeleton]; unfold cc1__big_mm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of the three-matmul pipeline on core `c`: the arrays as `V` holds them; after the body at point
    `t` every input buffer still at its block and the output buffer at `out1_7` of the seven input blocks; the
    invariant is the untouched rest of the core; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are `V`'s. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-- Every input buffer holds its block when the body is called. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the input buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Fr

end
-- ==== Proof.KernelIdeal.Reg2Runs.lean ====
/- Region 2 (the output projection, accumulated over the four K-blocks of a row tile in a VMEM accumulator, plus the
   residual): what its three control cases share. The grid is 16 x 4, point t = 4 i + k; the body resets the
   accumulator at k = 0, adds the block product at every k, and at k = 3 stores accumulator + residual tile into the
   output window's buffer. -/
import proofs.«100067_j50276887167422_1_alg».proof.Proof.Gen.KernelIdeal.Launch
import proofs.«100067_j50276887167422_1_alg».proof.Proof.Gen.KernelIdeal.Skeleton
import proofs.«100067_j50276887167422_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the tiles' extents: the elaborator's structural look recurses once per coordinate
-- of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, from the grid coordinates -/

/-- The first conditional's test (k = 0: reset the accumulator), as the body computes it from the inner coordinate. -/
abbrev cond2_0 (i : grid2.Coords) : Prop := (Scalar.cmpi .ne (Scalar.extui (Scalar.cmpi .eq (BitVec.ofNat 32 (i 1).val) 0#32)) 0#32) = 1#1
/-- It holds exactly at the points t ≡ 0 (mod 4): decided over the 64 points. -/
theorem hcond2_0 : ∀ t : Fin cfg2.N, cond2_0 (grid2.coords t) ↔ t.val % 4 = 0 :=
  (by decide +kernel : ∀ t : Fin grid2.N, cond2_0 (grid2.coords t) ↔ t.val % 4 = 0)

/-- The second conditional's test (k = 3: emit accumulator + residual). -/
abbrev cond2_1 (i : grid2.Coords) : Prop := k2_cond2 i = 1#1
/-- It holds exactly at the points t ≡ 3 (mod 4). -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

/-- The three input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- At k = 0 the output window is idle (nothing is stored into it) and its block is not written back. -/
theorem idleAt2_3_A : ∀ t : Fin cfg2.N, cond2_0 (grid2.coords t) → ¬cond2_1 (grid2.coords t) → cfg2.idle 3 (grid2.coords t) = true := by decide +kernel
theorem noFlush2_3_A : ∀ t : Fin cfg2.N, cond2_0 (grid2.coords t) → ¬cond2_1 (grid2.coords t) → (cfg2.win 3).flush t = false := by decide +kernel
/-- The same at k = 1, 2. -/
theorem idleAt2_3_B : ∀ t : Fin cfg2.N, ¬cond2_0 (grid2.coords t) → ¬cond2_1 (grid2.coords t) → cfg2.idle 3 (grid2.coords t) = true := by decide +kernel
theorem noFlush2_3_B : ∀ t : Fin cfg2.N, ¬cond2_0 (grid2.coords t) → ¬cond2_1 (grid2.coords t) → (cfg2.win 3).flush t = false := by decide +kernel
/-- At k = 3 the output window is live: the body stores into it. -/
theorem liveAt2_3_C : ∀ t : Fin cfg2.N, ¬cond2_0 (grid2.coords t) → cond2_1 (grid2.coords t) → cfg2.idle 3 (grid2.coords t) = false := by decide +kernel

/-! ## The memrefs the body is called with -/

/-- One staging buffer of the output window, through which its contents are stated (which one does not matter:
    a covering list of writes reads back the same through any view). -/
abbrev VO2_3 : View sig .tc .vmem S512x1024 .f32 := (Memref.whole cc2_stg3_0 : Memref sig .tc .vmem S512x1024 .f32).view
/-- Each window's current staging memref at point `t`, and its wholeness. -/
abbrev ms2_0 (t : Fin cfg2.N) : Memref sig .tc .vmem S512x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x1024 .f32 := win2_3.stage (cfg2.slots t 3)
abbrev hs2_3 (t : Fin cfg2.N) : (ms2_3 t).IsWhole := hstage2_3 ((cfg2.slots t 3).cast nbuf2_3)
/-- The accumulator: a whole scoped buffer of the kernel's own, passed beside the windows and carried from point to point. -/
abbrev scM2_0 : Memref sig .tc .vmem S512x1024 .f32 := Memref.whole cc2_scratch0
/-- The accumulator as a view: what it holds is stated through it. -/
abbrev VS2_0 : View sig .tc .vmem S512x1024 .f32 := scM2_0.view

/-! ## The region's scoped rest -/

/-- The scoped buffers of the core that region 2 neither stages through nor accumulates in (the other two regions'
    staging buffers), each whole at some contents: they pass through every point untouched. -/
def others2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- The invariant the launch hands the region, with the accumulator as a memref owned at some contents: the other
    regions' staging buffers, the accumulator, the generator register. -/
theorem PhiA2_eq (c : Dev nD) :
    (Pipeline.ΦA spec2 c : sProp 𝕄)
      = iprop(iprop(others2 (F := F) c ∗ (∃ d, owns (c : Thread nD τ) scM2_0 fullShare d)) ∗ (∃ r, prngReg c r)) := by
  have hassoc : ∀ P Q R : sProp 𝕄, iprop((P ∗ Q) ∗ R) = iprop(P ∗ Q ∗ R) := fun P Q R =>
    Idealize.SL.BI.Entails.antisymm (Laws.sep_assoc (PROP := sProp 𝕄) (P := P) (Q := Q) (R := R)).1 (Laws.sep_assoc (PROP := sProp 𝕄) (P := P) (Q := Q) (R := R)).2
  unfold Pipeline.ΦA others2; rw [scopedRest2_eq]; simp only [scM2_0, owns_whole, hassoc]; rfl

end Cert.KernelIdeal.Fr

end
-- ==== Proof.KernelIdeal.Reg2RunA.lean ====
/- Region 2, the case k = 0 (reset and accumulate): the body's run on any whole memrefs. -/
import proofs.«100067_j50276887167422_1_alg».proof.Proof.KernelIdeal.Reg2Runs

-- membership in a rectangle of the tiles' extents: the elaborator's structural look recurses once per coordinate
-- of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- AT k = 0. The lists of writes (last first) the body leaves in the output window's buffer (none: the buffer is
    handed back as found, at any contents `xi3`) and in the accumulator (the zero tile, then zero + the block product
    of the two input tiles), with the proof that on whole memrefs — the activation and weight tiles at `x0`, `x1`,
    the residual tile and the output buffer at anything fixed, the accumulator at anything — the body runs to a
    continuation holding the four windows' buffers as they were and the accumulator with its writes applied. The
    writes are found by the run itself (assigned when the accumulator is handed to the continuation). -/
noncomputable def kernelRun2_A (c : Dev nD) (i : grid2.Coords) (arg2 : Memref sig .tc .vmem S512x1024 .bf16) (harg2 : arg2.IsWhole) (arg3 : Memref sig .tc .vmem S1024x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : ¬cond2_1 i)
    (x0 : Vec F S512x1024 .bf16) (x1 : Vec F S1024x1024 .bf16) :
    Σ' (L3 : List (View.Piece (Elt F) S512x1024 .f32)), { LS0 : List (View.Piece (Elt F) S512x1024 .f32) //
      ∀ (xi2 : Vec F S512x1024 .f32) (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__final_mm_kernel i arg2 harg2 arg3 harg3 arg4 harg4 arg5 harg5 arg6 harg6) K } := by
  refine ⟨[], ?_, fun xi2 xi3 E K => ?run⟩
  case run =>
    simp only [cc2__final_mm_kernel_eq_skeleton]; unfold cc2__final_mm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.KernelIdeal.Reg2RunB.lean ====
/- Region 2, the case k = 1, 2 (accumulate): the body's run on any whole memrefs. -/
import proofs.«100067_j50276887167422_1_alg».proof.Proof.KernelIdeal.Reg2RunA

-- membership in a rectangle of the tiles' extents: the elaborator's structural look recurses once per coordinate
-- of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- AT k = 1, 2. The lists of writes (last first) the body leaves in the output window's buffer (none: handed back
    as found) and in the accumulator (what the point before left, `xs0`, + the block product of the two input
    tiles), with the proof that on whole memrefs — the activation and weight tiles at `x0`, `x1`, the residual tile
    and the output buffer at anything fixed, the accumulator at `xs0` — the body runs to a continuation holding the
    four windows' buffers as they were and the accumulator with its writes applied. -/
noncomputable def kernelRun2_B (c : Dev nD) (i : grid2.Coords) (arg2 : Memref sig .tc .vmem S512x1024 .bf16) (harg2 : arg2.IsWhole) (arg3 : Memref sig .tc .vmem S1024x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : ¬cond2_1 i)
    (x0 : Vec F S512x1024 .bf16) (x1 : Vec F S1024x1024 .bf16) (xs0 : Vec F S512x1024 .f32) :
    Σ' (L3 : List (View.Piece (Elt F) S512x1024 .f32)), { LS0 : List (View.Piece (Elt F) S512x1024 .f32) //
      ∀ (xi2 : Vec F S512x1024 .f32) (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__final_mm_kernel i arg2 harg2 arg3 harg3 arg4 harg4 arg5 harg5 arg6 harg6) K } := by
  refine ⟨[], ?_, fun xi2 xi3 E K => ?run⟩
  case run =>
    simp only [cc2__final_mm_kernel_eq_skeleton]; unfold cc2__final_mm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.KernelIdeal.Reg2RunC.lean ====
/- Region 2, the case k = 3 (accumulate and emit): the body's run on any whole memrefs. -/
import proofs.«100067_j50276887167422_1_alg».proof.Proof.KernelIdeal.Reg2RunB

-- membership in a rectangle of the tiles' extents: the elaborator's structural look recurses once per coordinate
-- of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- AT k = 3. The lists of writes (last first) the body leaves in the output window's buffer (the accumulator's final
    value + the residual tile) and in the accumulator (what the point before left, `xs0`, + the block product of the
    two input tiles), with the proof that on whole memrefs — the activation, weight and residual tiles at `x0`, `x1`,
    `x2`, the output buffer at anything, the accumulator at `xs0` — the body runs to a continuation holding the
    inputs' buffers as they were and the output buffer and the accumulator with their writes applied. -/
noncomputable def kernelRun2_C (c : Dev nD) (i : grid2.Coords) (arg2 : Memref sig .tc .vmem S512x1024 .bf16) (harg2 : arg2.IsWhole) (arg3 : Memref sig .tc .vmem S1024x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S512x1024 .bf16) (x1 : Vec F S1024x1024 .bf16) (x2 : Vec F S512x1024 .f32) (xs0 : Vec F S512x1024 .f32) :
    Σ' (L3 : List (View.Piece (Elt F) S512x1024 .f32)), { LS0 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__final_mm_kernel i arg2 harg2 arg3 harg3 arg4 harg4 arg5 harg5 arg6 harg6) K } := by
  refine ⟨?_, ?_, fun E K => ?run⟩
  case run =>
    simp only [cc2__final_mm_kernel_eq_skeleton]; unfold cc2__final_mm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Fr

end
-- ==== Proof.KernelIdeal.Reg2.lean ====
/- Region 2 (the output projection accumulated over the four K-blocks of a row tile, plus the residual), at any
   contents `V` of the core's buffers when the region is entered: what the output window's buffer and the accumulator
   hold after each of the 64 points, the pipeline's proof data with the accumulator carried by the invariant, and
   the body obligation by cases on k = t mod 4. -/
import proofs.«100067_j50276887167422_1_alg».proof.Proof.KernelIdeal.Reg2RunC

-- membership in a rectangle of the tiles' extents: the elaborator's structural look recurses once per coordinate
-- of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the output window's buffer and in the accumulator -/

/-- At k = 0 nothing is stored into the output window's buffer: a placeholder (an empty list of writes read back)
    that nothing consults, the window being idle there. -/
def out2_A_3 (c : Dev nD) (i : grid2.Coords) (arg2 : Memref sig .tc .vmem S512x1024 .bf16) (harg2 : arg2.IsWhole) (arg3 : Memref sig .tc .vmem S1024x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : ¬cond2_1 i)
    (x0 : Vec F S512x1024 .bf16) (x1 : Vec F S1024x1024 .bf16) : Vec F S512x1024 .f32 :=
  VO2_3.read (Elt F) (VO2_3.writes (Elt F) VO2_3.junk (kernelRun2_A c i arg2 harg2 arg3 harg3 arg4 harg4 arg5 harg5 arg6 harg6 hc0 hc1 x0 x1).1)

/-- The accumulator's writes at k = 0 (the zero tile, then the first block product over it) cover it. -/
theorem scover2_A_0 (c : Dev nD) (i : grid2.Coords) (arg2 : Memref sig .tc .vmem S512x1024 .bf16) (harg2 : arg2.IsWhole) (arg3 : Memref sig .tc .vmem S1024x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : ¬cond2_1 i)
    (x0 : Vec F S512x1024 .bf16) (x1 : Vec F S1024x1024 .bf16) (y : S512x1024.Idx) :
    ∃ pc ∈ (kernelRun2_A c i arg2 harg2 arg3 harg3 arg4 harg4 arg5 harg5 arg6 harg6 hc0 hc1 x0 x1).2.1, y ∈ pc.1.set :=
  View.cover_of_tiledL (kernelRun2_A c i arg2 harg2 arg3 harg3 arg4 harg4 arg5 harg5 arg6 harg6 hc0 hc1 x0 x1).2.1 S512x1024.size (by sl_kernel_rfl) y

/-- What the accumulator holds after a point with k = 0: its writes read back. -/
def sout2_A_0 (c : Dev nD) (i : grid2.Coords) (arg2 : Memref sig .tc .vmem S512x1024 .bf16) (harg2 : arg2.IsWhole) (arg3 : Memref sig .tc .vmem S1024x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : ¬cond2_1 i)
    (x0 : Vec F S512x1024 .bf16) (x1 : Vec F S1024x1024 .bf16) : Vec F S512x1024 .f32 :=
  VS2_0.read (Elt F) (VS2_0.writes (Elt F) VS2_0.junk (kernelRun2_A c i arg2 harg2 arg3 harg3 arg4 harg4 arg5 harg5 arg6 harg6 hc0 hc1 x0 x1).2.1)

/-- At k = 1, 2 nothing is stored into the output window's buffer either. -/
def out2_B_3 (c : Dev nD) (i : grid2.Coords) (arg2 : Memref sig .tc .vmem S512x1024 .bf16) (harg2 : arg2.IsWhole) (arg3 : Memref sig .tc .vmem S1024x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : ¬cond2_1 i)
    (x0 : Vec F S512x1024 .bf16) (x1 : Vec F S1024x1024 .bf16) (xs0 : Vec F S512x1024 .f32) : Vec F S512x1024 .f32 :=
  VO2_3.read (Elt F) (VO2_3.writes (Elt F) VO2_3.junk (kernelRun2_B c i arg2 harg2 arg3 harg3 arg4 harg4 arg5 harg5 arg6 harg6 hc0 hc1 x0 x1 xs0).1)

/-- The accumulator's one write at k = 1, 2 (previous contents + block product) covers it. -/
theorem scover2_B_0 (c : Dev nD) (i : grid2.Coords) (arg2 : Memref sig .tc .vmem S512x1024 .bf16) (harg2 : arg2.IsWhole) (arg3 : Memref sig .tc .vmem S1024x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : ¬cond2_1 i)
    (x0 : Vec F S512x1024 .bf16) (x1 : Vec F S1024x1024 .bf16) (xs0 : Vec F S512x1024 .f32) (y : S512x1024.Idx) :
    ∃ pc ∈ (kernelRun2_B c i arg2 harg2 arg3 harg3 arg4 harg4 arg5 harg5 arg6 harg6 hc0 hc1 x0 x1 xs0).2.1, y ∈ pc.1.set :=
  View.cover_of_tiledL (kernelRun2_B c i arg2 harg2 arg3 harg3 arg4 harg4 arg5 harg5 arg6 harg6 hc0 hc1 x0 x1 xs0).2.1 S512x1024.size (by sl_kernel_rfl) y

/-- What the accumulator holds after a point with k = 1, 2. -/
def sout2_B_0 (c : Dev nD) (i : grid2.Coords) (arg2 : Memref sig .tc .vmem S512x1024 .bf16) (harg2 : arg2.IsWhole) (arg3 : Memref sig .tc .vmem S1024x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : ¬cond2_1 i)
    (x0 : Vec F S512x1024 .bf16) (x1 : Vec F S1024x1024 .bf16) (xs0 : Vec F S512x1024 .f32) : Vec F S512x1024 .f32 :=
  VS2_0.read (Elt F) (VS2_0.writes (Elt F) VS2_0.junk (kernelRun2_B c i arg2 harg2 arg3 harg3 arg4 harg4 arg5 harg5 arg6 harg6 hc0 hc1 x0 x1 xs0).2.1)

/-- At k = 3 the one store into the output window's buffer (accumulator + residual tile) covers it. -/
theorem cover2_C_3 (c : Dev nD) (i : grid2.Coords) (arg2 : Memref sig .tc .vmem S512x1024 .bf16) (harg2 : arg2.IsWhole) (arg3 : Memref sig .tc .vmem S1024x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S512x1024 .bf16) (x1 : Vec F S1024x1024 .bf16) (x2 : Vec F S512x1024 .f32) (xs0 : Vec F S512x1024 .f32) (y : S512x1024.Idx) :
    ∃ pc ∈ (kernelRun2_C c i arg2 harg2 arg3 harg3 arg4 harg4 arg5 harg5 arg6 harg6 hc0 hc1 x0 x1 x2 xs0).1, y ∈ pc.1.set :=
  View.cover_of_tiledL (kernelRun2_C c i arg2 harg2 arg3 harg3 arg4 harg4 arg5 harg5 arg6 harg6 hc0 hc1 x0 x1 x2 xs0).1 S512x1024.size (by sl_kernel_rfl) y

/-- What the output window's buffer holds after a point with k = 3. -/
def out2_C_3 (c : Dev nD) (i : grid2.Coords) (arg2 : Memref sig .tc .vmem S512x1024 .bf16) (harg2 : arg2.IsWhole) (arg3 : Memref sig .tc .vmem S1024x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S512x1024 .bf16) (x1 : Vec F S1024x1024 .bf16) (x2 : Vec F S512x1024 .f32) (xs0 : Vec F S512x1024 .f32) : Vec F S512x1024 .f32 :=
  VO2_3.read (Elt F) (VO2_3.writes (Elt F) VO2_3.junk (kernelRun2_C c i arg2 harg2 arg3 harg3 arg4 harg4 arg5 harg5 arg6 harg6 hc0 hc1 x0 x1 x2 xs0).1)

/-- The accumulator's one write at k = 3 covers it. -/
theorem scover2_C_0 (c : Dev nD) (i : grid2.Coords) (arg2 : Memref sig .tc .vmem S512x1024 .bf16) (harg2 : arg2.IsWhole) (arg3 : Memref sig .tc .vmem S1024x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S512x1024 .bf16) (x1 : Vec F S1024x1024 .bf16) (x2 : Vec F S512x1024 .f32) (xs0 : Vec F S512x1024 .f32) (y : S512x1024.Idx) :
    ∃ pc ∈ (kernelRun2_C c i arg2 harg2 arg3 harg3 arg4 harg4 arg5 harg5 arg6 harg6 hc0 hc1 x0 x1 x2 xs0).2.1, y ∈ pc.1.set :=
  View.cover_of_tiledL (kernelRun2_C c i arg2 harg2 arg3 harg3 arg4 harg4 arg5 harg5 arg6 harg6 hc0 hc1 x0 x1 x2 xs0).2.1 S512x1024.size (by sl_kernel_rfl) y

/-- What the accumulator holds after a point with k = 3. -/
def sout2_C_0 (c : Dev nD) (i : grid2.Coords) (arg2 : Memref sig .tc .vmem S512x1024 .bf16) (harg2 : arg2.IsWhole) (arg3 : Memref sig .tc .vmem S1024x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S512x1024 .bf16) (x1 : Vec F S1024x1024 .bf16) (x2 : Vec F S512x1024 .f32) (xs0 : Vec F S512x1024 .f32) : Vec F S512x1024 .f32 :=
  VS2_0.read (Elt F) (VS2_0.writes (Elt F) VS2_0.junk (kernelRun2_C c i arg2 harg2 arg3 harg3 arg4 harg4 arg5 harg5 arg6 harg6 hc0 hc1 x0 x1 x2 xs0).2.1)

section Regions
-- the core's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (unfetched, the block
    index has not moved: the residual tile is fetched at k = 0 only and stays in place for k = 1, 2, 3), for any proof
    data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## What the output buffer and the accumulator hold after each point -/

/-- After a point with k = 0: (nothing stored in the output buffer, the accumulator at the first block product). -/
def atA2 (c : Dev nD) (t : Fin cfg2.N) (h0 : t.val % 4 = 0) (h1 : ¬t.val % 4 = 3) : Vec F S512x1024 .f32 × Vec F S512x1024 .f32 :=
  (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t),
   sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t))

/-- After a point with k = 1, 2, the accumulator having been at `xs0`: (nothing stored in the output buffer, the
    accumulator at `xs0` + the block product). -/
def atB2 (c : Dev nD) (t : Fin cfg2.N) (h0 : ¬t.val % 4 = 0) (h1 : ¬t.val % 4 = 3) (xs0 : Vec F S512x1024 .f32) : Vec F S512x1024 .f32 × Vec F S512x1024 .f32 :=
  (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) xs0,
   sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) xs0)

/-- After a point with k = 3, the accumulator having been at `xs0`: (the output buffer at the final sum + the residual
    tile, the accumulator at the final sum). -/
def atC2 (c : Dev nD) (t : Fin cfg2.N) (h0 : ¬t.val % 4 = 0) (h1 : t.val % 4 = 3) (xs0 : Vec F S512x1024 .f32) : Vec F S512x1024 .f32 × Vec F S512x1024 .f32 :=
  (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) xs0,
   sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) xs0)

/-- THE ACCUMULATION. The pair (output window's staging buffer, accumulator) after the body at position `n`: the case
    k = n mod 4 selects, run at the point's input blocks, over the accumulator the point before left (which the
    pipeline does not touch in between). -/
def outsAt2 (c : Dev nD) : (n : ℕ) → n < cfg2.N → Vec F S512x1024 .f32 × Vec F S512x1024 .f32
  | 0, hn => atA2 V c ⟨0, hn⟩ (Nat.zero_mod _) (by show ¬ (0 % 4 = 3); decide)
  | n + 1, hn =>
    if h0 : (n + 1) % 4 = 0 then
      if h1 : (n + 1) % 4 = 3 then
        False.elim (by omega)
      else
        atA2 V c ⟨n + 1, hn⟩ h0 h1
    else
      if h1 : (n + 1) % 4 = 3 then
        atC2 V c ⟨n + 1, hn⟩ h0 h1 (outsAt2 c n (Nat.lt_of_succ_lt hn)).2
      else
        atB2 V c ⟨n + 1, hn⟩ h0 h1 (outsAt2 c n (Nat.lt_of_succ_lt hn)).2

/-- `outsAt2` at a point with k = 0. -/
theorem outsAt2_A (c : Dev nD) (t : Fin cfg2.N) (h0 : t.val % 4 = 0) (h1 : ¬t.val % 4 = 3) :
    outsAt2 V c t.val t.isLt = atA2 V c t h0 h1 := by
  obtain ⟨n, hn⟩ := t
  cases n with
  | zero => exact rfl
  | succ n => exact (dif_pos h0).trans ((dif_neg h1).trans rfl)

/-- `outsAt2` at a point with k = 1, 2: over what the point before left in the accumulator. -/
theorem outsAt2_B (c : Dev nD) (t : Fin cfg2.N) (h0 : ¬t.val % 4 = 0) (h1 : ¬t.val % 4 = 3) :
    outsAt2 V c t.val t.isLt = atB2 V c t h0 h1 (outsAt2 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

/-- `outsAt2` at a point with k = 3: over what the point before left in the accumulator. -/
theorem outsAt2_C (c : Dev nD) (t : Fin cfg2.N) (h0 : ¬t.val % 4 = 0) (h1 : t.val % 4 = 3) :
    outsAt2 V c t.val t.isLt = atC2 V c t h0 h1 (outsAt2 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator carried from point to point -/

/-- Before position `n`: at the first point what the launch hands the region (every scoped buffer of the rest at
    anything); afterwards the other regions' staging buffers at anything, the accumulator at what the point before left
    in it, and the generator register at some state. -/
def PhiS2 (c : Dev nD) : (n : ℕ) → n ≤ cfg2.N → sProp 𝕄
  | 0, _ => Pipeline.ΦA spec2 c
  | n + 1, hn => iprop(iprop(others2 (F := F) c ∗ owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(others2 (F := F) c ∗ owns (c : Thread nD τ) scM2_0 fullShare ((outsAt2 V c n hn).2)) ∗ (∃ r, prngReg c r)) := rfl

theorem PhiS2_pos (c : Dev nD) (n : ℕ) (h : n ≤ cfg2.N) (hz : n ≠ 0) :
    PhiS2 V c n h = iprop(iprop(others2 (F := F) c ∗ owns (c : Thread nD τ) scM2_0 fullShare ((outsAt2 V c (n - 1) (by omega)).2)) ∗ (∃ r, prngReg c r)) := by
  cases n with
  | zero => exact absurd rfl hz
  | succ n => rfl

/-! ## The pipeline's proof data -/

/-- The proof data of pipeline 2 on core `c`: the arrays as the region finds them; after the body at point `t` each
    input's buffer at its block and the output's at `outsAt2`'s first component; the invariant `PhiS2`; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. The inputs' memrefs hold their blocks; k = t mod 4 says which case the point is in; the
    invariant hands the body the accumulator at what the point before left (at anything at the very first point, where
    k = 0 resets it anyway) and takes it back at this point's contents, the case's writes covering it; at k < 3 the output
    buffer is handed back as found, at k = 3 it is covered by the one store; the other regions' buffers, the generator
    register and the core's `owes` pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 4 = 0
  · by_cases h1 : t.val % 4 = 3
    · exfalso; omega
    · rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
      rw [outsAt2_A V c t h0 h1]
      unfold atA2 sout2_A_0; (try dsimp only)
      by_cases hz : t.val = 0
      · rw [PhiS2_castSucc V c t, PhiS2_zero V c _ _ hz, PhiA2_eq]
        iintro ⟨⟨⟨Hoth, HS0⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t)).2.2 _ _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Hoth HS0 Hg]
        · isplitl [Hoth HS0]
          · isplitl [Hoth]; · iexact Hoth
            unfold owns; iexists _; isplitr
            swap; · iexact HS0
            ipureintro; exact View.read_writes_of_cover _ _ _ _ _ (scover2_A_0 c _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS2_castSucc V c t, PhiS2_pos V c _ _ hz]
        iintro ⟨⟨⟨Hoth, HS0⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t)).2.2 _ _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [Hoth HS0 Hg]
        · isplitl [Hoth HS0]
          · isplitl [Hoth]; · iexact Hoth
            unfold owns; iexists _; isplitr
            swap; · iexact HS0
            ipureintro; exact View.read_writes_of_cover _ _ _ _ _ (scover2_A_0 c _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 4 = 3
    · rw [show (dat2 V c).leavesExact 3 t = owns (c : Thread nD τ) (ms2_3 t) fullShare ((dat2 V c).after 3 t) from by
        unfold Dat.leavesExact; rw [liveAt2_3_C t (fun h => h0 ((hcond2_0 t).mp h)) ((hcond2_1 t).mpr h1)], after2_3]
      rw [outsAt2_C V c t h0 h1]
      unfold atC2 out2_C_3 sout2_C_0; (try dsimp only)
      by_cases hz : t.val = 0
      · exfalso; omega
      · rw [PhiS2_castSucc V c t, PhiS2_pos V c _ _ hz]
        iintro ⟨⟨⟨Hoth, HS0⟩, Hg⟩, Ho, ⟨%d0, H0⟩, ⟨%d1, H1⟩, ⟨%d2, H2⟩, ⟨%d3, H3⟩⟩
        iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [Hoth HS0 Hg]
        · isplitl [Hoth HS0]
          · isplitl [Hoth]; · iexact Hoth
            unfold owns; iexists _; isplitr
            swap; · iexact HS0
            ipureintro; exact View.read_writes_of_cover _ _ _ _ _ (scover2_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover2_C_3 c _ _ _ _ _ _ _ _ _ _ _ _ _ _ _ _ _)
    · rw [Dat.leavesExact_idle (dat2 V c) 3 t (idleAt2_3_B t (fun h => h0 ((hcond2_0 t).mp h)) (fun h => h1 ((hcond2_1 t).mp h))) (noFlush2_3_B t (fun h => h0 ((hcond2_0 t).mp h)) (fun h => h1 ((hcond2_1 t).mp h)))]
      rw [outsAt2_B V c t h0 h1]
      unfold atB2 sout2_B_0; (try dsimp only)
      by_cases hz : t.val = 0
      · exfalso; omega
      · rw [PhiS2_castSucc V c t, PhiS2_pos V c _ _ hz]
        iintro ⟨⟨⟨Hoth, HS0⟩, Hg⟩, Ho, ⟨%d0, H0⟩, ⟨%d1, H1⟩, ⟨%d2, H2⟩, ⟨%d3, H3⟩⟩
        iapply ((kernelRun2_B c (grid2.coords t) _ _ _ _ _ _ _ _ _ _ (fun h => h0 ((hcond2_0 t).mp h)) (fun h => h1 ((hcond2_1 t).mp h)) (iblk2 V c 0 t) (iblk2 V c 1 t) _).2.2 _ _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Hoth HS0 Hg]
        · isplitl [Hoth HS0]
          · isplitl [Hoth]; · iexact Hoth
            unfold owns; iexists _; isplitr
            swap; · iexact HS0
            ipureintro; exact View.read_writes_of_cover _ _ _ _ _ (scover2_B_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the launch's back: the accumulator's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨Hoth, HS0⟩, Hg⟩
  isplitl [Hoth HS0]
  · isplitl [Hoth]; · iexact Hoth
    iexists _; iexact HS0
  iexact Hg

/-- The same after the last point. -/
theorem hout2 (c : Dev nD) : (dat2 V c).Φ (Fin.last cfg2.N) ⊢ Pipeline.ΦA spec2 c :=
  Phi_out2 V c _ (by rw [Fin.val_last]; have : cfg2.N = 64 := N_2; omega)

end Regions

end Cert.KernelIdeal.Fr

end
-- ==== Proof.KernelIdeal.Run.lean ====
import proofs.«100067_j50276887167422_1_alg».proof.Proof.KernelIdeal.Reg0
import proofs.«100067_j50276887167422_1_alg».proof.Proof.KernelIdeal.Reg1
import proofs.«100067_j50276887167422_1_alg».proof.Proof.KernelIdeal.Reg2
import proofs.«100067_j50276887167422_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The program's run, from the launch to the return

@main is eleven items in a row: a reshape of the input; the layer-norm region; five stretches of host operations
(the edge index rows, the gather, the two masked selections, the four segment sums, the two mean aggregates, the
narrowing casts and the two weight slabs); the hidden-layer region; one cast; the projection region; the final reshape.
`WJ c` is what core `c`'s unscoped buffers hold after item J−1: a host stretch applies its operations to the contents
before it; a region leaves every buffer as it found it except its windows' arrays, which end at what the pipeline's
write-backs leave (the inputs' as entered). The run below says that every weakly fair execution terminates without a
fault with EVERY unscoped buffer at `W11`; the frame (no argument array changes) and the result's value are both read
off that valuation.
-/

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m ((c : Dev nD), b)
/-- After the reshape of the input (the layer-norm region's entry). -/
abbrev W1 : Dev nD → Valuation τ sig (Elt F) := fun c => StableHlo.after hostOps0 (W0 m c)
/-- The same, read at the TensorCore's references. -/
abbrev U1 : (c : Dev nD) → (b : Ref sig .tc) → Buf (Elt F) ((c : Thread nD τ).loc b) := fun c b => W1 m c b
/-- At the layer-norm region's exit. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the five host stretches between the first two regions (the hidden-layer region's entry is `W7`). -/
abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev W6 : Dev nD → Valuation τ sig (Elt F) := fun c => StableHlo.after hostOps1_3 (W5 m c)
abbrev W7 : Dev nD → Valuation τ sig (Elt F) := fun c => StableHlo.after hostOps1_4 (W6 m c)
abbrev U7 : (c : Dev nD) → (b : Ref sig .tc) → Buf (Elt F) ((c : Thread nD τ).loc b) := fun c b => W7 m c b
/-- At the hidden-layer region's exit. -/
def W8 (c : Dev nD) : Valuation τ sig (Elt F) :=
  Pipeline.withArrays spec1 c (W7 m c) fun w => (dat1 (U7 m) c).arrAt w cfg1.N
theorem W8_arr (c : Dev nD) (w : Fin cfg1.W) :
    W8 m c (Proc.devRef .tc (Pipeline.arrRef spec1 w)) = (dat1 (U7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
abbrev U8 : (c : Dev nD) → (b : Ref sig .tc) → Buf (Elt F) ((c : Thread nD τ).loc b) := fun c b => W8 m c b
theorem hF1 (c : Dev nD) (w : Fin cfg1.W) : (dat1 (U7 m) c).arrAt w cfg1.N = U8 m c (Pipeline.arrRef spec1 w) :=
  (W8_arr m c w).symm
theorem hrest1 (c : Dev nD) : ∀ b, b ∉ Finset.univ.image (Pipeline.arrRef spec1) → U8 m c b = U7 m c b :=
  fun b hb => W8_of_ne m c b fun w e => hb (Finset.mem_image.mpr ⟨w, Finset.mem_univ _, e⟩)

/-- After the cast of the projection weights (the projection region's entry). -/
abbrev W9 : Dev nD → Valuation τ sig (Elt F) := fun c => StableHlo.after hostOps2 (W8 m c)
abbrev U9 : (c : Dev nD) → (b : Ref sig .tc) → Buf (Elt F) ((c : Thread nD τ).loc b) := fun c b => W9 m c b
/-- At the projection region's exit. -/
def W10 (c : Dev nD) : Valuation τ sig (Elt F) :=
  Pipeline.withArrays spec2 c (W9 m c) fun w => (dat2 (U9 m) c).arrAt w cfg2.N
theorem W10_arr (c : Dev nD) (w : Fin cfg2.W) :
    W10 m c (Proc.devRef .tc (Pipeline.arrRef spec2 w)) = (dat2 (U9 m) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m c (Proc.devRef .tc b) = W9 m c (Proc.devRef .tc b) := by
  unfold W10; exact Pipeline.withArrays_of_ne spec2 c _ _ b hb
abbrev U10 : (c : Dev nD) → (b : Ref sig .tc) → Buf (Elt F) ((c : Thread nD τ).loc b) := fun c b => W10 m c b
theorem hF2 (c : Dev nD) (w : Fin cfg2.W) : (dat2 (U9 m) c).arrAt w cfg2.N = U10 m c (Pipeline.arrRef spec2 w) :=
  (W10_arr m c w).symm
theorem hrest2 (c : Dev nD) : ∀ b, b ∉ Finset.univ.image (Pipeline.arrRef spec2) → U10 m c b = U9 m c b :=
  fun b hb => W10_of_ne m c b fun w e => hb (Finset.mem_image.mpr ⟨w, Finset.mem_univ _, e⟩)

/-- After the final reshape: what the run ends with. -/
abbrev W11 : Dev nD → Valuation τ sig (Elt F) := fun c => StableHlo.after hostOps3 (W10 m c)

/-! ## A buffer no item writes keeps its launch contents -/

/-- A reference that no host stretch writes and that every region leaves as it found it ends as launched. -/
theorem W11_keep (c : Dev nD) (r : Ref sig .tc)
    (h0 : r ∉ hostOps0_W) (h1 : r ∉ hostOps1_W) (h11 : r ∉ hostOps1_1_W) (h12 : r ∉ hostOps1_2_W)
    (h13 : r ∉ hostOps1_3_W) (h14 : r ∉ hostOps1_4_W) (h2 : r ∉ hostOps2_W) (h3 : r ∉ hostOps3_W)
    (k0 : W2 m c (Proc.devRef .tc r) = W1 m c (Proc.devRef .tc r))
    (k1 : W8 m c (Proc.devRef .tc r) = W7 m c (Proc.devRef .tc r))
    (k2 : W10 m c (Proc.devRef .tc r) = W9 m c (Proc.devRef .tc r)) :
    W11 m c (Proc.devRef .tc r) = m ((c : Thread nD τ).loc r) :=
  calc W11 m c (Proc.devRef .tc r)
    _ = W10 m c (Proc.devRef .tc r) := StableHlo.after_of_writes_sub hostOps3 _ hostOps3_writes h3
    _ = W9 m c (Proc.devRef .tc r) := k2
    _ = W8 m c (Proc.devRef .tc r) := StableHlo.after_of_writes_sub hostOps2 _ hostOps2_writes h2
    _ = W7 m c (Proc.devRef .tc r) := k1
    _ = W6 m c (Proc.devRef .tc r) := StableHlo.after_of_writes_sub hostOps1_4 _ hostOps1_4_writes h14
    _ = W5 m c (Proc.devRef .tc r) := StableHlo.after_of_writes_sub hostOps1_3 _ hostOps1_3_writes h13
    _ = W4 m c (Proc.devRef .tc r) := StableHlo.after_of_writes_sub hostOps1_2 _ hostOps1_2_writes h12
    _ = W3 m c (Proc.devRef .tc r) := StableHlo.after_of_writes_sub hostOps1_1 _ hostOps1_1_writes h11
    _ = W2 m c (Proc.devRef .tc r) := StableHlo.after_of_writes_sub hostOps1 _ hostOps1_writes h1
    _ = W1 m c (Proc.devRef .tc r) := k0
    _ = W0 m c (Proc.devRef .tc r) := StableHlo.after_of_writes_sub hostOps0 _ hostOps0_writes h0
    _ = m ((c : Thread nD τ).loc r) := rfl

/-- An input window's array leaves its region as it entered it. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (U1 m) c).arrAt_in w hw _).trans (A_eq0 (U1 m) c w))
theorem W8_in (c : Dev nD) (w : Fin cfg1.W) (hw : (cfg1.win w).isOut = false) :
    W8 m c (Proc.devRef .tc (Pipeline.arrRef spec1 w)) = W7 m c (Proc.devRef .tc (Pipeline.arrRef spec1 w)) :=
  (W8_arr m c w).trans (((dat1 (U7 m) c).arrAt_in w hw _).trans (A_eq1 (U7 m) c w))
theorem W10_in (c : Dev nD) (w : Fin cfg2.W) (hw : (cfg2.win w).isOut = false) :
    W10 m c (Proc.devRef .tc (Pipeline.arrRef spec2 w)) = W9 m c (Proc.devRef .tc (Pipeline.arrRef spec2 w)) :=
  (W10_arr m c w).trans (((dat2 (U9 m) c).arrAt_in w hw _).trans (A_eq2 (U9 m) c w))

theorem W11_main_arg0 (c : Dev nD) : W11 m c (Proc.devRef .tc main_arg0) = m ((c : Thread nD τ).loc main_arg0) :=
  W11_keep m c main_arg0 (by decide) (by decide) (by decide) (by decide) (by decide) (by decide) (by decide) (by decide)
    (W2_of_ne m c main_arg0 (by decide)) (W8_of_ne m c main_arg0 (by decide)) (W10_of_ne m c main_arg0 (by decide))
theorem W11_main_arg1 (c : Dev nD) : W11 m c (Proc.devRef .tc main_arg1) = m ((c : Thread nD τ).loc main_arg1) :=
  W11_keep m c main_arg1 (by decide) (by decide) (by decide) (by decide) (by decide) (by decide) (by decide) (by decide)
    (W2_of_ne m c main_arg1 (by decide)) (W8_of_ne m c main_arg1 (by decide)) (W10_of_ne m c main_arg1 (by decide))
theorem W11_main_arg2 (c : Dev nD) : W11 m c (Proc.devRef .tc main_arg2) = m ((c : Thread nD τ).loc main_arg2) :=
  W11_keep m c main_arg2 (by decide) (by decide) (by decide) (by decide) (by decide) (by decide) (by decide) (by decide)
    (W2_of_ne m c main_arg2 (by decide)) (W8_of_ne m c main_arg2 (by decide)) (W10_of_ne m c main_arg2 (by decide))
theorem W11_main_arg3 (c : Dev nD) : W11 m c (Proc.devRef .tc main_arg3) = m ((c : Thread nD τ).loc main_arg3) :=
  W11_keep m c main_arg3 (by decide) (by decide) (by decide) (by decide) (by decide) (by decide) (by decide) (by decide)
    (W2_of_ne m c main_arg3 (by decide)) (W8_in m c 6 rfl) (W10_of_ne m c main_arg3 (by decide))
theorem W11_main_arg4 (c : Dev nD) : W11 m c (Proc.devRef .tc main_arg4) = m ((c : Thread nD τ).loc main_arg4) :=
  W11_keep m c main_arg4 (by decide) (by decide) (by decide) (by decide) (by decide) (by decide) (by decide) (by decide)
    (W2_of_ne m c main_arg4 (by decide)) (W8_of_ne m c main_arg4 (by decide)) (W10_of_ne m c main_arg4 (by decide))
theorem W11_main_arg5 (c : Dev nD) : W11 m c (Proc.devRef .tc main_arg5) = m ((c : Thread nD τ).loc main_arg5) :=
  W11_keep m c main_arg5 (by decide) (by decide) (by decide) (by decide) (by decide) (by decide) (by decide) (by decide)
    (W2_in m c 1 rfl) (W8_of_ne m c main_arg5 (by decide)) (W10_of_ne m c main_arg5 (by decide))
theorem W11_main_arg6 (c : Dev nD) : W11 m c (Proc.devRef .tc main_arg6) = m ((c : Thread nD τ).loc main_arg6) :=
  W11_keep m c main_arg6 (by decide) (by decide) (by decide) (by decide) (by decide) (by decide) (by decide) (by decide)
    (W2_in m c 2 rfl) (W8_of_ne m c main_arg6 (by decide)) (W10_of_ne m c main_arg6 (by decide))
theorem W11_main_arg7 (c : Dev nD) : W11 m c (Proc.devRef .tc main_arg7) = m ((c : Thread nD τ).loc main_arg7) :=
  W11_keep m c main_arg7 (by decide) (by decide) (by decide) (by decide) (by decide) (by decide) (by decide) (by decide)
    (W2_of_ne m c main_arg7 (by decide)) (W8_of_ne m c main_arg7 (by decide)) (W10_of_ne m c main_arg7 (by decide))
theorem W11_main_arg8 (c : Dev nD) : W11 m c (Proc.devRef .tc main_arg8) = m ((c : Thread nD τ).loc main_arg8) :=
  W11_keep m c main_arg8 (by decide) (by decide) (by decide) (by decide) (by decide) (by decide) (by decide) (by decide)
    (W2_of_ne m c main_arg8 (by decide)) (W8_of_ne m c main_arg8 (by decide)) (W10_of_ne m c main_arg8 (by decide))

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U7 m) c
  | ⟨2, _⟩ => fun c => dat2 (U9 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `W11`, the generator register at some state. -/
abbrev Tₙ (c : Dev nD) : sProp 𝕄 := iprop(StableHlo.held (c : Thread nD τ) (Pipeline.ucRefs τ sig) (W11 m c) ∗ ∃ r, prngReg c r)

/-! ## The regions as segments -/

-- unification with the pinned configuration may unfold plain definitions in a metavariable's type
set_option backward.isDefEq.respectTransparency.types false in
/-- Region 0 as a segment: entered with every unscoped buffer at `W1`, left with them at `W2`. Its windows' arrays
    are split out of the unscoped buffers on entry and put back at their final contents on exit; the generator register
    goes into the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification with the pinned configuration may unfold plain definitions in a metavariable's type
set_option backward.isDefEq.respectTransparency.types false in
/-- Region 1 as a segment: entered with every unscoped buffer at `W7`, left with them at `W8`. Its windows' arrays
    are split out of the unscoped buffers on entry and put back at their final contents on exit; the generator register
    goes into the region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (U7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U7 m c) (U8 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification with the pinned configuration may unfold plain definitions in a metavariable's type
set_option backward.isDefEq.respectTransparency.types false in
/-- Region 2 as a segment: entered with every unscoped buffer at `W9`, left with them at `W10`. Its windows' arrays
    are split out of the unscoped buffers on entry and put back at their final contents on exit; the generator register
    goes into the region's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U9 m) c).loose
  hwaits := Pipeline.hwaits_of_owed_zero _ _ _ _ L lv 2 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec2 c (U9 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop(Pipeline.scopedRest (Ix := Unit) (Name := ℕ) (U := UR sig nD τ) (Lvl := ℕ) (Val := Elt F) spec2 c ∗ ∃ r, prngReg c r) : sProp 𝕄)
        ⊢ (dat2 (U9 m) c).Φ 0 := by
      have h := hin2 (U9 m) c; unfold Pipeline.ΦA at h; exact h
    rw [show (pdats m 2 c).Φ 0 = (dat2 (U9 m) c).Φ 0 from rfl]
    iintro ⟨Hp, -, Hr⟩
    iapply h1
    isplitl [Hr]; · iexact Hr
    iexact Hp
  hout c := by
    have h2 : (dat2 (U9 m) c).Φ (Fin.last cfg2.N)
        ⊢ (iprop(Pipeline.scopedRest (Ix := Unit) (Name := ℕ) (U := UR sig nD τ) (Lvl := ℕ) (Val := Elt F) spec2 c ∗ ∃ r, prngReg c r) : sProp 𝕄) := by
      have h := hout2 (U9 m) c; unfold Pipeline.ΦA at h; exact h
    rw [Pipeline.ownSems0_none, show (pdats m 2 c).Φ (Fin.last _) = (dat2 (U9 m) c).Φ (Fin.last cfg2.N) from rfl]
    iintro H
    ihave H' := h2 $$ H
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U9 m c) (U10 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's eleven segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .host (hseg hostOps1_3 hostOps1_3_sub hostOps1_3_fresh (W5 m)),
    .host (hseg hostOps1_4 hostOps1_4_sub hostOps1_4_fresh (W6 m)),
    .region (reg1 m),
    .host (hseg hostOps2 hostOps2_sub hostOps2_fresh (W8 m)),
    .region (reg2 m),
    .host (hseg hostOps3 hostOps3_sub hostOps3_fresh (W10 m)) ]
/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main on the TensorCores terminates,
    nothing faulting, and every final state has every unscoped buffer of every core at `W11`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => by
        -- the last item's exit state regrouped: the buffers and the register on one side, the dues on the other
        show (iprop(StableHlo.held (c : Thread nD τ) (Pipeline.ucRefs τ sig) (W11 m c) ∗ R c) : sProp 𝕄)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W11_main_arg0 m c),
     (h c _ (mem_uc main_arg1 (by decide))).trans (W11_main_arg1 m c),
     (h c _ (mem_uc main_arg2 (by decide))).trans (W11_main_arg2 m c),
     (h c _ (mem_uc main_arg3 (by decide))).trans (W11_main_arg3 m c),
     (h c _ (mem_uc main_arg4 (by decide))).trans (W11_main_arg4 m c),
     (h c _ (mem_uc main_arg5 (by decide))).trans (W11_main_arg5 m c),
     (h c _ (mem_uc main_arg6 (by decide))).trans (W11_main_arg6 m c),
     (h c _ (mem_uc main_arg7 (by decide))).trans (W11_main_arg7 m c),
     (h c _ (mem_uc main_arg8 (by decide))).trans (W11_main_arg8 m c)⟩) (run_all m ρ)

/-- THE RUN WITH THE RESULT NAMED: the result buffer ends at what `W11` holds there, and every argument array as launched. -/
theorem run_result : θ_run defs (onTc (τ := τ) (main (F := F))) ⟨m, fun _ => 0, ρ⟩ (fun r => ∀ c : Dev nD,
      r.2.mem ((c.tc : Thread nD τ).loc main_v58) = W11 m c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c _ (mem_uc main_v58 (by decide)),
     (h c _ (mem_uc main_arg0 (by decide))).trans (W11_main_arg0 m c),
     (h c _ (mem_uc main_arg1 (by decide))).trans (W11_main_arg1 m c),
     (h c _ (mem_uc main_arg2 (by decide))).trans (W11_main_arg2 m c),
     (h c _ (mem_uc main_arg3 (by decide))).trans (W11_main_arg3 m c),
     (h c _ (mem_uc main_arg4 (by decide))).trans (W11_main_arg4 m c),
     (h c _ (mem_uc main_arg5 (by decide))).trans (W11_main_arg5 m c),
     (h c _ (mem_uc main_arg6 (by decide))).trans (W11_main_arg6 m c),
     (h c _ (mem_uc main_arg7 (by decide))).trans (W11_main_arg7 m c),
     (h c _ (mem_uc main_arg8 (by decide))).trans (W11_main_arg8 m c)⟩) (run_all m ρ)

end Cert.KernelIdeal.Fr

end
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«100067_j50276887167422_1_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.LibLayerNorm.lean ====
/-
  Layer normalisation of a row on the extended reals, and a kernel tile's layer normalisation read at an entry
  (every extent generic).

  `rowMean cnt a` is the row's sum divided by `cnt`; `lnorm cnt eps a g b c` is
  (a c − mean a) · rsqrt (mean ((a − mean a)²) + eps) · g c + b c, every operation the exact one.
  A kernel body that layer-normalises an [a, b] tile `v` forms the column of row means — the lane sum of each row,
  recast to [a, 1] and divided by the count —, subtracts it broadcast over the tile, forms the column of means of
  the squared centred tile in the same way, adds ε, takes the reciprocal square root, broadcasts that column, and
  multiplies the centred tile by it, by a [1, b] scale row and adds a [1, b] shift row, both broadcast down the rows
  (`meanCol`, `centred`, `normed`: mean, centring, second moment, reciprocal square root, scale, shift, in that order).
  Entry (p, c) of the result is `lnorm` of row `p` at column `c`: each column-valued step reads row `p`, each
  row-valued step reads column `c`.
  Also: a unit-stride slice of columns `o .. o + n` of an [a, N] tile reads column `o + c`; a vector recast to a
  one-row matrix reads the vector; `rsqrt`, `logistic`, `tanh` of a vector at an index.
-/
import proofs.«100067_j50276887167422_1_alg».proof.Proof.LibRowOps
import proofs.«100067_j50276887167422_1_alg».proof.Proof.LibDotRecord

noncomputable section

namespace LayerNorm

open Idealize.ShloMosaic Idealize.ShloMosaic.ValueIdx

variable {a b : ℕ}

/-- The mean of a row: its sum divided by the count. -/
def rowMean {n : ℕ} (cnt : EReal) (a : Fin n → EReal) : EReal := Ideal.div (∑ k, a k) cnt

/-- Layer normalisation of a row with scale `g` and shift `b`, at entry `c`. -/
def lnorm {n : ℕ} (cnt eps : EReal) (a g b : Fin n → EReal) (c : Fin n) : EReal :=
  (a c - rowMean cnt a) * Ideal.rsqrt (rowMean cnt (fun k => (a k - rowMean cnt a) * (a k - rowMean cnt a)) + eps) * g c + b c

/-- A vector's reciprocal square root, at an index. -/
theorem rsqrt_apply {s : Shape} (v : FVec Ideal s .f32) (i : s.Idx) : rsqrt v i = Ideal.rsqrt (v i) := rfl
/-- A vector's logistic, at an index. -/
theorem logistic_apply {s : Shape} (v : FVec Ideal s .f32) (i : s.Idx) : logistic v i = Ideal.logistic (v i) := rfl
/-- A vector's hyperbolic tangent, at an index. -/
theorem tanh_apply {s : Shape} (v : FVec Ideal s .f32) (i : s.Idx) : tanh v i = Ideal.tanh (v i) := rfl

/-- A vector recast to a one-row matrix reads, at (0, j), the vector at j. -/
theorem rowOf_apply {α : Type} {n : ℕ} (v : (⟨1, ![n]⟩ : Shape).Idx → α) (h : (⟨1, ![n]⟩ : Shape).ShapeCasts ⟨2, ![1, n]⟩)
    (u : Fin 1) (j : Fin n) : shapeCast ⟨2, ![1, n]⟩ v h (ix2 u j) = v (ix1 j) :=
  shapeCast_apply v h _ _ (by
    have hu : u.val = 0 := by omega
    rw [Shape.rowMajor_val_two, Shape.rowMajor_val_one]
    show j.val = u.val * n + j.val
    rw [hu, Nat.zero_mul, Nat.zero_add])

/-- Columns `o .. o + n` of an [a, N] tile, at (p, c): the tile at (p, o + c). -/
theorem sliceCols_apply {α : Type} {N n : ℕ} (o : ℕ) (v : (⟨2, ![a, N]⟩ : Shape).Idx → α)
    (h : (⟨2, ![a, N]⟩ : Shape).Slices ![0, o] ⟨2, ![a, n]⟩) (p : Fin a) (c : Fin n) (c' : Fin N) (hc : c'.val = o + c.val) :
    extractStridedSlice ⟨2, ![a, n]⟩ ![0, o] v h (ix2 p c) = v (ix2 p c') :=
  extractStridedSlice_apply ![0, o] v h (ix2 p c) (ix2 p c') fun ax => by
    match ax with
    | ⟨0, _⟩ => show p.val = 0 + p.val; omega
    | ⟨1, _⟩ => exact hc

/-- The column of row means of a tile: lane sums, recast to a column, divided by the count word. -/
def meanCol (v : FVec Ideal ⟨2, ![a, b]⟩ .f32) (wc : BitVec 32) (hR : Shape.Reduces ⟨2, ![a, b]⟩ [1] ⟨1, ![a]⟩)
    (hφ : FKind.Formats .f32) (hacc : (0x00000000#32 : BitVec 32) = FKind.add.neutral .f32 hφ)
    (hC : (⟨1, ![a]⟩ : Shape).ShapeCasts ⟨2, ![a, 1]⟩) : FVec Ideal ⟨2, ![a, 1]⟩ .f32 :=
  divf (shapeCast ⟨2, ![a, 1]⟩ (multiReduction .add [1] ⟨1, ![a]⟩ v 0x00000000#32 hR hφ hacc) hC)
    (broadcast ⟨2, ![a, 1]⟩ (Scalar.ofBits .f32 wc : Ideal .f32))

/-- Row `p` of the mean column is the mean of row `p`. -/
theorem meanCol_apply (v : FVec Ideal ⟨2, ![a, b]⟩ .f32) (wc : BitVec 32) (hR : Shape.Reduces ⟨2, ![a, b]⟩ [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (p : Fin a) :
    meanCol v wc hR hφ hacc hC (ix2 p (0 : Fin 1)) = rowMean (Ideal.ofBits .f32 wc) (fun k => v (ix2 p k)) := by
  unfold meanCol rowMean
  rw [divf_apply, Gcn.Lib.shapeCast_a_a1_apply, Gcn.Lib.rowSum_apply]
  rfl

/-- The tile minus its row means. -/
def centred (v : FVec Ideal ⟨2, ![a, b]⟩ .f32) (wc : BitVec 32) (hR : Shape.Reduces ⟨2, ![a, b]⟩ [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, b]⟩) :
    FVec Ideal ⟨2, ![a, b]⟩ .f32 :=
  subf v (broadcastTo ⟨2, ![a, b]⟩ (meanCol v wc hR hφ hacc hC) hB)

/-- Entry (p, c) of the centred tile: the entry minus the mean of row `p`. -/
theorem centred_apply (v : FVec Ideal ⟨2, ![a, b]⟩ .f32) (wc : BitVec 32) (hR : Shape.Reduces ⟨2, ![a, b]⟩ [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, b]⟩)
    (p : Fin a) (c : Fin b) :
    centred v wc hR hφ hacc hC hB (ix2 p c) = v (ix2 p c) - rowMean (Ideal.ofBits .f32 wc) (fun k => v (ix2 p k)) := by
  unfold centred
  rw [subf_apply, Gcn.Lib.broadcastTo_a1_ab_apply, meanCol_apply]

/-- The layer-normalised tile with scale row `g` and shift row `bb`. -/
def normed (v : FVec Ideal ⟨2, ![a, b]⟩ .f32) (g bb : FVec Ideal ⟨2, ![1, b]⟩ .f32) (wc we : BitVec 32)
    (hR : Shape.Reduces ⟨2, ![a, b]⟩ [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, b]⟩)
    (hG : (⟨2, ![1, b]⟩ : Shape).Broadcasts ⟨2, ![a, b]⟩) : FVec Ideal ⟨2, ![a, b]⟩ .f32 :=
  addf (mulf (mulf (centred v wc hR hφ hacc hC hB)
      (broadcastTo ⟨2, ![a, b]⟩ (rsqrt (addf
        (meanCol (mulf (centred v wc hR hφ hacc hC hB) (centred v wc hR hφ hacc hC hB)) wc hR hφ hacc hC)
        (broadcast ⟨2, ![a, 1]⟩ (Scalar.ofBits .f32 we : Ideal .f32)))) hB))
      (broadcastTo ⟨2, ![a, b]⟩ g hG))
    (broadcastTo ⟨2, ![a, b]⟩ bb hG)

/-- Entry (p, c) of the normalised tile is the layer norm of row `p` at column `c`. -/
theorem normed_apply (v : FVec Ideal ⟨2, ![a, b]⟩ .f32) (g bb : FVec Ideal ⟨2, ![1, b]⟩ .f32) (wc we : BitVec 32)
    (hR : Shape.Reduces ⟨2, ![a, b]⟩ [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, b]⟩)
    (hG : (⟨2, ![1, b]⟩ : Shape).Broadcasts ⟨2, ![a, b]⟩) (p : Fin a) (c : Fin b) :
    normed v g bb wc we hR hφ hacc hC hB hG (ix2 p c)
      = lnorm (Ideal.ofBits .f32 wc) (Ideal.ofBits .f32 we) (fun k => v (ix2 p k))
          (fun k => g (ix2 (0 : Fin 1) k)) (fun k => bb (ix2 (0 : Fin 1) k)) c := by
  unfold normed lnorm
  rw [addf_apply, mulf_apply, mulf_apply, Gcn.Lib.broadcastTo_a1_ab_apply, DotRecord.broadcastTo_1b_ab_apply,
    DotRecord.broadcastTo_1b_ab_apply, rsqrt_apply, addf_apply, broadcast_apply, centred_apply, meanCol_apply]
  simp only [mulf_apply, centred_apply]
  rfl

end LayerNorm

end
-- ==== Proof.Spec.lean ====
import proofs.«100067_j50276887167422_1_alg».proof.KernelIdeal
import proofs.«100067_j50276887167422_1_alg».proof.Proof.LibLayerNorm
import Idealize.ShloMosaic.PureOps.Ideal
import Idealize.ShloMosaic.Lib.ValueIdx

/-!
# What both programs compute, on the extended reals

One relational graph-convolution block over N = 8192 nodes with D = 1024 features, two relations and E = 262144 edges:

* the node features `x` are the rows of the flattened input, layer-normalised (mean and second moment over the 1024
  columns, ε added, reciprocal square root, scale, shift);
* for each relation r the mean aggregate `h_r`: the feature rows gathered at the edges' sources, kept where the edge's
  type is r and zero elsewhere, summed into the edges' targets, and divided by max(count, 1) of the kept edges per target;
* the hidden layer max(h_0·W_0 + h_1·W_1 + x·root + bias, 0) over 4096 columns;
* the result: hidden·wo plus the flattened input, folded back to [8, 1024, 1024].

The layer norm and the two dense layers are stated entry by entry as plain sums over the contracted axis. The gather /
mask / segment-sum / divide chain, the two slabs of the weight stack and the two reshapes are the same operations in
both programs; they are named here once as functions of their operands and never opened.
-/

noncomputable section

namespace Cert.Spec

open Idealize.ShloMosaic Idealize.ShloMosaic.ValueIdx Cert.KernelIdeal
open Cert.KernelIdeal.Facts₀ Cert.KernelIdeal.Facts

variable [Cert.KernelIdeal.Facts]

/-- A matrix given entry by entry. -/
def arr2 {a b : ℕ} {α : Type} (f : Fin a → Fin b → α) : (⟨2, ![a, b]⟩ : Shape).Idx → α :=
  fun i => f ⟨(i 0).val, (i 0).isLt⟩ ⟨(i 1).val, (i 1).isLt⟩

theorem arr2_ix2 {a b : ℕ} {α : Type} (f : Fin a → Fin b → α) (p : Fin a) (q : Fin b) : arr2 f (ix2 p q) = f p q := rfl

/-! ## The layout operations both programs share -/

/-- The [8, 1024, 1024] input as 8192 rows. -/
def flat (hs : S8x1024x1024.Idx → EReal) : S8192x1024.Idx → EReal :=
  shapeCast S8192x1024 hs shapeCasts_S8x1024x1024_S8192x1024

/-- 8192 rows folded back to [8, 1024, 1024]. -/
def unflat (z : S8192x1024.Idx → EReal) : S8x1024x1024.Idx → EReal :=
  shapeCast S8x1024x1024 z shapeCasts_S8192x1024_S8x1024x1024

/-- The weight matrix of relation 0 out of the stack of two. -/
def slab0 (w : S2x1024x4096.Idx → EReal) : S1024x4096.Idx → EReal :=
  shapeCast S1024x4096 (extractStridedSlice S1x1024x4096 ![0, 0, 0] w slices_S2x1024x4096_S1x1024x4096_0_0_0)
    shapeCasts_S1x1024x4096_S1024x4096

/-- The weight matrix of relation 1. -/
def slab1 (w : S2x1024x4096.Idx → EReal) : S1024x4096.Idx → EReal :=
  shapeCast S1024x4096 (extractStridedSlice S1x1024x4096 ![1, 0, 0] w slices_S2x1024x4096_S1x1024x4096_1_0_0)
    shapeCasts_S1x1024x4096_S1024x4096

/-! ## The edges -/

/-- The edges' source words (row 0 of the edge index). -/
def srcWords (ei : (⟨S2x262144, .i32⟩ : BufTy).Contents (Elt Ideal)) : (⟨S262144, .i32⟩ : BufTy).Contents (Elt Ideal) :=
  shapeCast S262144 (extractStridedSlice S1x262144 ![0, 0] ei slices_S2x262144_S1x262144_0_0) shapeCasts_S1x262144_S262144

/-- The edges' target words (row 1 of the edge index). -/
def dstWords (ei : (⟨S2x262144, .i32⟩ : BufTy).Contents (Elt Ideal)) : (⟨S262144, .i32⟩ : BufTy).Contents (Elt Ideal) :=
  shapeCast S262144 (extractStridedSlice S1x262144 ![1, 0] ei slices_S2x262144_S1x262144_1_0) shapeCasts_S1x262144_S262144

/-- The source words with a negative word moved up by the number of nodes, as a column of start indices. -/
def srcCol (ei : (⟨S2x262144, .i32⟩ : BufTy).Contents (Elt Ideal)) : (⟨S262144x1, .i32⟩ : BufTy).Contents (Elt Ideal) :=
  broadcastInDim S262144x1 ![0] bcast_S262144_S262144x1_0
    (select (cmpi .slt (srcWords ei) (broadcastInDim S262144 ![] bcast_S_S262144 (constantI S_ 32 0#32)))
      (addi (srcWords ei) (broadcastInDim S262144 ![] bcast_S_S262144 (constantI S_ 32 8192#32))) (srcWords ei))

/-- The target words as a column of scatter indices. -/
def dstCol (ei : (⟨S2x262144, .i32⟩ : BufTy).Contents (Elt Ideal)) : (⟨S262144x1, .i32⟩ : BufTy).Contents (Elt Ideal) :=
  broadcastInDim S262144x1 ![0] bcast_S262144_S262144x1_0 (dstWords ei)

/-- Which edges carry relation `rel`. -/
def relMask (rel : BitVec 32) (et : (⟨S262144, .i32⟩ : BufTy).Contents (Elt Ideal)) : (⟨S262144, .i1⟩ : BufTy).Contents (Elt Ideal) :=
  cmpi .eq et (broadcastInDim S262144 ![] bcast_S_S262144 (constantI S_ 32 rel))

/-- The feature rows at the edges' sources. -/
def gathered (x : S8192x1024.Idx → EReal) (ei : (⟨S2x262144, .i32⟩ : BufTy).Contents (Elt Ideal)) : S262144x1024.Idx → EReal :=
  Host.gather gather_S8192x1024_S262144x1_S262144x1024_1_0_n_n_0_1_11024 x (srcCol ei)

/-- The mean over the incoming edges of relation `rel` of the source rows (zero where a node has none). -/
def meanAgg (rel : BitVec 32) (x : S8192x1024.Idx → EReal) (ei : (⟨S2x262144, .i32⟩ : BufTy).Contents (Elt Ideal))
    (et : (⟨S262144, .i32⟩ : BufTy).Contents (Elt Ideal)) : S8192x1024.Idx → EReal :=
  Host.divf (F := Ideal) (φ := .f32)
    (Host.scatterAdd (F := Ideal) (φ := .f32) scatter_S8192x1024_S262144x1_S262144x1024_1_0_0_1
      (broadcastInDim S8192x1024 ![] bcast_S_S8192x1024 (constant (F := Ideal) S_ .f32 0x00000000#32))
      (dstCol ei)
      (select (broadcastInDim S262144x1024 ![0, 1] bcast_S262144x1_S262144x1024_0_1
          (broadcastInDim S262144x1 ![0] bcast_S262144_S262144x1_0 (relMask rel et)))
        (gathered x ei)
        (broadcastInDim S262144x1024 ![] bcast_S_S262144x1024 (id (constant (F := Ideal) S_ .f32 0x00000000#32)))))
    (broadcastInDim S8192x1024 ![0, 1] bcast_S8192x1_S8192x1024_0_1
      (broadcastInDim S8192x1 ![0] bcast_S8192_S8192x1_0
        (maximumf
          (Host.scatterAdd (F := Ideal) (φ := .f32) scatter_S8192_S262144x1_S262144_n_0_0_1
            (broadcastInDim S8192 ![] bcast_S_S8192 (constant (F := Ideal) S_ .f32 0x00000000#32))
            (dstCol ei) (uitofp .f32 (relMask rel et)))
          (broadcastInDim S8192 ![] bcast_S_S8192 (constant (F := Ideal) S_ .f32 0x3F800000#32)))))

/-! ## The three dense stages, entry by entry -/

/-- Entry (p, c) of the node features: row p of the flattened input, layer-normalised over its 1024 columns with
    count 1024 and ε the f32 nearest 1e-6, scale `g`, shift `b`. -/
def featAt (hs : S8192x1024.Idx → EReal) (g b : S1024.Idx → EReal) (p : Fin 8192) (c : Fin 1024) : EReal :=
  LayerNorm.lnorm (Ideal.ofBits .f32 0x44800000#32) (Ideal.ofBits .f32 0x358637BD#32)
    (fun k : Fin 1024 => hs (ix2 p k)) (fun k => g (ix1 k)) (fun k => b (ix1 k)) c

/-- The node features. -/
def feat (hs : S8192x1024.Idx → EReal) (g b : S1024.Idx → EReal) : S8192x1024.Idx → EReal := arr2 (featAt hs g b)

/-- Entry (p, q) of the hidden layer: the three products' sums over the 1024 features, the bias, rectified. -/
def hiddenAt (h0 h1 x : S8192x1024.Idx → EReal) (w0 w1 r : S1024x4096.Idx → EReal) (bias : S4096.Idx → EReal)
    (p : Fin 8192) (q : Fin 4096) : EReal :=
  max ((((∑ k : Fin 1024, h0 (ix2 p k) * w0 (ix2 k q)) + ∑ k : Fin 1024, h1 (ix2 p k) * w1 (ix2 k q))
      + ∑ k : Fin 1024, x (ix2 p k) * r (ix2 k q)) + bias (ix1 q)) 0

/-- The hidden layer. -/
def hidden (h0 h1 x : S8192x1024.Idx → EReal) (w0 w1 r : S1024x4096.Idx → EReal) (bias : S4096.Idx → EReal) :
    S8192x4096.Idx → EReal := arr2 (hiddenAt h0 h1 x w0 w1 r bias)

/-- Entry (p, q) of the output projection plus the residual row. -/
def outAt (y : S8192x4096.Idx → EReal) (wo : S4096x1024.Idx → EReal) (res : S8192x1024.Idx → EReal)
    (p : Fin 8192) (q : Fin 1024) : EReal :=
  (∑ k : Fin 4096, y (ix2 p k) * wo (ix2 k q)) + res (ix2 p q)

/-- The output projection plus the residual. -/
def out (y : S8192x4096.Idx → EReal) (wo : S4096x1024.Idx → EReal) (res : S8192x1024.Idx → EReal) :
    S8192x1024.Idx → EReal := arr2 (outAt y wo res)

/-! ## The whole block -/

/-- The node features of the input. -/
def nodes (hs : S8x1024x1024.Idx → EReal) (g b : S1024.Idx → EReal) : S8192x1024.Idx → EReal := feat (flat hs) g b

/-- The hidden layer of the input. -/
def hid (hs : S8x1024x1024.Idx → EReal) (w : S2x1024x4096.Idx → EReal) (root : S1024x4096.Idx → EReal)
    (bias : S4096.Idx → EReal) (g b : S1024.Idx → EReal) (ei : (⟨S2x262144, .i32⟩ : BufTy).Contents (Elt Ideal))
    (et : (⟨S262144, .i32⟩ : BufTy).Contents (Elt Ideal)) : S8192x4096.Idx → EReal :=
  hidden (meanAgg 0#32 (nodes hs g b) ei et) (meanAgg 1#32 (nodes hs g b) ei et) (nodes hs g b) (slab0 w) (slab1 w) root bias

/-- The block's result, as a function of the nine argument arrays in the programs' argument order. -/
def result (hs : S8x1024x1024.Idx → EReal) (w : S2x1024x4096.Idx → EReal) (root : S1024x4096.Idx → EReal)
    (bias : S4096.Idx → EReal) (wo : S4096x1024.Idx → EReal) (g b : S1024.Idx → EReal)
    (ei : (⟨S2x262144, .i32⟩ : BufTy).Contents (Elt Ideal)) (et : (⟨S262144, .i32⟩ : BufTy).Contents (Elt Ideal)) :
    S8x1024x1024.Idx → EReal :=
  unflat (out (hid hs w root bias g b ei et) wo (flat hs))

end Cert.Spec

end
-- ==== Proof.KernelIdeal.HostVals.lean ====
import proofs.«100067_j50276887167422_1_alg».proof.Proof.Gen.KernelIdeal.Launch
import proofs.«100067_j50276887167422_1_alg».proof.Proof.Spec
import Idealize.ShloMosaic.Lib.StableHlo.Run
import Idealize.ShloMosaic.Lib.ValueIdx
import Idealize.ShloMosaic.PureOps.Ideal

noncomputable section

namespace Cert.KernelIdeal.Val

open Cert.KernelIdeal Cert.KernelIdeal.Gen
open Idealize.ShloMosaic Idealize.ShloMosaic.TcCoe
open Idealize.SL Idealize.SL.Sem

/-! # What the host operations between the kernel calls leave, on the extended reals

Each stretch of host operations is a straight line of pure array operations; what one buffer holds after it is the
composition of the operations on its data path, applied to what the stretch found (`Wa`, arbitrary). The reshapes,
the slab slices and the mean aggregation are the specification's own named operations; a narrowing cast is the
identity on the extended reals. -/

variable (Wa : Valuation τ sig (Elt Ideal))

/-- The five stretches between the layer-norm call and the three-matmul call, in order. -/
abbrev mid : Valuation τ sig (Elt Ideal) :=
  StableHlo.after (hostOps1_4 (F := Ideal)) (StableHlo.after (hostOps1_3 (F := Ideal)) (StableHlo.after (hostOps1_2 (F := Ideal))
    (StableHlo.after (hostOps1_1 (F := Ideal)) (StableHlo.after (hostOps1 (F := Ideal)) Wa))))

/-- The first stretch flattens the `[8,1024,1024]` input to 8192 rows. -/
theorem host0_v0 : (StableHlo.after (hostOps0 (F := Ideal)) Wa (Proc.devRef .tc main_v0) : S8192x1024.Idx → EReal)
    = Cert.Spec.flat (Wa (Proc.devRef .tc main_arg0)) := by
  show StableHlo.after hostOps0 Wa (Proc.devRef .tc main_v0) = _; after_results; rfl

/-- The stretch before the output projection narrows the projection matrix, which on the extended reals leaves it. -/
theorem host2_v56 : (StableHlo.after (hostOps2 (F := Ideal)) Wa (Proc.devRef .tc main_v56) : S4096x1024.Idx → EReal)
    = Wa (Proc.devRef .tc main_arg4) := by
  show StableHlo.after hostOps2 Wa (Proc.devRef .tc main_v56) = _; after_results; rfl
theorem host2_v55 : StableHlo.after (hostOps2 (F := Ideal)) Wa (Proc.devRef .tc main_v55) = Wa (Proc.devRef .tc main_v55) := by
  show StableHlo.after hostOps2 Wa (Proc.devRef .tc main_v55) = _; after_results
theorem host2_v0 : StableHlo.after (hostOps2 (F := Ideal)) Wa (Proc.devRef .tc main_v0) = Wa (Proc.devRef .tc main_v0) := by
  show StableHlo.after hostOps2 Wa (Proc.devRef .tc main_v0) = _; after_results

/-- The last stretch folds the 8192 result rows back to `[8,1024,1024]`. -/
theorem host3_v58 : (StableHlo.after (hostOps3 (F := Ideal)) Wa (Proc.devRef .tc main_v58) : S8x1024x1024.Idx → EReal)
    = Cert.Spec.unflat (Wa (Proc.devRef .tc main_v57)) := by
  show StableHlo.after hostOps3 Wa (Proc.devRef .tc main_v58) = _; after_results; rfl

/-- The node features, narrowed: unchanged on the extended reals. -/
theorem mid_v47 : (mid Wa (Proc.devRef .tc main_v47) : S8192x1024.Idx → EReal) = Wa (Proc.devRef .tc main_v1) := by
  show StableHlo.after hostOps1_4 _ (Proc.devRef .tc main_v47) = _; after_results_simp; rfl

/-- The mean aggregate of relation 0 over the node features, narrowed. -/
theorem mid_v45 : (mid Wa (Proc.devRef .tc main_v45) : S8192x1024.Idx → EReal)
    = Cert.Spec.meanAgg 0#32 (Wa (Proc.devRef .tc main_v1)) (Wa (Proc.devRef .tc main_arg7)) (Wa (Proc.devRef .tc main_arg8)) := by
  show StableHlo.after hostOps1_4 _ (Proc.devRef .tc main_v45) = _; after_results_simp; rfl

/-- The mean aggregate of relation 1 over the node features, narrowed. -/
theorem mid_v46 : (mid Wa (Proc.devRef .tc main_v46) : S8192x1024.Idx → EReal)
    = Cert.Spec.meanAgg 1#32 (Wa (Proc.devRef .tc main_v1)) (Wa (Proc.devRef .tc main_arg7)) (Wa (Proc.devRef .tc main_arg8)) := by
  show StableHlo.after hostOps1_4 _ (Proc.devRef .tc main_v46) = _; after_results_simp; rfl

/-- The weight matrix of relation 0, narrowed. -/
theorem mid_v50 : (mid Wa (Proc.devRef .tc main_v50) : S1024x4096.Idx → EReal) = Cert.Spec.slab0 (Wa (Proc.devRef .tc main_arg1)) := by
  show StableHlo.after hostOps1_4 _ (Proc.devRef .tc main_v50) = _; after_results_simp; rfl

/-- The weight matrix of relation 1, narrowed. -/
theorem mid_v53 : (mid Wa (Proc.devRef .tc main_v53) : S1024x4096.Idx → EReal) = Cert.Spec.slab1 (Wa (Proc.devRef .tc main_arg1)) := by
  show StableHlo.after hostOps1_4 _ (Proc.devRef .tc main_v53) = _; after_results_simp; rfl

/-- The root weight matrix, narrowed. -/
theorem mid_v54 : (mid Wa (Proc.devRef .tc main_v54) : S1024x4096.Idx → EReal) = Wa (Proc.devRef .tc main_arg2) := by
  show StableHlo.after hostOps1_4 _ (Proc.devRef .tc main_v54) = _; after_results_simp; rfl

/-- The bias is not written by these stretches. -/
theorem mid_arg3 : mid Wa (Proc.devRef .tc main_arg3) = Wa (Proc.devRef .tc main_arg3) := by
  show StableHlo.after hostOps1_4 _ (Proc.devRef .tc main_arg3) = _; after_results_simp

end Cert.KernelIdeal.Val

end
-- ==== Proof.KernelIdeal.Val0.lean ====
import proofs.«100067_j50276887167422_1_alg».proof.Proof.KernelIdeal.Reg0
import proofs.«100067_j50276887167422_1_alg».proof.Proof.Spec
import proofs.«100067_j50276887167422_1_alg».proof.Proof.LibLayerNorm
import Idealize.ShloMosaic.Lib.Pipeline.Value

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! # The layer-norm call's output array

Every row tile of the output is the layer norm of the same rows of the input: the body's tile is the layer norm of
its input tile row by row; the input tile at point t is rows 1024·t … 1024·t + 1023 of the input, the scale and shift
vectors are whole at every point, and the output tiles cover the 8192 rows. -/

theorem hz2 : (![0, 0] : Fin 2 → Nat) = fun _ => 0 := funext fun a => by fin_cases a <;> rfl
theorem hz1 : (![0] : Fin 1 → Nat) = fun _ => 0 := funext fun a => by fin_cases a <;> rfl

/-! ## The body's tile at an entry -/

/-- Entry (p, c) of the body's tile: the layer norm of row p of the input tile at column c. -/
theorem pay0_apply (x0 : Vec Ideal S1024x1024 .f32) (x1 x2 : Vec Ideal S1024 .f32) (p : Fin 1024) (c : Fin 1024) :
    k0_pay1 (F := Ideal) x0 x1 x2 (ix2 p c)
      = LayerNorm.lnorm (Ideal.ofBits .f32 0x44800000#32) (Ideal.ofBits .f32 0x358637BD#32)
          (fun k => x0 (ix2 p k)) (fun k => x1 (ix1 k)) (fun k => x2 (ix1 k)) c := by
  have h : k0_pay1 (F := Ideal) x0 x1 x2 = LayerNorm.normed (a := 1024) (b := 1024) (shapeCast S1024x1024 x0 shapeCasts_S1024x1024_S1024x1024)
      (shapeCast S1x1024 x1 shapeCasts_S1024_S1x1024) (shapeCast S1x1024 x2 shapeCasts_S1024_S1x1024)
      0x44800000#32 0x358637BD#32 reduces_S1024x1024_S1024 (.inl rfl) rfl shapeCasts_S1024_S1024x1
      broadcasts_S1024x1_S1024x1024 broadcasts_S1x1024_S1024x1024 := rfl
  rw [h]
  refine (LayerNorm.normed_apply _ _ _ _ _ _ _ _ _ _ _ p c).trans ?_
  simp only [LayerNorm.rowOf_apply, shapeCast_self]

/-- One store over the whole buffer leaves the body's tile of the three loaded blocks. -/
theorem out0_3_eq (x0 : Vec Ideal S1024x1024 .f32) (x1 x2 : Vec Ideal S1024 .f32) :
    out0_3 (F := Ideal) x0 x1 x2 = k0_pay1 x0 x1 x2 := by
  unfold out0_3
  rw [View.canon_unit_zero hz2]
  simp only [View.ld_unit_zero (S := S1024x1024) hz2, View.ld_unit_zero (S := S1024) hz1]

/-! ## The blocks -/

/-- The index maps, decided over the 8 points: the input and output tiles are at block row t, the scale and the
    shift at block 0. -/
theorem idx_facts0 : ∀ t : Fin cfg0.N,
    win0_0.index t (0 : Fin 2) = t.val ∧ win0_0.index t (1 : Fin 2) = 0
    ∧ win0_1.index t (0 : Fin 1) = 0 ∧ win0_2.index t (0 : Fin 1) = 0
    ∧ win0_3.index t (0 : Fin 2) = t.val ∧ win0_3.index t (1 : Fin 2) = 0 :=
  (by decide +kernel : ∀ t : Fin grid0.N, _)

/-- Entry (p, k) of the input tile at point t is entry (1024·t + p, k) of the input. -/
theorem iblk0_0_apply (c : Dev nD) (t : Fin cfg0.N) (p k : Fin 1024) (r : Fin 8192) (hr : r.val = t.val * 1024 + p.val) :
    (iblk0 V c 0 t : S1024x1024.Idx → EReal) (ix2 p k) = (V c main_v0 : S8192x1024.Idx → EReal) (ix2 r k) := by
  obtain ⟨e0, e1, -⟩ := idx_facts0 t
  unfold iblk0
  rw [View.read_apply]
  show (V c main_v0 : S8192x1024.Idx → EReal) _ = _
  congr 1
  funext a; apply Fin.ext
  match a with
  | ⟨0, _⟩ => show win0_0.index t (0 : Fin 2) * 1024 + 1 * p.val = r.val; rw [e0, hr]; omega
  | ⟨1, _⟩ => show win0_0.index t (1 : Fin 2) * 1024 + 1 * k.val = k.val; rw [e1]; omega

/-- The scale block at any point is the scale vector. -/
theorem iblk0_1_apply (c : Dev nD) (t : Fin cfg0.N) (k : Fin 1024) :
    (iblk0 V c 1 t : S1024.Idx → EReal) (ix1 k) = (V c main_arg5 : S1024.Idx → EReal) (ix1 k) := by
  obtain ⟨-, -, e2, -⟩ := idx_facts0 t
  unfold iblk0
  rw [View.read_apply]
  show (V c main_arg5 : S1024.Idx → EReal) _ = _
  congr 1
  funext a; apply Fin.ext
  match a with
  | ⟨0, _⟩ => show win0_1.index t (0 : Fin 1) * 1024 + 1 * k.val = k.val; rw [e2]; omega

/-- The shift block at any point is the shift vector. -/
theorem iblk0_2_apply (c : Dev nD) (t : Fin cfg0.N) (k : Fin 1024) :
    (iblk0 V c 2 t : S1024.Idx → EReal) (ix1 k) = (V c main_arg6 : S1024.Idx → EReal) (ix1 k) := by
  obtain ⟨-, -, -, e3, -⟩ := idx_facts0 t
  unfold iblk0
  rw [View.read_apply]
  show (V c main_arg6 : S1024.Idx → EReal) _ = _
  congr 1
  funext a; apply Fin.ext
  match a with
  | ⟨0, _⟩ => show win0_2.index t (0 : Fin 1) * 1024 + 1 * k.val = k.val; rw [e3]; omega

/-! ## What a point writes back -/

/-- Entry (p, q) of the tile point t leaves: entry (1024·t + p, q) of the node features. -/
theorem tile0_apply (c : Dev nD) (t : Fin cfg0.N) (p q : Fin 1024) (r : Fin 8192) (hr : r.val = t.val * 1024 + p.val) :
    k0_pay1 (F := Ideal) (iblk0 V c 0 t) (iblk0 V c 1 t) (iblk0 V c 2 t) (ix2 p q)
      = Cert.Spec.feat (V c main_v0) (V c main_arg5) (V c main_arg6) (ix2 r q) := by
  rw [pay0_apply, Cert.Spec.feat, Cert.Spec.arr2_ix2, Cert.Spec.featAt]
  simp only [iblk0_0_apply V c t p _ r hr, iblk0_1_apply, iblk0_2_apply]

/-- Point t writes back block t of the node features. -/
theorem flushed0_eq (c : Dev nD) (t : Fin cfg0.N) :
    (dat0 (F := Ideal) V c).flushed 3 t
      = ((cfg0.win 3).blk t).view.read (Elt Ideal) (Cert.Spec.feat (V c main_v0) (V c main_arg5) (V c main_arg6)) := by
  show (cfg0.win 3).cut (grid0.coords t) ((dat0 V c).after 3 t) = _
  rw [after0_3, out0_3_eq]
  obtain ⟨-, -, -, -, e4, e5⟩ := idx_facts0 t
  have ht : t.val < 8 := Nat.lt_of_lt_of_eq t.isLt N_0
  funext j
  obtain ⟨p, q, rfl⟩ : ∃ (p q : Fin 1024), j = (ix2 p q : S1024x1024.Idx) :=
    ⟨⟨(j 0).val, (j 0).isLt⟩, ⟨(j 1).val, (j 1).isLt⟩, eq_ix2 (n0 := 1024) (n1 := 1024) j⟩
  show k0_pay1 (F := Ideal) (iblk0 V c 0 t) (iblk0 V c 1 t) (iblk0 V c 2 t) (ix2 p q)
    = Cert.Spec.feat (V c main_v0) (V c main_arg5) (V c main_arg6) (((cfg0.win 3).blk t).view.emb (ix2 p q))
  rw [tile0_apply V c t p q ⟨t.val * 1024 + p.val, by omega⟩ rfl]
  congr 1
  funext a; apply Fin.ext
  match a with
  | ⟨0, _⟩ => show t.val * 1024 + p.val = win0_3.index t (0 : Fin 2) * 1024 + 1 * p.val; rw [e4]; omega
  | ⟨1, _⟩ => show q.val = win0_3.index t (1 : Fin 2) * 1024 + 1 * q.val; rw [e5]; omega

/-! ## The cover -/

/-- An index is in point t's block iff each coordinate is in the block's range on its axis. -/
theorem mem_blk0 (t : Fin cfg0.N) (i : S8192x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v1).slice (win0_3.rect t)).set ↔ _
  rw [View.set_slice_whole, Rect.mem_set_unit]
  exact Iff.rfl

/-- Every entry of the output is in the block of the point its row falls in. -/
theorem cover0 (i : S8192x1024.Idx) : ∃ t : Fin cfg0.N, (cfg0.win 3).flush t = true ∧ i ∈ ((cfg0.win 3).blk t).view.set := by
  have hi0 : (i 0).val < 8192 := (i 0).isLt
  have hi1 : (i 1).val < 1024 := (i 1).isLt
  have hN : cfg0.N = 8 := N_0
  let t : Fin cfg0.N := ⟨(i 0).val / 1024, by rw [hN]; omega⟩
  obtain ⟨-, -, -, -, e4, e5⟩ := idx_facts0 t
  have e4' : win0_3.index t (0 : Fin 2) = (i 0).val / 1024 := e4
  refine ⟨t, flush0_3 t, ?_⟩
  rw [mem_blk0]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-! ## The array after the call -/

/-- After the layer-norm call the output array holds the node features of the input array as the call found it. -/
theorem final0 (c : Dev nD) :
    ((dat0 (F := Ideal) V c).arrAt 3 cfg0.N : S8192x1024.Idx → EReal)
      = Cert.Spec.feat (V c main_v0) (V c main_arg5) (V c main_arg6) :=
  (dat0 (F := Ideal) V c).arrAt_eq_of_cover 3 (Cert.Spec.feat (V c main_v0) (V c main_arg5) (V c main_arg6))
    (fun t _ => flushed0_eq V c t) cover0

end Cert.KernelIdeal.Val

end
-- ==== Proof.KernelIdeal.Val1.lean ====
import proofs.«100067_j50276887167422_1_alg».proof.Proof.KernelIdeal.Reg1
import proofs.«100067_j50276887167422_1_alg».proof.Proof.Spec
import proofs.«100067_j50276887167422_1_alg».proof.Proof.LibLayerNorm
import proofs.«100067_j50276887167422_1_alg».proof.Proof.LibDotRecord
import Idealize.ShloMosaic.Lib.Pipeline.Value

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! # The hidden layer call's output array

Every [512, 1024] tile of the output is the same tile of the hidden layer: the body's tile is, entry by entry, the three
products' sums plus the bias entry, rectified; at point t = 4·i + j the three left blocks are rows 512·i … 512·i + 511
of their arrays, the three weight blocks columns 1024·j … 1024·j + 1023 of theirs, the bias block entries
1024·j … 1024·j + 1023, and the output tiles (i, j) cover the [8192, 4096] array. -/

theorem hzero2 : (![0, 0] : Fin 2 → Nat) = fun _ => 0 := funext fun a => by fin_cases a <;> rfl
theorem hzero1 : (![0] : Fin 1 → Nat) = fun _ => 0 := funext fun a => by fin_cases a <;> rfl

/-! ## The body's tile at an entry -/

/-- Entry (p, q) of the body's tile: the three products' sums over the 1024 contracted columns, the bias entry,
    rectified; the narrowing to bf16 is the identity on the extended reals. -/
theorem pay1_apply (a0 : FVec Ideal S512x1024 .bf16) (w0 : FVec Ideal S1024x1024 .bf16) (a1 : FVec Ideal S512x1024 .bf16)
    (w1 : FVec Ideal S1024x1024 .bf16) (a2 : FVec Ideal S512x1024 .bf16) (w2 : FVec Ideal S1024x1024 .bf16)
    (b : FVec Ideal S1024 .f32) (p : Fin 512) (q : Fin 1024) :
    k1_pay1 (F := Ideal) a0 w0 a1 w1 a2 w2 b (ix2 p q)
      = max ((((∑ k : Fin 1024, a0 (ix2 p k) * w0 (ix2 k q)) + ∑ k : Fin 1024, a1 (ix2 p k) * w1 (ix2 k q))
          + ∑ k : Fin 1024, a2 (ix2 p k) * w2 (ix2 k q)) + b (ix1 q)) 0 := by
  have hm : ∀ (x : FVec Ideal S512x1024 .bf16) (y : FVec Ideal S1024x1024 .bf16),
      matmul dot_S512x1024_S1024x1024_S512x1024_1_0_0_1_n_n none x y (constant S512x1024 .f32 0x00000000#32) (ix2 p q)
        = ∑ k : Fin 1024, x (ix2 p k) * y (ix2 k q) := fun x y =>
    DotRecord.matmul_zero_apply (M := 512) (K := 1024) (N := 1024) dot_S512x1024_S1024x1024_S512x1024_1_0_0_1_n_n
      rfl rfl rfl rfl rfl rfl x y none p q
  unfold k1_pay1
  simp only [shapeCast_self]
  rw [truncf_apply, maximumf_apply, broadcast_apply, addf_apply, addf_apply, addf_apply,
    DotRecord.broadcastTo_1b_ab_apply, LayerNorm.rowOf_apply, hm, hm, hm]
  show max _ (Ideal.ofBits .f32 0x00000000#32) = _
  rw [Ideal.ofBits_zero_f32]

/-- One store over the whole buffer leaves the body's tile of the seven loaded blocks. -/
theorem out1_7_eq (x0 x1 x2 : Vec Ideal S512x1024 .bf16) (x3 x4 x5 : Vec Ideal S1024x1024 .bf16) (x6 : Vec Ideal S1024 .f32) :
    out1_7 (F := Ideal) x0 x1 x2 x3 x4 x5 x6 = k1_pay1 x0 x3 x1 x4 x2 x5 x6 := by
  unfold out1_7
  rw [View.canon_unit_zero hzero2]
  simp only [View.ld_unit_zero (S := S512x1024) hzero2, View.ld_unit_zero (S := S1024x1024) hzero2,
    View.ld_unit_zero (S := S1024) hzero1]

/-! ## The blocks -/

/-- The index maps of the three left operands, decided over the 64 points: block row t / 4, block column 0. -/
theorem idx_rows1 : ∀ t : Fin cfg1.N,
    win1_0.index t (0 : Fin 2) = t.val / 4 ∧ win1_0.index t (1 : Fin 2) = 0
    ∧ win1_1.index t (0 : Fin 2) = t.val / 4 ∧ win1_1.index t (1 : Fin 2) = 0
    ∧ win1_2.index t (0 : Fin 2) = t.val / 4 ∧ win1_2.index t (1 : Fin 2) = 0 :=
  (by decide +kernel : ∀ t : Fin grid1.N, _)

/-- The index maps of the three weight operands and of the bias: block row 0, block column t % 4; block t % 4. -/
theorem idx_cols1 : ∀ t : Fin cfg1.N,
    win1_3.index t (0 : Fin 2) = 0 ∧ win1_3.index t (1 : Fin 2) = t.val % 4
    ∧ win1_4.index t (0 : Fin 2) = 0 ∧ win1_4.index t (1 : Fin 2) = t.val % 4
    ∧ win1_5.index t (0 : Fin 2) = 0 ∧ win1_5.index t (1 : Fin 2) = t.val % 4
    ∧ win1_6.index t (0 : Fin 1) = t.val % 4 :=
  (by decide +kernel : ∀ t : Fin grid1.N, _)

/-- The output's index map: block (t / 4, t % 4). -/
theorem idx_out1 : ∀ t : Fin cfg1.N,
    win1_7.index t (0 : Fin 2) = t.val / 4 ∧ win1_7.index t (1 : Fin 2) = t.val % 4 :=
  (by decide +kernel : ∀ t : Fin grid1.N, _)

/-- Entry (p, k) of the row block of operand 0 at point t is entry (512·(t / 4) + p, k) of its array. -/
theorem iblk1_0_apply (c : Dev nD) (t : Fin cfg1.N) (p : Fin 512) (k : Fin 1024) (r : Fin 8192) (hr : r.val = t.val / 4 * 512 + p.val) :
    (iblk1 V c 0 t : S512x1024.Idx → EReal) (ix2 p k) = (V c main_v45 : S8192x1024.Idx → EReal) (ix2 r k) := by
  have e0 : win1_0.index t (0 : Fin 2) = t.val / 4 := (idx_rows1 t).1
  have e1 : win1_0.index t (1 : Fin 2) = 0 := (idx_rows1 t).2.1
  unfold iblk1
  rw [View.read_apply]
  show (V c main_v45 : S8192x1024.Idx → EReal) _ = _
  congr 1
  funext a; apply Fin.ext
  match a with
  | ⟨0, _⟩ => show win1_0.index t (0 : Fin 2) * 512 + 1 * p.val = r.val; rw [e0, hr]; omega
  | ⟨1, _⟩ => show win1_0.index t (1 : Fin 2) * 1024 + 1 * k.val = k.val; rw [e1]; omega

/-- Entry (p, k) of the row block of operand 1 at point t is entry (512·(t / 4) + p, k) of its array. -/
theorem iblk1_1_apply (c : Dev nD) (t : Fin cfg1.N) (p : Fin 512) (k : Fin 1024) (r : Fin 8192) (hr : r.val = t.val / 4 * 512 + p.val) :
    (iblk1 V c 1 t : S512x1024.Idx → EReal) (ix2 p k) = (V c main_v46 : S8192x1024.Idx → EReal) (ix2 r k) := by
  have e0 : win1_1.index t (0 : Fin 2) = t.val / 4 := (idx_rows1 t).2.2.1
  have e1 : win1_1.index t (1 : Fin 2) = 0 := (idx_rows1 t).2.2.2.1
  unfold iblk1
  rw [View.read_apply]
  show (V c main_v46 : S8192x1024.Idx → EReal) _ = _
  congr 1
  funext a; apply Fin.ext
  match a with
  | ⟨0, _⟩ => show win1_1.index t (0 : Fin 2) * 512 + 1 * p.val = r.val; rw [e0, hr]; omega
  | ⟨1, _⟩ => show win1_1.index t (1 : Fin 2) * 1024 + 1 * k.val = k.val; rw [e1]; omega

/-- Entry (p, k) of the row block of operand 2 at point t is entry (512·(t / 4) + p, k) of its array. -/
theorem iblk1_2_apply (c : Dev nD) (t : Fin cfg1.N) (p : Fin 512) (k : Fin 1024) (r : Fin 8192) (hr : r.val = t.val / 4 * 512 + p.val) :
    (iblk1 V c 2 t : S512x1024.Idx → EReal) (ix2 p k) = (V c main_v47 : S8192x1024.Idx → EReal) (ix2 r k) := by
  have e0 : win1_2.index t (0 : Fin 2) = t.val / 4 := (idx_rows1 t).2.2.2.2.1
  have e1 : win1_2.index t (1 : Fin 2) = 0 := (idx_rows1 t).2.2.2.2.2
  unfold iblk1
  rw [View.read_apply]
  show (V c main_v47 : S8192x1024.Idx → EReal) _ = _
  congr 1
  funext a; apply Fin.ext
  match a with
  | ⟨0, _⟩ => show win1_2.index t (0 : Fin 2) * 512 + 1 * p.val = r.val; rw [e0, hr]; omega
  | ⟨1, _⟩ => show win1_2.index t (1 : Fin 2) * 1024 + 1 * k.val = k.val; rw [e1]; omega

/-- Entry (k, q) of the column block of operand 3 at point t is entry (k, 1024·(t % 4) + q) of its array. -/
theorem iblk1_3_apply (c : Dev nD) (t : Fin cfg1.N) (k : Fin 1024) (q : Fin 1024) (s : Fin 4096) (hs : s.val = t.val % 4 * 1024 + q.val) :
    (iblk1 V c 3 t : S1024x1024.Idx → EReal) (ix2 k q) = (V c main_v50 : S1024x4096.Idx → EReal) (ix2 k s) := by
  have e0 : win1_3.index t (0 : Fin 2) = 0 := (idx_cols1 t).1
  have e1 : win1_3.index t (1 : Fin 2) = t.val % 4 := (idx_cols1 t).2.1
  unfold iblk1
  rw [View.read_apply]
  show (V c main_v50 : S1024x4096.Idx → EReal) _ = _
  congr 1
  funext a; apply Fin.ext
  match a with
  | ⟨0, _⟩ => show win1_3.index t (0 : Fin 2) * 1024 + 1 * k.val = k.val; rw [e0]; omega
  | ⟨1, _⟩ => show win1_3.index t (1 : Fin 2) * 1024 + 1 * q.val = s.val; rw [e1, hs]; omega

/-- Entry (k, q) of the column block of operand 4 at point t is entry (k, 1024·(t % 4) + q) of its array. -/
theorem iblk1_4_apply (c : Dev nD) (t : Fin cfg1.N) (k : Fin 1024) (q : Fin 1024) (s : Fin 4096) (hs : s.val = t.val % 4 * 1024 + q.val) :
    (iblk1 V c 4 t : S1024x1024.Idx → EReal) (ix2 k q) = (V c main_v53 : S1024x4096.Idx → EReal) (ix2 k s) := by
  have e0 : win1_4.index t (0 : Fin 2) = 0 := (idx_cols1 t).2.2.1
  have e1 : win1_4.index t (1 : Fin 2) = t.val % 4 := (idx_cols1 t).2.2.2.1
  unfold iblk1
  rw [View.read_apply]
  show (V c main_v53 : S1024x4096.Idx → EReal) _ = _
  congr 1
  funext a; apply Fin.ext
  match a with
  | ⟨0, _⟩ => show win1_4.index t (0 : Fin 2) * 1024 + 1 * k.val = k.val; rw [e0]; omega
  | ⟨1, _⟩ => show win1_4.index t (1 : Fin 2) * 1024 + 1 * q.val = s.val; rw [e1, hs]; omega

/-- Entry (k, q) of the column block of operand 5 at point t is entry (k, 1024·(t % 4) + q) of its array. -/
theorem iblk1_5_apply (c : Dev nD) (t : Fin cfg1.N) (k : Fin 1024) (q : Fin 1024) (s : Fin 4096) (hs : s.val = t.val % 4 * 1024 + q.val) :
    (iblk1 V c 5 t : S1024x1024.Idx → EReal) (ix2 k q) = (V c main_v54 : S1024x4096.Idx → EReal) (ix2 k s) := by
  have e0 : win1_5.index t (0 : Fin 2) = 0 := (idx_cols1 t).2.2.2.2.1
  have e1 : win1_5.index t (1 : Fin 2) = t.val % 4 := (idx_cols1 t).2.2.2.2.2.1
  unfold iblk1
  rw [View.read_apply]
  show (V c main_v54 : S1024x4096.Idx → EReal) _ = _
  congr 1
  funext a; apply Fin.ext
  match a with
  | ⟨0, _⟩ => show win1_5.index t (0 : Fin 2) * 1024 + 1 * k.val = k.val; rw [e0]; omega
  | ⟨1, _⟩ => show win1_5.index t (1 : Fin 2) * 1024 + 1 * q.val = s.val; rw [e1, hs]; omega

/-- Entry q of the bias block at point t is entry 1024·(t % 4) + q of the bias. -/
theorem iblk1_6_apply (c : Dev nD) (t : Fin cfg1.N) (q : Fin 1024) (s : Fin 4096) (hs : s.val = t.val % 4 * 1024 + q.val) :
    (iblk1 V c 6 t : S1024.Idx → EReal) (ix1 q) = (V c main_arg3 : S4096.Idx → EReal) (ix1 s) := by
  have e0 : win1_6.index t (0 : Fin 1) = t.val % 4 := (idx_cols1 t).2.2.2.2.2.2
  unfold iblk1
  rw [View.read_apply]
  show (V c main_arg3 : S4096.Idx → EReal) _ = _
  congr 1
  funext a; apply Fin.ext
  match a with
  | ⟨0, _⟩ => show win1_6.index t (0 : Fin 1) * 1024 + 1 * q.val = s.val; rw [e0, hs]; omega

/-! ## What a point writes back -/

/-- Entry (p, q) of the tile point t leaves: entry (512·(t / 4) + p, 1024·(t % 4) + q) of the hidden layer. -/
theorem tile1_apply (c : Dev nD) (t : Fin cfg1.N) (p : Fin 512) (q : Fin 1024) (r : Fin 8192) (s : Fin 4096)
    (hr : r.val = t.val / 4 * 512 + p.val) (hs : s.val = t.val % 4 * 1024 + q.val) :
    k1_pay1 (F := Ideal) (iblk1 V c 0 t) (iblk1 V c 3 t) (iblk1 V c 1 t) (iblk1 V c 4 t) (iblk1 V c 2 t) (iblk1 V c 5 t)
        (iblk1 V c 6 t) (ix2 p q)
      = Cert.Spec.hidden (V c main_v45) (V c main_v46) (V c main_v47) (V c main_v50) (V c main_v53) (V c main_v54)
          (V c main_arg3) (ix2 r s) := by
  rw [pay1_apply, Cert.Spec.hidden, Cert.Spec.arr2_ix2, Cert.Spec.hiddenAt]
  simp only [iblk1_0_apply V c t p _ r hr, iblk1_1_apply V c t p _ r hr, iblk1_2_apply V c t p _ r hr,
    iblk1_3_apply V c t _ q s hs, iblk1_4_apply V c t _ q s hs, iblk1_5_apply V c t _ q s hs, iblk1_6_apply V c t q s hs]

/-- Point t writes back block t of the hidden layer. -/
theorem flushed1_eq (c : Dev nD) (t : Fin cfg1.N) :
    (dat1 (F := Ideal) V c).flushed 7 t
      = ((cfg1.win 7).blk t).view.read (Elt Ideal)
          (Cert.Spec.hidden (V c main_v45) (V c main_v46) (V c main_v47) (V c main_v50) (V c main_v53) (V c main_v54)
            (V c main_arg3)) := by
  show (cfg1.win 7).cut (grid1.coords t) ((dat1 V c).after 7 t) = _
  rw [after1_7, out1_7_eq]
  obtain ⟨e0, e1⟩ := idx_out1 t
  have ht : t.val < 64 := Nat.lt_of_lt_of_eq t.isLt N_1
  funext j
  obtain ⟨p, q, rfl⟩ : ∃ (p : Fin 512) (q : Fin 1024), j = (ix2 p q : S512x1024.Idx) :=
    ⟨⟨(j 0).val, (j 0).isLt⟩, ⟨(j 1).val, (j 1).isLt⟩, eq_ix2 (n0 := 512) (n1 := 1024) j⟩
  show k1_pay1 (F := Ideal) (iblk1 V c 0 t) (iblk1 V c 3 t) (iblk1 V c 1 t) (iblk1 V c 4 t) (iblk1 V c 2 t) (iblk1 V c 5 t)
      (iblk1 V c 6 t) (ix2 p q)
    = Cert.Spec.hidden (V c main_v45) (V c main_v46) (V c main_v47) (V c main_v50) (V c main_v53) (V c main_v54)
        (V c main_arg3) (((cfg1.win 7).blk t).view.emb (ix2 p q))
  rw [tile1_apply V c t p q ⟨t.val / 4 * 512 + p.val, by omega⟩ ⟨t.val % 4 * 1024 + q.val, by omega⟩ rfl rfl]
  congr 1
  funext a; apply Fin.ext
  match a with
  | ⟨0, _⟩ => show t.val / 4 * 512 + p.val = win1_7.index t (0 : Fin 2) * 512 + 1 * p.val; rw [e0]; omega
  | ⟨1, _⟩ => show t.val % 4 * 1024 + q.val = win1_7.index t (1 : Fin 2) * 1024 + 1 * q.val; rw [e1]; omega

/-! ## The cover -/

/-- An index is in point t's block iff each coordinate is in the block's range on its axis. -/
theorem mem_blk1 (t : Fin cfg1.N) (i : S8192x4096.Idx) :
    i ∈ ((cfg1.win 7).blk t).view.set ↔ ∀ a : Fin 2, win1_7.index t a * S512x1024.size a ≤ (i a).val ∧ (i a).val < win1_7.index t a * S512x1024.size a + S512x1024.size a := by
  show i ∈ ((View.whole main_v55).slice (win1_7.rect t)).set ↔ _
  rw [View.set_slice_whole, Rect.mem_set_unit]
  exact Iff.rfl

/-- Every entry of the output is in the block of the point its row tile and column tile name. -/
theorem cover1 (i : S8192x4096.Idx) : ∃ t : Fin cfg1.N, (cfg1.win 7).flush t = true ∧ i ∈ ((cfg1.win 7).blk t).view.set := by
  have hi0 : (i 0).val < 8192 := (i 0).isLt
  have hi1 : (i 1).val < 4096 := (i 1).isLt
  have hN : cfg1.N = 64 := N_1
  let t : Fin cfg1.N := ⟨(i 0).val / 512 * 4 + (i 1).val / 1024, by rw [hN]; omega⟩
  obtain ⟨e0, e1⟩ := idx_out1 t
  have e0' : win1_7.index t (0 : Fin 2) = ((i 0).val / 512 * 4 + (i 1).val / 1024) / 4 := e0
  have e1' : win1_7.index t (1 : Fin 2) = ((i 0).val / 512 * 4 + (i 1).val / 1024) % 4 := e1
  refine ⟨t, flush1_7 t, ?_⟩
  rw [mem_blk1]
  intro a
  match a with
  | ⟨0, _⟩ => show win1_7.index t (0 : Fin 2) * 512 ≤ (i 0).val ∧ (i 0).val < win1_7.index t (0 : Fin 2) * 512 + 512; omega
  | ⟨1, _⟩ => show win1_7.index t (1 : Fin 2) * 1024 ≤ (i 1).val ∧ (i 1).val < win1_7.index t (1 : Fin 2) * 1024 + 1024; omega

/-! ## The array after the call -/

/-- After the call the output array holds the hidden layer of the seven input arrays as the call found them. -/
theorem final1 (c : Dev nD) :
    ((dat1 (F := Ideal) V c).arrAt 7 cfg1.N : S8192x4096.Idx → EReal)
      = Cert.Spec.hidden (V c main_v45) (V c main_v46) (V c main_v47) (V c main_v50) (V c main_v53) (V c main_v54)
          (V c main_arg3) :=
  (dat1 (F := Ideal) V c).arrAt_eq_of_cover 7
    (Cert.Spec.hidden (V c main_v45) (V c main_v46) (V c main_v47) (V c main_v50) (V c main_v53) (V c main_v54) (V c main_arg3))
    (fun t _ => flushed1_eq V c t) cover1

end Cert.KernelIdeal.Val

end
-- ==== Proof.KernelIdeal.Val2Pieces.lean ====
/- Region 2's body, case by case (k = 0; k = 1, 2; k = 3): the writes it leaves in the accumulator and in the output
   window's buffer, read back as values — the accumulator ends at (previous accumulator, or the zero tile at k = 0)
   plus the block product of the two input tiles; at k = 3 the output buffer ends at that plus the residual tile. -/
import proofs.«100067_j50276887167422_1_alg».proof.Proof.KernelIdeal.Reg2RunC
import Idealize.ShloMosaic.Lib.Pipeline.Value
import Idealize.ShloMosaic.Lib.Tactic

set_option maxRecDepth 16384

noncomputable section

namespace Cert.KernelIdeal.Val2

open Cert.KernelIdeal Cert.KernelIdeal.Gen Cert.KernelIdeal.Fr
open Idealize.ShloMosaic Idealize.ShloMosaic.TcCoe Idealize.ShloMosaic.Tactic
open Idealize.SL Idealize.SL.Sem

variable {F : FTy → Type} [FloatOps F]

/-- The whole-tile rectangle's offsets are zero on both axes. -/
theorem hz2 : (![0, 0] : Fin 2 → Nat) = fun _ => 0 := funext fun a => by fin_cases a <;> rfl

/-- k = 0: the accumulator is set to the zero tile, read back, and left at zero tile + block product. -/
theorem canon_A_acc (c : Dev nD) (i : grid2.Coords) (arg2 : Memref sig .tc .vmem S512x1024 .bf16) (harg2 : arg2.IsWhole) (arg3 : Memref sig .tc .vmem S1024x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : ¬cond2_1 i)
    (x0 : Vec F S512x1024 .bf16) (x1 : Vec F S1024x1024 .bf16) :
    View.canon (kernelRun2_A c i arg2 harg2 arg3 harg3 arg4 harg4 arg5 harg5 arg6 harg6 hc0 hc1 x0 x1).2.1 = k2_pay2 k2_pay1 x0 x1 := by
  unfold kernelRun2_A
  dsimp only
  sl_unfold_words
  rw [View.canon_cons_unit_zero (S := S512x1024) hz2, View.readCov_unit_zero (S := S512x1024) _ hz2]
  simp only [View.readAt_eq_ld, harg2.read_unread, harg3.read_unread, View.ld_unit_zero (S := S512x1024) hz2,
    View.ld_unit_zero (S := S1024x1024) hz2]

/-- k = 1, 2: the accumulator, holding `xs0`, is left at `xs0` + block product. -/
theorem canon_B_acc (c : Dev nD) (i : grid2.Coords) (arg2 : Memref sig .tc .vmem S512x1024 .bf16) (harg2 : arg2.IsWhole) (arg3 : Memref sig .tc .vmem S1024x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : ¬cond2_1 i)
    (x0 : Vec F S512x1024 .bf16) (x1 : Vec F S1024x1024 .bf16) (xs0 : Vec F S512x1024 .f32) :
    View.canon (kernelRun2_B c i arg2 harg2 arg3 harg3 arg4 harg4 arg5 harg5 arg6 harg6 hc0 hc1 x0 x1 xs0).2.1 = k2_pay2 xs0 x0 x1 := by
  unfold kernelRun2_B
  dsimp only
  sl_unfold_words
  rw [View.canon_unit_zero (S := S512x1024) hz2]
  simp only [View.readAt_eq_ld, harg2.read_unread, harg3.read_unread, harg6.read_unread,
    View.ld_unit_zero (S := S512x1024) hz2, View.ld_unit_zero (S := S1024x1024) hz2]

/-- k = 3: the accumulator, holding `xs0`, is left at `xs0` + block product, -/
theorem canon_C_acc (c : Dev nD) (i : grid2.Coords) (arg2 : Memref sig .tc .vmem S512x1024 .bf16) (harg2 : arg2.IsWhole) (arg3 : Memref sig .tc .vmem S1024x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S512x1024 .bf16) (x1 : Vec F S1024x1024 .bf16) (x2 : Vec F S512x1024 .f32) (xs0 : Vec F S512x1024 .f32) :
    View.canon (kernelRun2_C c i arg2 harg2 arg3 harg3 arg4 harg4 arg5 harg5 arg6 harg6 hc0 hc1 x0 x1 x2 xs0).2.1 = k2_pay2 xs0 x0 x1 := by
  unfold kernelRun2_C
  dsimp only
  sl_unfold_words
  rw [View.canon_unit_zero (S := S512x1024) hz2]
  simp only [View.readAt_eq_ld, harg2.read_unread, harg3.read_unread, harg6.read_unread,
    View.ld_unit_zero (S := S512x1024) hz2, View.ld_unit_zero (S := S1024x1024) hz2]

/-- and the output window's buffer at that plus the residual tile `x2`. -/
theorem canon_C_out (c : Dev nD) (i : grid2.Coords) (arg2 : Memref sig .tc .vmem S512x1024 .bf16) (harg2 : arg2.IsWhole) (arg3 : Memref sig .tc .vmem S1024x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S512x1024 .bf16) (x1 : Vec F S1024x1024 .bf16) (x2 : Vec F S512x1024 .f32) (xs0 : Vec F S512x1024 .f32) :
    View.canon (kernelRun2_C c i arg2 harg2 arg3 harg3 arg4 harg4 arg5 harg5 arg6 harg6 hc0 hc1 x0 x1 x2 xs0).1 = k2_pay3 (k2_pay2 xs0 x0 x1) x2 := by
  unfold kernelRun2_C
  dsimp only
  sl_unfold_words
  rw [View.canon_unit_zero (S := S512x1024) hz2, View.readCov_unit_zero (S := S512x1024) _ hz2]
  simp only [View.readAt_eq_ld, harg2.read_unread, harg3.read_unread, harg4.read_unread, harg6.read_unread,
    View.ld_unit_zero (S := S512x1024) hz2, View.ld_unit_zero (S := S1024x1024) hz2]

end Cert.KernelIdeal.Val2

end
-- ==== Proof.KernelIdeal.Val2Pay.lean ====
/- Region 2's three stored values, read entry by entry on the extended reals:
   the zero tile; the accumulator plus one block product; the accumulator plus the residual tile. -/
import proofs.«100067_j50276887167422_1_alg».proof.Proof.Gen.KernelIdeal.Skeleton
import proofs.«100067_j50276887167422_1_alg».proof.Proof.LibDotRecord
import Idealize.ShloMosaic.PureOps.Ideal
import Idealize.ShloMosaic.PureOps.Ideal.Laws
import Idealize.ShloMosaic.Lib.ValueIdx
import Idealize.ShloMosaic.Lib.Pipeline.Value

noncomputable section

namespace Cert.KernelIdeal.Val2

open Cert.KernelIdeal Cert.KernelIdeal.Gen
open Cert.KernelIdeal.Facts₀ Cert.KernelIdeal.Facts
open Idealize.ShloMosaic Idealize.ShloMosaic.ValueIdx

/-- The tile the accumulator is reset to is zero at every entry. -/
theorem pay1_apply (j : S512x1024.Idx) : (k2_pay1 (F := Ideal)) j = 0 := by
  unfold k2_pay1
  rw [shapeCast_self]
  exact Ideal.ofBits_zero_f32

/-- One accumulation step at entry (p, q): the accumulator's entry plus the sum over the block's 1024 columns of the
    activation tile's row p times the weight tile's column q. -/
theorem pay2_apply (v3 : Vec Ideal S512x1024 .f32) (v4 : Vec Ideal S512x1024 .bf16) (v6 : Vec Ideal S1024x1024 .bf16)
    (p : Fin 512) (q : Fin 1024) :
    k2_pay2 (F := Ideal) v3 v4 v6 (ix2 p q) = v3 (ix2 p q) + ∑ k : Fin 1024, v4 (ix2 p k) * v6 (ix2 k q) := by
  unfold k2_pay2
  rw [shapeCast_self, shapeCast_self, shapeCast_self]
  refine (addf_apply _ _ _).trans ?_
  exact congrArg (v3 (ix2 p q) + ·)
    (DotRecord.matmul_zero_apply dot_S512x1024_S1024x1024_S512x1024_1_0_0_1_n_n rfl rfl rfl rfl rfl rfl v4 v6 none p q)

/-- The emitted tile at an entry: the accumulator's entry plus the residual's. -/
theorem pay3_apply (v16 v17 : Vec Ideal S512x1024 .f32) (j : S512x1024.Idx) :
    k2_pay3 (F := Ideal) v16 v17 j = v16 j + v17 j := by
  unfold k2_pay3
  rw [shapeCast_self]
  exact addf_apply _ _ _

end Cert.KernelIdeal.Val2

end
-- ==== Proof.LibRunningSum.lean ====
/-
  A sum built one term at a time.

  Let `a 0 = p 0` and `a (n + 1) = a n + p (n + 1)` for the positions below `N`. Then `a n` is the sum of the first
  `n + 1` terms, and at the last position it is the sum of all `N` terms. Only the monoid laws of the addition are
  used, so the statement holds in any commutative additive monoid — on the extended reals without any finiteness
  assumption.
-/
import Idealize.ShloMosaic.Lib.ValueIdx

namespace RunningSum

variable {β : Type*} [AddCommMonoid β]

/-- The term at position `s`, and zero from `N` on: the terms as a sequence over all naturals. -/
def term {N : ℕ} (p : Fin N → β) (s : ℕ) : β := if h : s < N then p ⟨s, h⟩ else 0

theorem term_of_lt {N : ℕ} (p : Fin N → β) {s : ℕ} (h : s < N) : term p s = p ⟨s, h⟩ := dif_pos h

/-- After position `n` the running value is the sum of the terms at positions `0, …, n`. -/
theorem prefix_eq {N : ℕ} (p : Fin N → β) (a : (n : ℕ) → n < N → β)
    (h0 : ∀ h : 0 < N, a 0 h = p ⟨0, h⟩)
    (hs : ∀ (n : ℕ) (h : n + 1 < N), a (n + 1) h = a n (Nat.lt_of_succ_lt h) + p ⟨n + 1, h⟩) :
    ∀ (n : ℕ) (h : n < N), a n h = ∑ s ∈ Finset.range (n + 1), term p s
  | 0, h => by rw [h0 h, Finset.sum_range_one, term_of_lt p h]
  | n + 1, h => by
    rw [hs n h, prefix_eq p a h0 hs n (Nat.lt_of_succ_lt h), Finset.sum_range_succ _ (n + 1), term_of_lt p h]

/-- At the last position the running value is the sum of all the terms. -/
theorem last_eq {N : ℕ} (p : Fin N → β) (a : (n : ℕ) → n < N → β)
    (h0 : ∀ h : 0 < N, a 0 h = p ⟨0, h⟩)
    (hs : ∀ (n : ℕ) (h : n + 1 < N), a (n + 1) h = a n (Nat.lt_of_succ_lt h) + p ⟨n + 1, h⟩)
    (n : ℕ) (h : n < N) (hlast : n + 1 = N) : a n h = ∑ s : Fin N, p s := by
  rw [prefix_eq p a h0 hs n h, hlast, ← Fin.sum_univ_eq_sum_range (term p) N]
  exact Finset.sum_congr rfl fun s _ => term_of_lt p s.isLt

end RunningSum
-- ==== Proof.LibGroupedSum.lean ====
/-
  Grouping a finite sum.

  A sum over `K = J * B` consecutive coordinates equals the sum, over the `J` groups of `B` consecutive
  coordinates, of each group's sum: coordinate `kk` of group `s` is the coordinate `s * B + kk` of the whole range.
  Only associativity and commutativity of the addition enter, so the law holds in any commutative additive monoid —
  in particular on the extended reals, with no finiteness assumption.
-/
import Idealize.ShloMosaic.Lib.ValueIdx

namespace GroupedSum

/-- Coordinate `kk` of group `s` lies below `K = J * B`. -/
theorem group_lt {J B K : ℕ} (h : J * B = K) (s : Fin J) (kk : Fin B) : s.val * B + kk.val < K := by
  have h1 : s.val * B + kk.val < (s.val + 1) * B := by
    rw [Nat.succ_mul]; exact Nat.add_lt_add_left kk.isLt _
  have h2 : (s.val + 1) * B ≤ J * B := Nat.mul_le_mul_right B s.isLt
  rw [← h]; exact lt_of_lt_of_le h1 h2

/-- The sum over the whole range is the sum of the groups' sums. -/
theorem sum_groups {β : Type*} [AddCommMonoid β] {J B K : ℕ} (h : J * B = K) (f : Fin K → β) :
    ∑ k : Fin K, f k = ∑ s : Fin J, ∑ kk : Fin B, f ⟨s.val * B + kk.val, group_lt h s kk⟩ := by
  subst h
  rw [← Equiv.sum_comp finProdFinEquiv f, Fintype.sum_prod_type]
  refine Finset.sum_congr rfl fun s _ => Finset.sum_congr rfl fun kk _ => congrArg f (Fin.ext ?_)
  show kk.val + B * s.val = s.val * B + kk.val
  rw [Nat.mul_comm, Nat.add_comm]

end GroupedSum
-- ==== Proof.KernelIdeal.Val2Math.lean ====
/- The output projection's contracted sum, cut into its four blocks of 1024 columns: the partial sums over the
   leading blocks, one step from a partial sum to the next, and the last partial sum as the whole sum. Only the
   commutative-monoid laws of addition are used, so everything holds on the extended reals without finiteness. -/
import proofs.«100067_j50276887167422_1_alg».proof.KernelIdeal
import proofs.«100067_j50276887167422_1_alg».proof.Proof.LibRunningSum
import proofs.«100067_j50276887167422_1_alg».proof.Proof.LibGroupedSum
import Idealize.ShloMosaic.PureOps.Ideal
import Idealize.ShloMosaic.Lib.ValueIdx

noncomputable section

namespace Cert.KernelIdeal.Val2

open Cert.KernelIdeal
open Idealize.ShloMosaic Idealize.ShloMosaic.ValueIdx

/-- Column `kk` of block `s` among the 4096 contracted columns: `1024 s + kk`. -/
def col (s : Fin 4) (kk : Fin 1024) : Fin 4096 :=
  ⟨s.val * 1024 + kk.val, GroupedSum.group_lt (J := 4) (B := 1024) (K := 4096) rfl s kk⟩

/-- Row `p` of row tile `i` among the 8192 rows: `512 i + p`. -/
def row (i : Fin 16) (p : Fin 512) : Fin 8192 :=
  ⟨i.val * 512 + p.val, GroupedSum.group_lt (J := 16) (B := 512) (K := 8192) rfl i p⟩

theorem col_val (s : Fin 4) (kk : Fin 1024) : (col s kk).val = s.val * 1024 + kk.val := rfl
theorem row_val (i : Fin 16) (p : Fin 512) : (row i p).val = i.val * 512 + p.val := rfl

variable (A : S8192x4096.Idx → EReal) (B : S4096x1024.Idx → EReal) (r : Fin 8192) (q : Fin 1024)

/-- Block `s`'s share of entry (r, q) of the product: the sum over the block's 1024 columns. -/
def blockDot (s : Fin 4) : EReal := ∑ kk : Fin 1024, A (ix2 r (col s kk)) * B (ix2 (col s kk) q)

/-- The sum of the shares of blocks `0, …, k`. -/
def partialDot (k : ℕ) : EReal := ∑ s ∈ Finset.range (k + 1), RunningSum.term (blockDot A B r q) s

/-- The first partial sum is block 0's share. -/
theorem partialDot_zero : partialDot A B r q 0 = blockDot A B r q 0 := by
  unfold partialDot
  rw [Finset.sum_range_one]
  exact RunningSum.term_of_lt _ (by decide)

/-- One more block: the next partial sum adds that block's share. -/
theorem partialDot_succ (k : ℕ) (h : k + 1 < 4) :
    partialDot A B r q (k + 1) = partialDot A B r q k + blockDot A B r q ⟨k + 1, h⟩ := by
  unfold partialDot
  rw [Finset.sum_range_succ _ (k + 1), RunningSum.term_of_lt _ h]

/-- After the fourth block the partial sum is the whole contraction over the 4096 columns. -/
theorem partialDot_last : partialDot A B r q 3 = ∑ k : Fin 4096, A (ix2 r k) * B (ix2 k q) := by
  unfold partialDot
  rw [← Fin.sum_univ_eq_sum_range (RunningSum.term (blockDot A B r q)) 4,
    GroupedSum.sum_groups (J := 4) (B := 1024) (K := 4096) rfl (fun k : Fin 4096 => A (ix2 r k) * B (ix2 k q))]
  exact Finset.sum_congr rfl fun s _ => RunningSum.term_of_lt _ s.isLt

end Cert.KernelIdeal.Val2

end
-- ==== Proof.KernelIdeal.Val2Blocks.lean ====
/- Region 2's windows over the 16 x 4 grid, point t = 4 i + k: which block of its array each window shows at a point
   (activations: block (i, k); weights: block (k, 0); residual and output: block (i, 0)), a block's entries read off the
   whole array, and the output's blocks at the points k = 3 covering all 8192 rows. -/
import proofs.«100067_j50276887167422_1_alg».proof.Proof.Gen.KernelIdeal.Launch
import proofs.«100067_j50276887167422_1_alg».proof.Proof.Gen.KernelIdeal.Points
import proofs.«100067_j50276887167422_1_alg».proof.Proof.KernelIdeal.Val2Math
import Idealize.ShloMosaic.Lib.Pipeline.Value

set_option maxRecDepth 16384

noncomputable section

namespace Cert.KernelIdeal.Val2

open Cert.KernelIdeal Cert.KernelIdeal.Gen
open Cert.KernelIdeal.Facts₀ Cert.KernelIdeal.Facts
open Idealize.ShloMosaic Idealize.ShloMosaic.ValueIdx Idealize.ShloMosaic.TcCoe

/-- The block indices of the four windows at point t: row tile t / 4, contraction block t % 4. -/
theorem idx2 : ∀ t : Fin cfg2.N,
    win2_0.index t (0 : Fin 2) = t.val / 4 ∧ win2_0.index t (1 : Fin 2) = t.val % 4
    ∧ win2_1.index t (0 : Fin 2) = t.val % 4 ∧ win2_1.index t (1 : Fin 2) = 0
    ∧ win2_2.index t (0 : Fin 2) = t.val / 4 ∧ win2_2.index t (1 : Fin 2) = 0
    ∧ win2_3.index t (0 : Fin 2) = t.val / 4 ∧ win2_3.index t (1 : Fin 2) = 0 :=
  (by decide +kernel : ∀ t : Fin grid2.N, _)

/-- The row tile of a point. -/
def tileOf (t : Fin cfg2.N) : Fin 16 := ⟨t.val / 4, by have h : t.val < 64 := lt_of_lt_of_eq t.isLt (show cfg2.N = 64 from N_2); omega⟩
/-- The contraction block of a point. -/
def stepOf (t : Fin cfg2.N) : Fin 4 := ⟨t.val % 4, Nat.mod_lt _ (by decide)⟩

theorem tileOf_val (t : Fin cfg2.N) : (tileOf t).val = t.val / 4 := rfl
theorem stepOf_val (t : Fin cfg2.N) : (stepOf t).val = t.val % 4 := rfl

/-- The activation tile at point t, at (p, kk): the array's entry (512 i + p, 1024 k + kk). -/
theorem read_blk0 (X : S8192x4096.Idx → EReal) (t : Fin cfg2.N) (p : Fin 512) (kk : Fin 1024) :
    (((cfg2.win 0).blk t).view.read (Elt Ideal) X : S512x1024.Idx → EReal) (ix2 p kk)
      = X (ix2 (row (tileOf t) p) (col (stepOf t) kk)) := by
  rw [View.read_apply]
  show X (((cfg2.win 0).blk t).view.emb (ix2 p kk)) = X _
  refine congrArg X (funext fun a => Fin.ext ?_)
  obtain ⟨e0, e1, -⟩ := idx2 t
  match a with
  | ⟨0, _⟩ => show win2_0.index t (0 : Fin 2) * 512 + 1 * p.val = t.val / 4 * 512 + p.val; rw [e0]; omega
  | ⟨1, _⟩ => show win2_0.index t (1 : Fin 2) * 1024 + 1 * kk.val = t.val % 4 * 1024 + kk.val; rw [e1]; omega

/-- The weight tile at point t, at (kk, q): the array's entry (1024 k + kk, q). -/
theorem read_blk1 (X : S4096x1024.Idx → EReal) (t : Fin cfg2.N) (kk : Fin 1024) (q : Fin 1024) :
    (((cfg2.win 1).blk t).view.read (Elt Ideal) X : S1024x1024.Idx → EReal) (ix2 kk q)
      = X (ix2 (col (stepOf t) kk) q) := by
  rw [View.read_apply]
  show X (((cfg2.win 1).blk t).view.emb (ix2 kk q)) = X _
  refine congrArg X (funext fun a => Fin.ext ?_)
  obtain ⟨-, -, e0, e1, -⟩ := idx2 t
  match a with
  | ⟨0, _⟩ => show win2_1.index t (0 : Fin 2) * 1024 + 1 * kk.val = t.val % 4 * 1024 + kk.val; rw [e0]; omega
  | ⟨1, _⟩ => show win2_1.index t (1 : Fin 2) * 1024 + 1 * q.val = q.val; rw [e1]; omega

/-- The residual tile at point t, at (p, q): the array's entry (512 i + p, q). -/
theorem read_blk2 (X : S8192x1024.Idx → EReal) (t : Fin cfg2.N) (p : Fin 512) (q : Fin 1024) :
    (((cfg2.win 2).blk t).view.read (Elt Ideal) X : S512x1024.Idx → EReal) (ix2 p q)
      = X (ix2 (row (tileOf t) p) q) := by
  rw [View.read_apply]
  show X (((cfg2.win 2).blk t).view.emb (ix2 p q)) = X _
  refine congrArg X (funext fun a => Fin.ext ?_)
  obtain ⟨-, -, -, -, e0, e1, -⟩ := idx2 t
  match a with
  | ⟨0, _⟩ => show win2_2.index t (0 : Fin 2) * 512 + 1 * p.val = t.val / 4 * 512 + p.val; rw [e0]; omega
  | ⟨1, _⟩ => show win2_2.index t (1 : Fin 2) * 1024 + 1 * q.val = q.val; rw [e1]; omega

/-- The output block at point t, at (p, q): the array's entry (512 i + p, q). -/
theorem read_blk3 (X : S8192x1024.Idx → EReal) (t : Fin cfg2.N) (p : Fin 512) (q : Fin 1024) :
    (((cfg2.win 3).blk t).view.read (Elt Ideal) X : S512x1024.Idx → EReal) (ix2 p q)
      = X (ix2 (row (tileOf t) p) q) := by
  rw [View.read_apply]
  show X (((cfg2.win 3).blk t).view.emb (ix2 p q)) = X _
  refine congrArg X (funext fun a => Fin.ext ?_)
  obtain ⟨-, -, -, -, -, -, e0, e1⟩ := idx2 t
  match a with
  | ⟨0, _⟩ => show win2_3.index t (0 : Fin 2) * 512 + 1 * p.val = t.val / 4 * 512 + p.val; rw [e0]; omega
  | ⟨1, _⟩ => show win2_3.index t (1 : Fin 2) * 1024 + 1 * q.val = q.val; rw [e1]; omega

/-- An entry of the output array lies in point t's block iff each coordinate lies in the block's range. -/
theorem mem_blk3 (t : Fin cfg2.N) (i : S8192x1024.Idx) :
    i ∈ ((cfg2.win 3).blk t).view.set ↔ ∀ a : Fin 2, win2_3.index t a * S512x1024.size a ≤ (i a).val
      ∧ (i a).val < win2_3.index t a * S512x1024.size a + S512x1024.size a := by
  show i ∈ ((View.whole main_v57).slice (win2_3.rect t)).set ↔ _
  rw [View.set_slice_whole, Rect.mem_set_unit]
  exact Iff.rfl

/-- Every entry of the output array lies in the block written back at the last point of its row tile:
    row r at the point 4 (r / 512) + 3. -/
theorem cover3 (i : S8192x1024.Idx) :
    ∃ t : Fin cfg2.N, (cfg2.win 3).flush t = true ∧ i ∈ ((cfg2.win 3).blk t).view.set := by
  have h0 : (i 0).val < 8192 := (i 0).isLt
  have h1 : (i 1).val < 1024 := (i 1).isLt
  have hlt : 4 * ((i 0).val / 512) + 3 < cfg2.N := by rw [show cfg2.N = 64 from N_2]; omega
  refine ⟨⟨4 * ((i 0).val / 512) + 3, hlt⟩, (flush2_3 _).mpr (by show (4 * ((i 0).val / 512) + 3) % 4 = 3; omega), ?_⟩
  rw [mem_blk3]
  obtain ⟨-, -, -, -, -, -, e0, e1⟩ := idx2 ⟨4 * ((i 0).val / 512) + 3, hlt⟩
  have e0' : win2_3.index ⟨4 * ((i 0).val / 512) + 3, hlt⟩ (0 : Fin 2) = (i 0).val / 512 := by rw [e0]; show (4 * ((i 0).val / 512) + 3) / 4 = _; omega
  intro a
  match a with
  | ⟨0, _⟩ =>
    show win2_3.index ⟨4 * ((i 0).val / 512) + 3, hlt⟩ (0 : Fin 2) * 512 ≤ (i 0).val
      ∧ (i 0).val < win2_3.index ⟨4 * ((i 0).val / 512) + 3, hlt⟩ (0 : Fin 2) * 512 + 512
    rw [e0']; omega
  | ⟨1, _⟩ =>
    show win2_3.index ⟨4 * ((i 0).val / 512) + 3, hlt⟩ (1 : Fin 2) * 1024 ≤ (i 1).val
      ∧ (i 1).val < win2_3.index ⟨4 * ((i 0).val / 512) + 3, hlt⟩ (1 : Fin 2) * 1024 + 1024
    rw [e1]; omega

end Cert.KernelIdeal.Val2

end
-- ==== Proof.KernelIdeal.Val2.lean ====
/- Region 2's value on the extended reals: after the 64 points the output array holds, at (r, q), the sum over the
   4096 contracted columns of the activations' row r times the weights' column q, plus the residual's entry.
   After point 4 i + k the accumulator holds, at (p, q), the sum of the first k + 1 block shares of row 512 i + p
   (by induction on the point); at k = 3 that is the whole sum, the residual tile is added, and the block is written
   back; the sixteen written blocks cover the array. -/
import proofs.«100067_j50276887167422_1_alg».proof.Proof.KernelIdeal.Reg2
import proofs.«100067_j50276887167422_1_alg».proof.Proof.KernelIdeal.Val2Pieces
import proofs.«100067_j50276887167422_1_alg».proof.Proof.KernelIdeal.Val2Pay
import proofs.«100067_j50276887167422_1_alg».proof.Proof.KernelIdeal.Val2Blocks
import proofs.«100067_j50276887167422_1_alg».proof.Proof.Spec

set_option maxRecDepth 16384

noncomputable section

namespace Cert.KernelIdeal.Val2

open Cert.KernelIdeal Cert.KernelIdeal.Gen Cert.KernelIdeal.Fr
open Idealize.ShloMosaic Idealize.ShloMosaic.ValueIdx Idealize.ShloMosaic.TcCoe
open Idealize.SL Idealize.SL.Sem
open Idealize.ShloMosaic.Pipeline (Dat)

/-! ## The three cases' values, at any float type -/

section AnyF

variable {F : FTy → Type} [FloatOps F]
variable (V : (c : Dev nD) → (b : Ref sig .tc) → Buf (Elt F) ((c : Thread nD τ).loc b))

/-- After a point with k = 0 the accumulator is the zero tile plus the point's block product. -/
theorem atA2_acc (c : Dev nD) (t : Fin cfg2.N) (h0 : t.val % 4 = 0) (h1 : ¬t.val % 4 = 3) :
    (atA2 V c t h0 h1).2 = k2_pay2 k2_pay1 (iblk2 V c 0 t) (iblk2 V c 1 t) := by
  unfold atA2 sout2_A_0
  dsimp only
  rw [View.read_writes_eq_canon _ _ _ (scover2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t))]
  exact canon_A_acc c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t)

/-- After a point with k = 1, 2 the accumulator is what it was plus the point's block product. -/
theorem atB2_acc (c : Dev nD) (t : Fin cfg2.N) (h0 : ¬t.val % 4 = 0) (h1 : ¬t.val % 4 = 3) (xs0 : Vec F S512x1024 .f32) :
    (atB2 V c t h0 h1 xs0).2 = k2_pay2 xs0 (iblk2 V c 0 t) (iblk2 V c 1 t) := by
  unfold atB2 sout2_B_0
  dsimp only
  rw [View.read_writes_eq_canon _ _ _ (scover2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) xs0)]
  exact canon_B_acc c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) xs0

/-- After a point with k = 3 the accumulator is what it was plus the point's block product, -/
theorem atC2_acc (c : Dev nD) (t : Fin cfg2.N) (h0 : ¬t.val % 4 = 0) (h1 : t.val % 4 = 3) (xs0 : Vec F S512x1024 .f32) :
    (atC2 V c t h0 h1 xs0).2 = k2_pay2 xs0 (iblk2 V c 0 t) (iblk2 V c 1 t) := by
  unfold atC2 sout2_C_0
  dsimp only
  rw [View.read_writes_eq_canon _ _ _ (scover2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) xs0)]
  exact canon_C_acc c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) xs0

/-- and the output window's buffer is that plus the residual tile. -/
theorem atC2_out (c : Dev nD) (t : Fin cfg2.N) (h0 : ¬t.val % 4 = 0) (h1 : t.val % 4 = 3) (xs0 : Vec F S512x1024 .f32) :
    (atC2 V c t h0 h1 xs0).1 = k2_pay3 (k2_pay2 xs0 (iblk2 V c 0 t) (iblk2 V c 1 t)) (iblk2 V c 2 t) := by
  unfold atC2 out2_C_3
  dsimp only
  rw [View.read_writes_eq_canon _ _ _ (cover2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) xs0)]
  exact canon_C_out c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) xs0

end AnyF

/-! ## On the extended reals -/

variable (V : (c : Dev nD) → (b : Ref sig .tc) → Buf (Elt Ideal) ((c : Thread nD τ).loc b))

/-- One accumulation step at point t, at entry (p, q): the accumulator's entry plus block (t mod 4)'s share of entry
    (512 (t / 4) + p, q) of the product of the activations and the weights. -/
theorem step_apply (c : Dev nD) (t : Fin cfg2.N) (acc : Vec Ideal S512x1024 .f32) (p : Fin 512) (q : Fin 1024) :
    k2_pay2 (F := Ideal) acc (iblk2 V c 0 t) (iblk2 V c 1 t) (ix2 p q)
      = acc (ix2 p q) + blockDot (V c main_v55) (V c main_v56) (row (tileOf t) p) q (stepOf t) := by
  refine (pay2_apply acc (iblk2 V c 0 t) (iblk2 V c 1 t) p q).trans ?_
  refine congrArg (acc (ix2 p q) + ·) ?_
  unfold blockDot
  refine Finset.sum_congr rfl fun kk _ => ?_
  exact congrArg₂ (· * ·) (read_blk0 (V c main_v55) t p kk) (read_blk1 (V c main_v56) t kk q)

/-- THE INVARIANT. After point t the accumulator holds, at (p, q), the sum of the shares of blocks 0, …, t mod 4 of
    entry (512 (t / 4) + p, q). -/
theorem acc_inv (c : Dev nD) : ∀ (n : ℕ) (t : Fin cfg2.N), t.val = n → ∀ (p : Fin 512) (q : Fin 1024),
    (outsAt2 V c t.val t.isLt).2 (ix2 p q)
      = partialDot (V c main_v55) (V c main_v56) (row (tileOf t) p) q (t.val % 4) := by
  intro n
  induction n with
  | zero =>
    intro t ht p q
    have h0 : t.val % 4 = 0 := by rw [ht]
    have h1 : ¬t.val % 4 = 3 := by rw [ht]; decide
    rw [outsAt2_A V c t h0 h1, atA2_acc V c t h0 h1]
    refine (step_apply V c t (k2_pay1 (F := Ideal)) p q).trans ?_
    rw [pay1_apply, zero_add, h0, partialDot_zero]
    exact congrArg (blockDot (V c main_v55) (V c main_v56) (row (tileOf t) p) q) (Fin.ext h0)
  | succ m ih =>
    intro t ht p q
    by_cases h0 : t.val % 4 = 0
    · have h1 : ¬t.val % 4 = 3 := by omega
      rw [outsAt2_A V c t h0 h1, atA2_acc V c t h0 h1]
      refine (step_apply V c t (k2_pay1 (F := Ideal)) p q).trans ?_
      rw [pay1_apply, zero_add, h0, partialDot_zero]
      exact congrArg (blockDot (V c main_v55) (V c main_v56) (row (tileOf t) p) q) (Fin.ext h0)
    · have hlt : t.val - 1 < cfg2.N := Nat.lt_of_le_of_lt (Nat.sub_le _ _) t.isLt
      have e : (outsAt2 V c (t.val - 1) hlt).2 (ix2 p q)
          = partialDot (V c main_v55) (V c main_v56) (row (tileOf ⟨t.val - 1, hlt⟩) p) q ((t.val - 1) % 4) :=
        ih ⟨t.val - 1, hlt⟩ (by show t.val - 1 = m; omega) p q
      have htile : tileOf ⟨t.val - 1, hlt⟩ = tileOf t := Fin.ext (by show (t.val - 1) / 4 = t.val / 4; omega)
      have hk : (t.val - 1) % 4 + 1 < 4 := by omega
      have hmod : t.val % 4 = (t.val - 1) % 4 + 1 := by omega
      have hstep : stepOf t = ⟨(t.val - 1) % 4 + 1, hk⟩ := Fin.ext (by show t.val % 4 = (t.val - 1) % 4 + 1; omega)
      have acc : (outsAt2 V c t.val t.isLt).2
          = k2_pay2 (outsAt2 V c (t.val - 1) hlt).2 (iblk2 V c 0 t) (iblk2 V c 1 t) := by
        by_cases h1 : t.val % 4 = 3
        · rw [outsAt2_C V c t h0 h1]; exact atC2_acc V c t h0 h1 _
        · rw [outsAt2_B V c t h0 h1]; exact atB2_acc V c t h0 h1 _
      rw [acc]
      refine (step_apply V c t _ p q).trans ?_
      rw [e, htile, hstep, hmod]
      exact (partialDot_succ (V c main_v55) (V c main_v56) (row (tileOf t) p) q ((t.val - 1) % 4) hk).symm

/-- What a point with k = 3 leaves in the output window's buffer, at (p, q): the whole contraction plus the residual. -/
theorem out_at_last (c : Dev nD) (t : Fin cfg2.N) (h1 : t.val % 4 = 3) (p : Fin 512) (q : Fin 1024) :
    (outsAt2 V c t.val t.isLt).1 (ix2 p q)
      = Cert.Spec.outAt (V c main_v55) (V c main_v56) (V c main_v0) (row (tileOf t) p) q := by
  have h0 : ¬t.val % 4 = 0 := by omega
  have hlt : t.val - 1 < cfg2.N := Nat.lt_of_le_of_lt (Nat.sub_le _ _) t.isLt
  have hout : (outsAt2 V c t.val t.isLt).1
      = k2_pay3 (outsAt2 V c t.val t.isLt).2 (iblk2 V c 2 t) := by
    rw [outsAt2_C V c t h0 h1, atC2_out V c t h0 h1, atC2_acc V c t h0 h1]
  rw [hout]
  refine (pay3_apply _ _ _).trans ?_
  rw [acc_inv V c t.val t rfl p q, h1, partialDot_last]
  unfold Cert.Spec.outAt
  exact congrArg (_ + ·) (read_blk2 (V c main_v0) t p q)

/-- Two tiles that agree at every (p, q) are equal. -/
theorem tile_ext {α : Type} (f g : S512x1024.Idx → α) (h : ∀ (p : Fin 512) (q : Fin 1024), f (ix2 p q) = g (ix2 p q)) :
    f = g := funext fun j => by rw [eq_ix2 j]; exact h _ _

/-- What a point with k = 3 writes back is its block of the specification's array. -/
theorem flushed2_eq (c : Dev nD) (t : Fin cfg2.N) (hf : (cfg2.win 3).flush t = true) :
    (dat2 V c).flushed 3 t
      = ((cfg2.win 3).blk t).view.read (Elt Ideal) (Cert.Spec.out (V c main_v55) (V c main_v56) (V c main_v0)) := by
  have h1 : t.val % 4 = 3 := (flush2_3 t).mp hf
  show (cfg2.win 3).cut (grid2.coords t) ((dat2 V c).after 3 t) = _
  rw [after2_3]
  refine tile_ext _ _ fun p q => ?_
  refine Eq.trans (?_ : _ = (outsAt2 V c t.val t.isLt).1 (ix2 p q)) ?_
  · rfl
  rw [out_at_last V c t h1 p q]
  exact ((read_blk3 (Cert.Spec.out (V c main_v55) (V c main_v56) (V c main_v0)) t p q).trans
    (Cert.Spec.arr2_ix2 _ _ _)).symm

/-- REGION 2's VALUE: the output array after the last point is the output projection plus the residual. -/
theorem final2 (c : Dev nD) :
    ((dat2 (F := Ideal) V c).arrAt 3 cfg2.N : S8192x1024.Idx → EReal)
      = Cert.Spec.out (V c main_v55) (V c main_v56) (V c main_v0) :=
  (dat2 V c).arrAt_eq_of_cover 3 (Cert.Spec.out (V c main_v55) (V c main_v56) (V c main_v0)) (flushed2_eq V c) cover3

end Cert.KernelIdeal.Val2

end
-- ==== Proof.KernelIdeal.Bridge.lean ====
import proofs.«100067_j50276887167422_1_alg».proof.Proof.KernelIdeal.Run
import proofs.«100067_j50276887167422_1_alg».proof.Proof.KernelIdeal.HostVals
import proofs.«100067_j50276887167422_1_alg».proof.Proof.KernelIdeal.Val0
import proofs.«100067_j50276887167422_1_alg».proof.Proof.KernelIdeal.Val1
import proofs.«100067_j50276887167422_1_alg».proof.Proof.KernelIdeal.Val2
import proofs.«100067_j50276887167422_1_alg».proof.Proof.Spec

/-!
# The idealized kernel's result is the specification's

The run ends with the result buffer at `W11`. Walking back through the boundaries: the last reshape folds the
projection region's output; that output is the projection-plus-residual of the hidden layer, the narrowed projection
matrix and the flattened input; the hidden layer is the hidden-layer region's output over the two mean aggregates, the
node features, the two weight slabs, the root matrix and the bias; the aggregates are the shared edge chain applied to
the node features; and the node features are the layer-norm region's output over the flattened input, the scale and the
shift. A buffer that no item in between writes is read back at its earlier contents.
-/

noncomputable section

namespace Cert.KernelIdeal.Val

open Cert.KernelIdeal Cert.KernelIdeal.Gen Cert.KernelIdeal.Fr
open Idealize.ShloMosaic Idealize.ShloMosaic.TcCoe
open Idealize.SL Idealize.SL.Sem

variable (m : (ℓ : Loc nD τ sig) → Buf (Elt Ideal) ℓ) (c : Dev nD)

/-- The node features: what the layer-norm region leaves in its output array. -/
theorem nodes_val : (W2 (F := Ideal) m c (Proc.devRef .tc main_v1) : S8192x1024.Idx → EReal)
    = Cert.Spec.nodes (m ((c : Thread nD τ).loc main_arg0)) (m ((c : Thread nD τ).loc main_arg5)) (m ((c : Thread nD τ).loc main_arg6)) := by
  have e0 : (U1 (F := Ideal) m c main_v0 : S8192x1024.Idx → EReal) = Cert.Spec.flat (m ((c : Thread nD τ).loc main_arg0)) :=
    host0_v0 (W0 m c)
  have e5 : U1 (F := Ideal) m c main_arg5 = m ((c : Thread nD τ).loc main_arg5) :=
    StableHlo.after_of_writes_sub hostOps0 _ hostOps0_writes (by decide)
  have e6 : U1 (F := Ideal) m c main_arg6 = m ((c : Thread nD τ).loc main_arg6) :=
    StableHlo.after_of_writes_sub hostOps0 _ hostOps0_writes (by decide)
  refine (W2_arr m c 3).trans ?_
  rw [final0 (U1 m) c, e0, e5, e6]
  rfl

/-- A reference none of the five stretches between the first two regions writes is, at the hidden-layer region's
    entry, what the layer-norm region's exit left. -/
theorem W7_keep (r : Ref sig .tc) (h1 : r ∉ hostOps1_W) (h11 : r ∉ hostOps1_1_W) (h12 : r ∉ hostOps1_2_W)
    (h13 : r ∉ hostOps1_3_W) (h14 : r ∉ hostOps1_4_W) :
    W7 (F := Ideal) m c (Proc.devRef .tc r) = W2 m c (Proc.devRef .tc r) :=
  calc W7 (F := Ideal) m c (Proc.devRef .tc r)
    _ = W6 m c (Proc.devRef .tc r) := StableHlo.after_of_writes_sub hostOps1_4 _ hostOps1_4_writes h14
    _ = W5 m c (Proc.devRef .tc r) := StableHlo.after_of_writes_sub hostOps1_3 _ hostOps1_3_writes h13
    _ = W4 m c (Proc.devRef .tc r) := StableHlo.after_of_writes_sub hostOps1_2 _ hostOps1_2_writes h12
    _ = W3 m c (Proc.devRef .tc r) := StableHlo.after_of_writes_sub hostOps1_1 _ hostOps1_1_writes h11
    _ = W2 m c (Proc.devRef .tc r) := StableHlo.after_of_writes_sub hostOps1 _ hostOps1_writes h1

/-- An argument the layer-norm region does not stage is, at that region's exit, as launched. -/
theorem W2_arg (r : Ref sig .tc) (h0 : r ∉ hostOps0_W) (hr : ∀ w, Pipeline.arrRef spec0 w ≠ r) :
    W2 (F := Ideal) m c (Proc.devRef .tc r) = m ((c : Thread nD τ).loc r) :=
  (W2_of_ne m c r hr).trans (StableHlo.after_of_writes_sub hostOps0 _ hostOps0_writes h0)

/-- The hidden layer: what the hidden-layer region leaves in its output array. -/
theorem hid_val : (W8 (F := Ideal) m c (Proc.devRef .tc main_v55) : S8192x4096.Idx → EReal)
    = Cert.Spec.hid (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) := by
  have a1 := W2_arg m c main_arg1 (by decide) (by decide)
  have a2 := W2_arg m c main_arg2 (by decide) (by decide)
  have a3 := W2_arg m c main_arg3 (by decide) (by decide)
  have a7 := W2_arg m c main_arg7 (by decide) (by decide)
  have a8 := W2_arg m c main_arg8 (by decide) (by decide)
  have e45 : (U7 (F := Ideal) m c main_v45 : S8192x1024.Idx → EReal) = _ := mid_v45 (W2 m c)
  have e46 : (U7 (F := Ideal) m c main_v46 : S8192x1024.Idx → EReal) = _ := mid_v46 (W2 m c)
  have e47 : (U7 (F := Ideal) m c main_v47 : S8192x1024.Idx → EReal) = _ := mid_v47 (W2 m c)
  have e50 : (U7 (F := Ideal) m c main_v50 : S1024x4096.Idx → EReal) = _ := mid_v50 (W2 m c)
  have e53 : (U7 (F := Ideal) m c main_v53 : S1024x4096.Idx → EReal) = _ := mid_v53 (W2 m c)
  have e54 : (U7 (F := Ideal) m c main_v54 : S1024x4096.Idx → EReal) = _ := mid_v54 (W2 m c)
  have e3 : U7 (F := Ideal) m c main_arg3 = _ := mid_arg3 (W2 m c)
  refine (W8_arr m c 7).trans ?_
  rw [final1 (U7 m) c, e45, e46, e47, e50, e53, e54, e3, nodes_val m c, a1, a2, a3, a7, a8]
  rfl

/-- The flattened input is still there when the projection region is entered. -/
theorem flat_at9 : (U9 (F := Ideal) m c main_v0 : S8192x1024.Idx → EReal) = Cert.Spec.flat (m ((c : Thread nD τ).loc main_arg0)) :=
  calc (U9 (F := Ideal) m c main_v0 : S8192x1024.Idx → EReal)
    _ = W8 m c (Proc.devRef .tc main_v0) := host2_v0 (W8 m c)
    _ = W7 m c (Proc.devRef .tc main_v0) := W8_of_ne m c main_v0 (by decide)
    _ = W2 m c (Proc.devRef .tc main_v0) := W7_keep m c main_v0 (by decide) (by decide) (by decide) (by decide) (by decide)
    _ = W1 m c (Proc.devRef .tc main_v0) := W2_in m c 0 rfl
    _ = Cert.Spec.flat (m ((c : Thread nD τ).loc main_arg0)) := host0_v0 (W0 m c)

/-- The projection matrix as the projection region finds it. -/
theorem wo_at9 : (U9 (F := Ideal) m c main_v56 : S4096x1024.Idx → EReal) = (m ((c : Thread nD τ).loc main_arg4)) :=
  calc (U9 (F := Ideal) m c main_v56 : S4096x1024.Idx → EReal)
    _ = W8 m c (Proc.devRef .tc main_arg4) := host2_v56 (W8 m c)
    _ = W7 m c (Proc.devRef .tc main_arg4) := W8_of_ne m c main_arg4 (by decide)
    _ = W2 m c (Proc.devRef .tc main_arg4) := W7_keep m c main_arg4 (by decide) (by decide) (by decide) (by decide) (by decide)
    _ = (m ((c : Thread nD τ).loc main_arg4)) := W2_arg m c main_arg4 (by decide) (by decide)

/-- THE RESULT: the run's last valuation holds, in the result buffer, the specification's result of the nine
    argument arrays as launched. -/
theorem result_val : (W11 (F := Ideal) m c (Proc.devRef .tc main_v58) : S8x1024x1024.Idx → EReal)
    = Cert.Spec.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have e58 : (W11 (F := Ideal) m c (Proc.devRef .tc main_v58) : S8x1024x1024.Idx → EReal) = _ := host3_v58 (W10 m c)
  have e57 : W10 (F := Ideal) m c (Proc.devRef .tc main_v57) = (dat2 (U9 m) c).arrAt 3 cfg2.N := W10_arr m c 3
  have e55 : U9 (F := Ideal) m c main_v55 = W8 m c (Proc.devRef .tc main_v55) := host2_v55 (W8 m c)
  rw [e58, e57, Cert.KernelIdeal.Val2.final2 (U9 m) c, e55, hid_val m c, wo_at9 m c, flat_at9 m c]
  rfl

end Cert.KernelIdeal.Val

end
-- ==== Proof.RefSpec.lean ====
import proofs.«100067_j50276887167422_1_alg».proof.Proof.Spec
import proofs.«100067_j50276887167422_1_alg».proof.Proof.Gen.ReferenceIdeal.Read

/-!
# The reference computes the specification

The reference program, read stage by stage at the extended reals, is the specification's block:

* its layer norm over the last axis of the [8, 1024, 1024] input, flattened afterwards, is the specification's
  layer norm of the rows of the flattened input (row p = 1024·b + s of the flattened input is row (b, s));
* its gather / mask / segment-sum / divide chain for a relation is, operation for operation, the specification's
  `meanAgg` applied to the node features, and its two slices of the weight stack are the specification's slabs
  (the same operations on the same operands: equal by unfolding the names);
* its three `dot_general`s, the bias row and the rectifier are the hidden layer's entry-by-entry sums;
* its last `dot_general`, folded back to [8, 1024, 1024] and added to the input, is the output projection plus the
  residual row, up to the order of one addition.
-/

noncomputable section

namespace Cert.RefSpec

open Idealize.ShloMosaic Idealize.ShloMosaic.ValueIdx
open Cert.ReferenceIdeal.Read

variable [Cert.KernelIdeal.Facts] [Cert.ReferenceIdeal.Facts]

variable (x0 : (⟨Cert.ReferenceIdeal.S8x1024x1024, .f32⟩ : BufTy).Contents (Elt Ideal))
  (x1 : (⟨Cert.ReferenceIdeal.S2x1024x4096, .f32⟩ : BufTy).Contents (Elt Ideal))
  (x2 : (⟨Cert.ReferenceIdeal.S1024x4096, .f32⟩ : BufTy).Contents (Elt Ideal))
  (x3 : (⟨Cert.ReferenceIdeal.S4096, .f32⟩ : BufTy).Contents (Elt Ideal))
  (x4 : (⟨Cert.ReferenceIdeal.S4096x1024, .f32⟩ : BufTy).Contents (Elt Ideal))
  (x5 x6 : (⟨Cert.ReferenceIdeal.S1024, .f32⟩ : BufTy).Contents (Elt Ideal))
  (x7 : (⟨Cert.ReferenceIdeal.S2x262144, .i32⟩ : BufTy).Contents (Elt Ideal))
  (x8 : (⟨Cert.ReferenceIdeal.S262144, .i32⟩ : BufTy).Contents (Elt Ideal))

/-- The reference's first slice of the weight stack is the slab of relation 0. -/
theorem slab0_eq : val_main_v54 (F := Ideal) x1 = Cert.Spec.slab0 x1 := rfl

/-- The reference's second slice of the weight stack is the slab of relation 1. -/
theorem slab1_eq : val_main_v81 (F := Ideal) x1 = Cert.Spec.slab1 x1 := rfl

/-- The reference's mean aggregate of relation 0 is the specification's, applied to the reference's node features. -/
theorem agg0_eq : val_main_v52 (F := Ideal) x0 x5 x6 x7 x8
    = Cert.Spec.meanAgg 0#32 (val_main_v24 (F := Ideal) x0 x5 x6) x7 x8 := rfl

/-- The reference's mean aggregate of relation 1 is the specification's, applied to the reference's node features. -/
theorem agg1_eq : val_main_v79 (F := Ideal) x0 x5 x6 x7 x8
    = Cert.Spec.meanAgg 1#32 (val_main_v24 (F := Ideal) x0 x5 x6) x7 x8 := rfl

/-! ## The layer norm -/

/-- The one index of a unit axis. -/
abbrev z1 : Fin 1 := ⟨0, Nat.one_pos⟩

/-- Row p = 1024·b + s of the flattened input is row (b, s) of the input. -/
theorem flat_apply (p : Fin 8192) (b : Fin 8) (s k : Fin 1024) (h : p.val = b.val * 1024 + s.val) :
    Cert.Spec.flat x0 (ix2 p k) = x0 (ix3 b s k) := by
  unfold Cert.Spec.flat
  exact shapeCast_apply x0 _ (ix2 p k) (ix3 b s k) (by
    rewrite [Shape.rowMajor_val_three, Shape.rowMajor_val_two]
    show (b.val * 1024 + s.val) * 1024 + k.val = p.val * 1024 + k.val
    rw [h])

/-- The reference's mean column at (b, s): the mean of row (b, s). -/
theorem mean_apply (b : Fin 8) (s : Fin 1024) :
    val_main_v3 (F := Ideal) x0 (ix3 b s z1)
      = LayerNorm.rowMean (Ideal.ofBits .f32 0x44800000#32) (fun k : Fin 1024 => x0 (ix3 b s k)) := by
  rw [val_main_v3_apply, val_main_v1_apply, val_main_v0_apply, val_main_v2_apply, val_main_cst_0_apply,
    val_main_cst_apply, Ideal.hostDivf_def, Ideal.ofBits_def, Ideal.ofBits_def, Ideal.ofBits_zero_f32, zero_add]
  unfold LayerNorm.rowMean
  refine congrArg (Ideal.div · _) (Finset.sum_congr rfl fun k _ => congrArg x0 ?_)
  exact funext fun a => match a with | ⟨0, _⟩ => rfl | ⟨1, _⟩ => rfl | ⟨2, _⟩ => rfl

/-- The reference's centred input at (b, s, c), first copy. -/
theorem centred5_apply (b : Fin 8) (s c : Fin 1024) :
    val_main_v5 (F := Ideal) x0 (ix3 b s c)
      = x0 (ix3 b s c) - LayerNorm.rowMean (Ideal.ofBits .f32 0x44800000#32) (fun k : Fin 1024 => x0 (ix3 b s k)) := by
  rw [val_main_v5_apply, val_main_v4_apply, Ideal.subf_def, ← mean_apply]
  refine congrArg (fun j => _ - val_main_v3 (F := Ideal) x0 j) ?_
  exact funext fun a => match a with | ⟨0, _⟩ => rfl | ⟨1, _⟩ => rfl | ⟨2, _⟩ => rfl

/-- The reference's centred input at (b, s, c), second copy: the same term. -/
theorem centred12_apply (b : Fin 8) (s c : Fin 1024) :
    val_main_v12 (F := Ideal) x0 (ix3 b s c)
      = x0 (ix3 b s c) - LayerNorm.rowMean (Ideal.ofBits .f32 0x44800000#32) (fun k : Fin 1024 => x0 (ix3 b s k)) := by
  rw [val_main_v12_apply, val_main_v11_apply, Ideal.subf_def, ← mean_apply]
  refine congrArg (fun j => _ - val_main_v3 (F := Ideal) x0 j) ?_
  exact funext fun a => match a with | ⟨0, _⟩ => rfl | ⟨1, _⟩ => rfl | ⟨2, _⟩ => rfl

/-- The reference's second-moment column at (b, s): the mean of the squared centred row. -/
theorem var_apply (b : Fin 8) (s : Fin 1024) :
    val_main_v10 (F := Ideal) x0 (ix3 b s z1)
      = LayerNorm.rowMean (Ideal.ofBits .f32 0x44800000#32) (fun k : Fin 1024 =>
          (x0 (ix3 b s k) - LayerNorm.rowMean (Ideal.ofBits .f32 0x44800000#32) (fun k : Fin 1024 => x0 (ix3 b s k)))
          * (x0 (ix3 b s k) - LayerNorm.rowMean (Ideal.ofBits .f32 0x44800000#32) (fun k : Fin 1024 => x0 (ix3 b s k)))) := by
  rw [val_main_v10_apply, val_main_v8_apply, val_main_v7_apply, val_main_v9_apply, val_main_cst_2_apply,
    val_main_cst_1_apply, Ideal.hostDivf_def, Ideal.ofBits_def, Ideal.ofBits_def, Ideal.ofBits_zero_f32, zero_add]
  unfold LayerNorm.rowMean
  refine congrArg (Ideal.div · _) (Finset.sum_congr rfl fun k _ => ?_)
  have e : idx_main_v7 (idx_main_v8 (ix3 b s z1)) k = ix3 b s k :=
    funext fun a => match a with | ⟨0, _⟩ => rfl | ⟨1, _⟩ => rfl | ⟨2, _⟩ => rfl
  rw [val_main_v6_apply, Ideal.mulf_def, e, centred5_apply]
  rfl

/-- The reference's normalised array at (b, s, c): the layer norm of row (b, s) at column c. -/
theorem norm3_apply (b : Fin 8) (s c : Fin 1024) :
    val_main_v23 (F := Ideal) x0 x5 x6 (ix3 b s c)
      = LayerNorm.lnorm (Ideal.ofBits .f32 0x44800000#32) (Ideal.ofBits .f32 0x358637BD#32)
          (fun k : Fin 1024 => x0 (ix3 b s k)) (fun k => x5 (ix1 k)) (fun k => x6 (ix1 k)) c := by
  have e16 : idx_main_v16 (ix3 b s c) = ix3 b s z1 :=
    funext fun a => match a with | ⟨0, _⟩ => rfl | ⟨1, _⟩ => rfl | ⟨2, _⟩ => rfl
  have e19 : idx_main_v18 (idx_main_v19 (ix3 b s c)) = ix1 c := funext fun a => match a with | ⟨0, _⟩ => rfl
  have e22 : idx_main_v21 (idx_main_v22 (ix3 b s c)) = ix1 c := funext fun a => match a with | ⟨0, _⟩ => rfl
  rw [val_main_v23_apply, val_main_v20_apply, val_main_v17_apply, val_main_v22_apply, val_main_v21_apply,
    val_main_v19_apply, val_main_v18_apply, val_main_v16_apply, val_main_v15_apply, val_main_v14_apply,
    val_main_v13_apply, val_main_cst_3_apply, e16, e19, e22, centred12_apply, var_apply,
    Ideal.addf_def, Ideal.mulf_def, Ideal.mulf_def, Ideal.addf_def, Ideal.hostUnary_rsqrt_def, Ideal.ofBits_def]
  rfl

/-- The reference's node features are the specification's. -/
theorem nodes_eq : val_main_v24 (F := Ideal) x0 x5 x6 = Cert.Spec.nodes x0 x5 x6 := by
  funext i
  obtain ⟨p, c, rfl⟩ : ∃ (p : Fin 8192) (c : Fin 1024), i = ix2 p c := ⟨i 0, i 1, eq_ix2 i⟩
  have e24 : idx_main_v24 (ix2 p c) = ix3 (⟨p.val / 1024, by omega⟩ : Fin 8) (⟨p.val % 1024, by omega⟩ : Fin 1024) c :=
    funext fun a => match a with
      | ⟨0, _⟩ => Fin.ext (by show (p.val * 1024 + c.val) / 1048576 = p.val / 1024; omega)
      | ⟨1, _⟩ => Fin.ext (by show (p.val * 1024 + c.val) / 1024 % 1024 = p.val % 1024; omega)
      | ⟨2, _⟩ => Fin.ext (by show (p.val * 1024 + c.val) % 1024 = c.val; omega)
  rw [val_main_v24_apply, e24, norm3_apply]
  unfold Cert.Spec.nodes Cert.Spec.feat
  rw [Cert.Spec.arr2_ix2]
  unfold Cert.Spec.featAt
  simp only [flat_apply x0 p (⟨p.val / 1024, by omega⟩ : Fin 8) (⟨p.val % 1024, by omega⟩ : Fin 1024) _ (by show p.val = p.val / 1024 * 1024 + p.val % 1024; omega)]

/-! ## The hidden layer -/

/-- The reference's hidden layer is the specification's. -/
theorem hid_eq : val_main_v89 (F := Ideal) x0 x1 x2 x3 x5 x6 x7 x8 = Cert.Spec.hid x0 x1 x2 x3 x5 x6 x7 x8 := by
  funext i
  obtain ⟨p, q, rfl⟩ : ∃ (p : Fin 8192) (q : Fin 4096), i = ix2 p q := ⟨i 0, i 1, eq_ix2 i⟩
  have el55 : ∀ k : Fin 1024, lidx_main_v55 (ix2 p q) k = ix2 p k :=
    fun k => funext fun a => match a with | ⟨0, _⟩ => rfl | ⟨1, _⟩ => rfl
  have er55 : ∀ k : Fin 1024, ridx_main_v55 (ix2 p q) k = ix2 k q :=
    fun k => funext fun a => match a with | ⟨0, _⟩ => rfl | ⟨1, _⟩ => rfl
  have el82 : ∀ k : Fin 1024, lidx_main_v82 (ix2 p q) k = ix2 p k :=
    fun k => funext fun a => match a with | ⟨0, _⟩ => rfl | ⟨1, _⟩ => rfl
  have er82 : ∀ k : Fin 1024, ridx_main_v82 (ix2 p q) k = ix2 k q :=
    fun k => funext fun a => match a with | ⟨0, _⟩ => rfl | ⟨1, _⟩ => rfl
  have el84 : ∀ k : Fin 1024, lidx_main_v84 (ix2 p q) k = ix2 p k :=
    fun k => funext fun a => match a with | ⟨0, _⟩ => rfl | ⟨1, _⟩ => rfl
  have er84 : ∀ k : Fin 1024, ridx_main_v84 (ix2 p q) k = ix2 k q :=
    fun k => funext fun a => match a with | ⟨0, _⟩ => rfl | ⟨1, _⟩ => rfl
  have eb : idx_main_v86 (idx_main_v87 (ix2 p q)) = ix1 q := funext fun a => match a with | ⟨0, _⟩ => rfl
  have h55 : val_main_v55 (F := Ideal) x0 x1 x5 x6 x7 x8 (ix2 p q)
      = ∑ k : Fin 1024, Cert.Spec.meanAgg 0#32 (Cert.Spec.nodes x0 x5 x6) x7 x8 (ix2 p k) * Cert.Spec.slab0 x1 (ix2 k q) := by
    rw [val_main_v55_apply, agg0_eq, nodes_eq, slab0_eq]
    exact Finset.sum_congr rfl fun k _ => by rw [el55 k, er55 k]
  have h82 : val_main_v82 (F := Ideal) x0 x1 x5 x6 x7 x8 (ix2 p q)
      = ∑ k : Fin 1024, Cert.Spec.meanAgg 1#32 (Cert.Spec.nodes x0 x5 x6) x7 x8 (ix2 p k) * Cert.Spec.slab1 x1 (ix2 k q) := by
    rw [val_main_v82_apply, agg1_eq, nodes_eq, slab1_eq]
    exact Finset.sum_congr rfl fun k _ => by rw [el82 k, er82 k]
  have h84 : val_main_v84 (F := Ideal) x0 x2 x5 x6 (ix2 p q)
      = ∑ k : Fin 1024, Cert.Spec.nodes x0 x5 x6 (ix2 p k) * x2 (ix2 k q) := by
    rw [val_main_v84_apply, nodes_eq]
    exact Finset.sum_congr rfl fun k _ => by rw [el84 k, er84 k]
  rw [val_main_v89_apply, val_main_call2_v0_apply, val_main_call2_cst_apply, val_main_v88_apply, val_main_v87_apply,
    val_main_v86_apply, eb, val_main_v85_apply, val_main_v83_apply, val_main_v56_apply, val_main_v29_apply,
    val_main_cst_4_apply, h55, h82, h84]
  simp only [Ideal.addf_def, Ideal.maximumf_def, Ideal.ofBits_def, Ideal.ofBits_zero_f32, zero_add]
  unfold Cert.Spec.hid Cert.Spec.hidden
  rw [Cert.Spec.arr2_ix2]
  rfl

/-! ## The result -/

/-- The reference's result is the specification's block. -/
theorem result_eq : val_main_v92 (F := Ideal) x0 x1 x2 x3 x4 x5 x6 x7 x8 = Cert.Spec.result x0 x1 x2 x3 x4 x5 x6 x7 x8 := by
  funext i
  obtain ⟨b, s, c, rfl⟩ : ∃ (b : Fin 8) (s c : Fin 1024), i = ix3 b s c := ⟨i 0, i 1, i 2, eq_ix3 i⟩
  have hP : b.val * 1024 + s.val < 8192 := by omega
  have e91 : idx_main_v91 (ix3 b s c) = ix2 (⟨b.val * 1024 + s.val, hP⟩ : Fin 8192) c :=
    funext fun a => match a with
      | ⟨0, _⟩ => Fin.ext (by show ((b.val * 1024 + s.val) * 1024 + c.val) / 1024 = b.val * 1024 + s.val; omega)
      | ⟨1, _⟩ => Fin.ext (by show ((b.val * 1024 + s.val) * 1024 + c.val) % 1024 = c.val; omega)
  have el : ∀ k : Fin 4096, lidx_main_v90 (ix2 (⟨b.val * 1024 + s.val, hP⟩ : Fin 8192) c) k
      = ix2 (⟨b.val * 1024 + s.val, hP⟩ : Fin 8192) k :=
    fun k => funext fun a => match a with | ⟨0, _⟩ => rfl | ⟨1, _⟩ => rfl
  have er : ∀ k : Fin 4096, ridx_main_v90 (ix2 (⟨b.val * 1024 + s.val, hP⟩ : Fin 8192) c) k = ix2 k c :=
    fun k => funext fun a => match a with | ⟨0, _⟩ => rfl | ⟨1, _⟩ => rfl
  have hr : Cert.Spec.result x0 x1 x2 x3 x4 x5 x6 x7 x8 (ix3 b s c)
      = Cert.Spec.out (Cert.Spec.hid x0 x1 x2 x3 x5 x6 x7 x8) x4 (Cert.Spec.flat x0)
          (ix2 (⟨b.val * 1024 + s.val, hP⟩ : Fin 8192) c) := by
    unfold Cert.Spec.result Cert.Spec.unflat
    exact shapeCast_apply _ _ (ix3 b s c) (ix2 (⟨b.val * 1024 + s.val, hP⟩ : Fin 8192) c) (by
      rewrite [Shape.rowMajor_val_two, Shape.rowMajor_val_three]
      rfl)
  rw [hr, val_main_v92_apply, val_main_v91_apply, e91, val_main_v90_apply, hid_eq, Ideal.addf_def]
  unfold Cert.Spec.out
  rw [Cert.Spec.arr2_ix2]
  unfold Cert.Spec.outAt
  rw [flat_apply x0 _ b s c rfl, add_comm]
  refine congrArg (fun t => t + x0 (ix3 b s c)) (Finset.sum_congr rfl fun k _ => ?_)
  rw [el k, er k]

end Cert.RefSpec

end
-- ==== Proof.lean ====
/-
  One relational graph-convolution block, as a Pallas program of three kernels against its jnp reference.

  The program flattens the [8, 1024, 1024] input to 8192 node rows and (kernel 1) layer-normalises each row; on the
  host it gathers the feature rows at the edges' sources, keeps per relation the edges of that type, sums them into
  the edges' targets and divides by the number of kept edges (at least one); (kernel 2) it forms
  max(h_0·W_0 + h_1·W_1 + x·root + bias, 0) tile by tile; (kernel 3) it multiplies by the projection matrix, the
  contraction cut into four blocks accumulated in a scratch buffer, and adds the input row. The reference computes the
  same block with whole-array operations, the layer norm before the flattening.

  Both results are the specification's (Proof/Spec.lean) function of the nine argument arrays, on the extended reals:
  the two sides differ only in the grouping and order of sums, in a zero added to a sum, and in changes of float format,
  which are the identity there. No finiteness of the inputs is used.

  * The frames of the two kernel programs: Proof/Kernel/Run.lean and Proof/KernelIdeal/Run.lean, the program's run as
    eleven items, the three kernel regions over Proof/<Program>/Reg0.lean, Reg1.lean, Reg2.lean.
  * The idealized kernel's result: Proof/KernelIdeal/Bridge.lean, over each region's output array as a whole-array
    function (Val0.lean, Val1.lean, Val2.lean) and the host stretches between them (HostVals.lean).
  * The reference's result: its generated run, read back operation by operation in Proof/RefSpec.lean.
  * The idealization rewrote nothing, so the preservation conjunct is trivial.
-/
import proofs.«100067_j50276887167422_1_alg».proof.Defs
import proofs.«100067_j50276887167422_1_alg».proof.Proof.Gen.Kernel
import proofs.«100067_j50276887167422_1_alg».proof.Proof.Gen.KernelIdeal
import proofs.«100067_j50276887167422_1_alg».proof.Proof.Gen.ReferenceIdeal
import proofs.«100067_j50276887167422_1_alg».proof.Proof.Gen.Pre_finite_inputs
import proofs.«100067_j50276887167422_1_alg».proof.Proof.Gen.ReferenceIdeal.Run
import proofs.«100067_j50276887167422_1_alg».proof.Proof.Gen.ReferenceIdeal.Read
import proofs.«100067_j50276887167422_1_alg».proof.Proof.Kernel.Run
import proofs.«100067_j50276887167422_1_alg».proof.Proof.KernelIdeal.Run
import proofs.«100067_j50276887167422_1_alg».proof.Proof.KernelIdeal.Bridge
import proofs.«100067_j50276887167422_1_alg».proof.Proof.RefSpec
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Fr.frame (F := Bits) m ρ

/-- So does its idealization. -/
theorem frame_ki : Cert.frame_KernelIdeal := fun m ρ _ => Cert.KernelIdeal.Fr.frame (F := Ideal) m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization is the program's own text read on the extended reals: nothing was rewritten. -/
theorem preserves : Cert.preserves_Kernel_KernelIdeal := trivial

/-- From memories agreeing on the nine arguments, both idealized programs end with the specification's result of
    them: the kernel program by its run and the walk back through its boundaries, the reference by its run read back
    operation by operation. -/
theorem algebraic : Cert.algebraic_KernelIdeal_ReferenceIdeal := by
  intro m ρ m' ρ' _ hagree
  refine ⟨fun c => Cert.KernelIdeal.Fr.W11 (F := Ideal) m c (Proc.devRef .tc Cert.KernelIdeal.main_v58),
    Cert.KernelIdeal.Fr.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v92_eq m' c, Cert.RefSpec.result_eq, h0, h1, h2, h3, h4, h5, h6, h7, h8]
  exact (Cert.KernelIdeal.Val.result_val m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
